-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v98)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v98) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1600000 : Shape := ⟨2, ![2, 1600000]⟩
abbrev S1600000 : Shape := ⟨1, ![1600000]⟩
abbrev S16384 : Shape := ⟨1, ![16384]⟩
abbrev S100000x64 : Shape := ⟨2, ![100000, 64]⟩
abbrev S64x64 : Shape := ⟨2, ![64, 64]⟩
abbrev S64 : Shape := ⟨1, ![64]⟩
abbrev S128x6 : Shape := ⟨2, ![128, 6]⟩
abbrev S6 : Shape := ⟨1, ![6]⟩
abbrev S6x3 : Shape := ⟨2, ![6, 3]⟩
abbrev S3 : Shape := ⟨1, ![3]⟩
abbrev S_ : Shape := ⟨0, ![]⟩

class Facts : Prop where
  bcast_S_S1600000 : S_.BroadcastsInDim S1600000 (![] : Fin 0 → Fin S1600000.rank)
  reducesTo_S1600000_S_d0 : S1600000.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x6 : S_.BroadcastsInDim S128x6 (![] : Fin 0 → Fin S128x6.rank)
  reducesTo_S128x6_S_d0_1 : S128x6.ReducesTo [0, 1] S_
  bcast_S_S6 : S_.BroadcastsInDim S6 (![] : Fin 0 → Fin S6.rank)
  reducesTo_S6_S_d0 : S6.ReducesTo [0] S_
  bcast_S_S6x3 : S_.BroadcastsInDim S6x3 (![] : Fin 0 → Fin S6x3.rank)
  reducesTo_S6x3_S_d0_1 : S6x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_arg14 : FVec F S3 .f32) (main_v48 : IVec S_ 1) (main_v49 : FVec F S6x3 .f32) (main_v50 : FVec F S6x3 .f32) : IVec S_ 1 :=
  let main_v51 : IVec S6x3 1 := cmpf .olt main_v49 main_v50
  let main_c_19 : IVec S_ 1 := constantI S_ 1 1#1
  let main_v52 : IVec S_ 1 := (fun x v => Host.reduce IntOp.andi x v reducesTo_S6x3_S_d0_1 h_S_) main_v51 main_c_19
  let main_v53 : IVec S_ 1 := andi main_v48 main_v52
  let main_v54 : FVec F S3 .f32 := Host.absf main_arg14
  let main_cst_20 : FVec F S_ .f32 := constant S_ .f32 0x7F800000#32
  let main_v55 : FVec F S3 .f32 := broadcastInDim S3 ![] bcast_S_S3 main_cst_20
  let main_v56 : IVec S3 1 := cmpf .olt main_v54 main_v55
  let main_c_21 : IVec S_ 1 := constantI S_ 1 1#1
  let main_v57 : IVec S_ 1 := (fun x v => Host.reduce IntOp.andi x v reducesTo_S3_S_d0 h_S_) main_v56 main_c_21
  let main_v58 : IVec S_ 1 := andi main_v53 main_v57
  main_v58

def fn_part2 {F : FTy → Type} [FloatOps F] (main_arg10 : FVec F S64 .f32) (main_arg11 : FVec F S128x6 .f32) (main_arg12 : FVec F S6 .f32) (main_arg13 : FVec F S6x3 .f32) (main_arg14 : FVec F S3 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x6 .f32 := Host.absf main_arg11
  let main_cst_14 : FVec F S_ .f32 := constant S_ .f32 0x7F800000#32
  let main_v40 : FVec F S128x6 .f32 := broadcastInDim S128x6 ![] bcast_S_S128x6 main_cst_14
  let main_v41 : IVec S128x6 1 := cmpf .olt main_v39 main_v40
  let main_c_15 : IVec S_ 1 := constantI S_ 1 1#1
  let main_v42 : IVec S_ 1 := (fun x v => Host.reduce IntOp.andi x v reducesTo_S128x6_S_d0_1 h_S_) main_v41 main_c_15
  let main_v43 : IVec S_ 1 := andi main_v38 main_v42
  let main_v44 : FVec F S6 .f32 := Host.absf main_arg12
  let main_cst_16 : FVec F S_ .f32 := constant S_ .f32 0x7F800000#32
  let main_v45 : FVec F S6 .f32 := broadcastInDim S6 ![] bcast_S_S6 main_cst_16
  let main_v46 : IVec S6 1 := cmpf .olt main_v44 main_v45
  let main_c_17 : IVec S_ 1 := constantI S_ 1 1#1
  let main_v47 : IVec S_ 1 := (fun x v => Host.reduce IntOp.andi x v reducesTo_S6_S_d0 h_S_) main_v46 main_c_17
  let main_v48 : IVec S_ 1 := andi main_v43 main_v47
  let main_v49 : FVec F S6x3 .f32 := Host.absf main_arg13
  let main_cst_18 : FVec F S_ .f32 := constant S_ .f32 0x7F800000#32
  let main_v50 : FVec F S6x3 .f32 := broadcastInDim S6x3 ![] bcast_S_S6x3 main_cst_18
  fn_part3 (F := F) main_arg14 main_v48 main_v49 main_v50

def fn_part1 {F : FTy → Type} [FloatOps F] (main_arg7 : FVec F S64x64 .f32) (main_arg8 : FVec F S64 .f32) (main_arg9 : FVec F S64x64 .f32) (main_arg10 : FVec F S64 .f32) (main_arg11 : FVec F S128x6 .f32) (main_arg12 : FVec F S6 .f32) (main_arg13 : FVec F S6x3 .f32) (main_arg14 : FVec F S3 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg9
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg10 main_arg11 main_arg12 main_arg13 main_arg14 main_v33

def fn {F : FTy → Type} [FloatOps F] (main_arg0 : IVec S2x1600000 32) (main_arg1 : FVec F S1600000 .f32) (main_arg2 : IVec S16384 32) (main_arg3 : IVec S16384 32) (main_arg4 : FVec F S100000x64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S128x6 .f32) (main_arg12 : FVec F S6 .f32) (main_arg13 : FVec F S6x3 .f32) (main_arg14 : FVec F S3 .f32) : IVec S_ 1 :=
  let main_v0 : FVec F S1600000 .f32 := Host.absf main_arg1
  let main_cst : FVec F S_ .f32 := constant S_ .f32 0x7F800000#32
  let main_v1 : FVec F S1600000 .f32 := broadcastInDim S1600000 ![] bcast_S_S1600000 main_cst
  let main_v2 : IVec S1600000 1 := cmpf .olt main_v0 main_v1
  let main_c : IVec S_ 1 := constantI S_ 1 1#1
  let main_v3 : IVec S_ 1 := (fun x v => Host.reduce IntOp.andi x v reducesTo_S1600000_S_d0 h_S_) main_v2 main_c
  let main_v4 : FVec F S100000x64 .f32 := Host.absf main_arg4
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg5
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg7 main_arg8 main_arg9 main_arg10 main_arg11 main_arg12 main_arg13 main_arg14 main_v13 main_v16
-- ==== Kernel.lean ====
abbrev S2x1600000 : Shape := ⟨2, ![2, 1600000]⟩
abbrev S1600000 : Shape := ⟨1, ![1600000]⟩
abbrev S16384 : Shape := ⟨1, ![16384]⟩
abbrev S100000x64 : Shape := ⟨2, ![100000, 64]⟩
abbrev S64x64 : Shape := ⟨2, ![64, 64]⟩
abbrev S64 : Shape := ⟨1, ![64]⟩
abbrev S128x6 : Shape := ⟨2, ![128, 6]⟩
abbrev S6 : Shape := ⟨1, ![6]⟩
abbrev S6x3 : Shape := ⟨2, ![6, 3]⟩
abbrev S3 : Shape := ⟨1, ![3]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩
abbrev S16384x1 : Shape := ⟨2, ![16384, 1]⟩
abbrev S16384x64 : Shape := ⟨2, ![16384, 64]⟩
abbrev S16384x128 : Shape := ⟨2, ![16384, 128]⟩
abbrev S1x6 : Shape := ⟨2, ![1, 6]⟩
abbrev S1x3 : Shape := ⟨2, ![1, 3]⟩
abbrev S16384x3 : Shape := ⟨2, ![16384, 3]⟩
abbrev S2048x128 : Shape := ⟨2, ![2048, 128]⟩
abbrev S2048x3 : Shape := ⟨2, ![2048, 3]⟩
abbrev S2048x6 : Shape := ⟨2, ![2048, 6]⟩

abbrev nBuf : Space → Nat
  | .hbm => 152
  | .vmem => 30
  | .smem => 0
  | _ => 0

abbrev hbmTy0_0 (i : Nat) : BufTy := match i % 128 with
  | 0 => ⟨S2x1600000, .i32⟩
  | 1 => ⟨S1600000, .f32⟩
  | 2 => ⟨S16384, .i32⟩
  | 3 => ⟨S16384, .i32⟩
  | 4 => ⟨S100000x64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S128x6, .f32⟩
  | 12 => ⟨S6, .f32⟩
  | 13 => ⟨S6x3, .f32⟩
  | 14 => ⟨S3, .f32⟩
  | 15 => ⟨S1x1600000, .i32⟩
  | 16 => ⟨S1600000, .i32⟩
  | 17 => ⟨S1x1600000, .i32⟩
  | 18 => ⟨S1600000, .i32⟩
  | 19 => ⟨S100000, .i32⟩
  | 20 => ⟨S1700000, .i32⟩
  | 21 => ⟨S1700000, .i32⟩
  | 22 => ⟨S_, .f32⟩
  | 23 => ⟨S100000, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000, .f32⟩
  | 59 => ⟨S1700000, .f32⟩
  | 60 => ⟨S100000x64, .f32⟩
  | 61 => ⟨S1700000x1, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000x64, .f32⟩
  | 71 => ⟨S1700000x64, .f32⟩
  | 72 => ⟨S1700000x64, .f32⟩
  | 73 => ⟨S_, .f32⟩
  | 74 => ⟨S100000x64, .f32⟩
  | 75 => ⟨S1700000x1, .i32⟩
  | 76 => ⟨S100000x64, .f32⟩
  | 77 => ⟨S1x64, .f32⟩
  | 78 => ⟨S100000x64, .f32⟩
  | 79 => ⟨S1700000x1, .f32⟩
  | 80 => ⟨S_, .i32⟩
  | 81 => ⟨S1700000, .i32⟩
  | 82 => ⟨S1700000, .i1⟩
  | 83 => ⟨S_, .i32⟩
  | 84 => ⟨S1700000, .i32⟩
  | 85 => ⟨S1700000, .i32⟩
  | 86 => ⟨S1700000, .i32⟩
  | 87 => ⟨S1700000x1, .i32⟩
  | 88 => ⟨S1700000x64, .f32⟩
  | 89 => ⟨S1700000x64, .f32⟩
  | 90 => ⟨S1700000x64, .f32⟩
  | 91 => ⟨S_, .f32⟩
  | 92 => ⟨S100000x64, .f32⟩
  | 93 => ⟨S1700000x1, .i32⟩
  | 94 => ⟨S100000x64, .f32⟩
  | 95 => ⟨S1x64, .f32⟩
  | 96 => ⟨S100000x64, .f32⟩
  | 97 => ⟨S1700000x1, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000x64, .f32⟩
  | 107 => ⟨S1700000x64, .f32⟩
  | 108 => ⟨S1700000x64, .f32⟩
  | 109 => ⟨S_, .f32⟩
  | 110 => ⟨S100000x64, .f32⟩
  | 111 => ⟨S1700000x1, .i32⟩
  | 112 => ⟨S100000x64, .f32⟩
  | 113 => ⟨S1x64, .f32⟩
  | 114 => ⟨S100000x64, .f32⟩
  | 115 => ⟨S_, .i32⟩
  | 116 => ⟨S16384, .i32⟩
  | 117 => ⟨S16384, .i1⟩
  | 118 => ⟨S_, .i32⟩
  | 119 => ⟨S16384, .i32⟩
  | 120 => ⟨S16384, .i32⟩
  | 121 => ⟨S16384, .i32⟩
  | 122 => ⟨S16384x1, .i32⟩
  | 123 => ⟨S16384x64, .f32⟩
  | 124 => ⟨S_, .i32⟩
  | 125 => ⟨S16384, .i32⟩
  | 126 => ⟨S16384, .i1⟩
  | 127 => ⟨S_, .i32⟩
  | _ => ⟨S2x1600000, .i32⟩

abbrev hbmTy0_1 (i : Nat) : BufTy := match i % 128 with
  | 0 => ⟨S16384, .i32⟩
  | 1 => ⟨S16384, .i32⟩
  | 2 => ⟨S16384, .i32⟩
  | 3 => ⟨S16384x1, .i32⟩
  | 4 => ⟨S16384x64, .f32⟩
  | 5 => ⟨S16384x128, .f32⟩
  | 6 => ⟨S1x6, .f32⟩
  | 7 => ⟨S1x3, .f32⟩
  | 8 => ⟨S16384x3, .f32⟩
  | 9 => ⟨S_, .f32⟩
  | 10 => ⟨S3, .f32⟩
  | 11 => ⟨S_, .f32⟩
  | 12 => ⟨S3, .f32⟩
  | 13 => ⟨S3, .f32⟩
  | 14 => ⟨S1x3, .f32⟩
  | 15 => ⟨S16384x3, .f32⟩
  | 16 => ⟨S16384x3, .f32⟩
  | 17 => ⟨S16384x3, .f32⟩
  | 18 => ⟨S_, .f32⟩
  | 19 => ⟨S3, .f32⟩
  | 20 => ⟨S1x3, .f32⟩
  | 21 => ⟨S1x3, .f32⟩
  | 22 => ⟨S16384x3, .f32⟩
  | 23 => ⟨S16384x3, .f32⟩
  | _ => ⟨S2x1600000, .i32⟩

abbrev hbmTy (i : Nat) : BufTy := match i / 128 with
  | 0 => hbmTy0_0 i
  | 1 => hbmTy0_1 i
  | _ => ⟨S2x1600000, .i32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S1x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S2048x128, .f32⟩
  | .local _ .vmem, ⟨23, _⟩ => ⟨S2048x128, .f32⟩
  | .local _ .vmem, ⟨24, _⟩ => ⟨S128x6, .f32⟩
  | .local _ .vmem, ⟨25, _⟩ => ⟨S1x6, .f32⟩
  | .local _ .vmem, ⟨26, _⟩ => ⟨S6x3, .f32⟩
  | .local _ .vmem, ⟨27, _⟩ => ⟨S1x3, .f32⟩
  | .local _ .vmem, ⟨28, _⟩ => ⟨S2048x3, .f32⟩
  | .local _ .vmem, ⟨29, _⟩ => ⟨S2048x3, .f32⟩
  | _, _ => ⟨S2x1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v17 : Ref sig .tc := ⟨.hbm, 39, rfl⟩
abbrev main_c : Ref sig .tc := ⟨.hbm, 40, rfl⟩
abbrev main_v18 : Ref sig .tc := ⟨.hbm, 41, rfl⟩
abbrev main_v19 : Ref sig .tc := ⟨.hbm, 42, rfl⟩
abbrev main_c_4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_c_6 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_7 : Ref sig .tc := ⟨.hbm, 62, rfl⟩
abbrev main_v36 : Ref sig .tc := ⟨.hbm, 63, rfl⟩
abbrev main_v37 : Ref sig .tc := ⟨.hbm, 64, rfl⟩
abbrev main_c_8 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_10 : Ref sig .tc := ⟨.hbm, 80, rfl⟩
abbrev main_v51 : Ref sig .tc := ⟨.hbm, 81, rfl⟩
abbrev main_v52 : Ref sig .tc := ⟨.hbm, 82, rfl⟩
abbrev main_c_11 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_12 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_13 : Ref sig .tc := ⟨.hbm, 98, rfl⟩
abbrev main_v66 : Ref sig .tc := ⟨.hbm, 99, rfl⟩
abbrev main_v67 : Ref sig .tc := ⟨.hbm, 100, rfl⟩
abbrev main_c_14 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_15 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_16 : Ref sig .tc := ⟨.hbm, 115, rfl⟩
abbrev main_v80 : Ref sig .tc := ⟨.hbm, 116, rfl⟩
abbrev main_v81 : Ref sig .tc := ⟨.hbm, 117, rfl⟩
abbrev main_c_17 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_c_18 : Ref sig .tc := ⟨.hbm, 124, rfl⟩
abbrev main_v87 : Ref sig .tc := ⟨.hbm, 125, rfl⟩
abbrev main_v88 : Ref sig .tc := ⟨.hbm, 126, rfl⟩
abbrev main_c_19 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_call1_cst : Ref sig .tc := ⟨.hbm, 137, rfl⟩
abbrev main_call1_v0 : Ref sig .tc := ⟨.hbm, 138, rfl⟩
abbrev main_call1_cst_0 : Ref sig .tc := ⟨.hbm, 139, rfl⟩
abbrev main_call1_v1 : Ref sig .tc := ⟨.hbm, 140, rfl⟩
abbrev main_call1_v2 : Ref sig .tc := ⟨.hbm, 141, rfl⟩
abbrev main_call1_v3 : Ref sig .tc := ⟨.hbm, 142, rfl⟩
abbrev main_call1_v4 : Ref sig .tc := ⟨.hbm, 143, rfl⟩
abbrev main_call1_v5 : Ref sig .tc := ⟨.hbm, 144, rfl⟩
abbrev main_call1_v6 : Ref sig .tc := ⟨.hbm, 145, rfl⟩
abbrev main_call1_cst_1 : Ref sig .tc := ⟨.hbm, 146, rfl⟩
abbrev main_call1_v7 : Ref sig .tc := ⟨.hbm, 147, rfl⟩
abbrev main_call1_v8 : Ref sig .tc := ⟨.hbm, 148, rfl⟩
abbrev main_call1_v9 : Ref sig .tc := ⟨.hbm, 149, rfl⟩
abbrev main_call1_v10 : Ref sig .tc := ⟨.hbm, 150, rfl⟩
abbrev main_v98 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg4_0 : Ref sig .tc := ⟨.vmem, 27, rfl⟩
abbrev cc4_stg5_0 : Ref sig .tc := ⟨.vmem, 28, rfl⟩
abbrev cc4_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem4_0 : DmaSem sig := 27
abbrev cc4_sem5_0 : DmaSem sig := 28
abbrev cc4_sem5_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x6 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x6 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S6x3 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x3 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2048x3 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  bcast_S_S16384 : S_.BroadcastsInDim S16384 (![] : Fin 0 → Fin S16384.rank)
  bcast_S16384_S16384x1_0 : S16384.BroadcastsInDim S16384x1 (![0] : Fin 1 → Fin S16384x1.rank)
  concatenates_S16384x64_S16384x64_S16384x128_d1 : Shape.Concatenates [S16384x64, S16384x64] S16384x128 1
  shapeCasts_S6_S1x6 : S6.ShapeCasts S1x6
  shapeCasts_S3_S1x3 : S3.ShapeCasts S1x3
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x6_S128x6_0_0 : ∀ a, (![0, 0] : Fin 2 → Nat) a + S128x6.size a ≤ S128x6.size a
  h_S128x6 : 0 < S128x6.numel
  inb_S1x6_S1x6_0_0 : ∀ a, (![0, 0] : Fin 2 → Nat) a + S1x6.size a ≤ S1x6.size a
  h_S1x6 : 0 < S1x6.numel
  shapeCasts_S1x6_S1x6 : S1x6.ShapeCasts S1x6
  broadcasts_S1x6_S2048x6 : S1x6.Broadcasts S2048x6
  inb_S6x3_S6x3_0_0 : ∀ a, (![0, 0] : Fin 2 → Nat) a + S6x3.size a ≤ S6x3.size a
  h_S6x3 : 0 < S6x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2048x3 : S1x3.Broadcasts S2048x3
  inb_S2048x3_S2048x3_0_0 : ∀ a, (![0, 0] : Fin 2 → Nat) a + S2048x3.size a ≤ S2048x3.size a
  h_S2048x3 : 0 < S2048x3.numel
  reducesTo_S16384x3_S3_d0 : S16384x3.ReducesTo [0] S3
  h_S_ : 0 < S_.numel
  bcast_S_S3 : S_.BroadcastsInDim S3 (![] : Fin 0 → Fin S3.rank)
  bcast_S3_S1x3_1 : S3.BroadcastsInDim S1x3 (![1] : Fin 1 → Fin S1x3.rank)
  bcast_S1x3_S16384x3_0_1 : S1x3.BroadcastsInDim S16384x3 (![0, 1] : Fin 2 → Fin S16384x3.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S16384x1_S16384x64_1_0_n_n_0_1_164_wf : GatherDims.WF S100000x64 S16384x1 S16384x64 [1] [0] [] [0] [] 1 ![1, 64]
  dot_S2048x128_S128x6_S2048x6_1_0_0_1_n_n_wf : DotDims.WF S2048x128 S128x6 S2048x6 [1] [0] [0] [1] [] []
  dot_S2048x6_S6x3_S2048x3_1_0_0_1_n_n_wf : DotDims.WF S2048x6 S6x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S16384x128.size a
  hwx4_0 : ∀ i : grid4.Coords, EltTy.bits .f32 = 32 ∨ (Rect.block (s := S16384x128) S2048x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x6.size a ≤ S128x6.size a
  hwx4_1 : ∀ i : grid4.Coords, EltTy.bits .f32 = 32 ∨ (Rect.block (s := S128x6) S128x6.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x6.size a ≤ S1x6.size a
  hwx4_2 : ∀ i : grid4.Coords, EltTy.bits .f32 = 32 ∨ (Rect.block (s := S1x6) S1x6.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S6x3.size a ≤ S6x3.size a
  hwx4_3 : ∀ i : grid4.Coords, EltTy.bits .f32 = 32 ∨ (Rect.block (s := S6x3) S6x3.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x3.size a ≤ S1x3.size a
  hwx4_4 : ∀ i : grid4.Coords, EltTy.bits .f32 = 32 ∨ (Rect.block (s := S1x3) S1x3.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2048x3.size a ≤ S16384x3.size a
  hwx4_5 : ∀ i : grid4.Coords, EltTy.bits .f32 = 32 ∨ (Rect.block (s := S16384x3) S2048x3.size (cc4_transform_5 i) (hinb4_5 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def dot_S2048x128_S128x6_S2048x6_1_0_0_1_n_n : DotDims S2048x128 S128x6 S2048x6 where
  lhsContracting := [1]
  rhsContracting := [0]
  lhsNonContracting := [0]
  rhsNonContracting := [1]
  lhsBatch := []
  rhsBatch := []
  wf := dot_S2048x128_S128x6_S2048x6_1_0_0_1_n_n_wf
def dot_S2048x6_S6x3_S2048x3_1_0_0_1_n_n : DotDims S2048x6 S6x3 S2048x3 where
  lhsContracting := [1]
  rhsContracting := [0]
  lhsNonContracting := [0]
  rhsNonContracting := [1]
  lhsBatch := []
  rhsBatch := []
  wf := dot_S2048x6_S6x3_S2048x3_1_0_0_1_n_n_wf

abbrev win0_0 : Pipeline.Window sig grid0 :=
  Pipeline.Window.ofSpec (Memref.whole main_arg4) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v62) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v63) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v77) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v79) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v94) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg11) S128x6.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v95) S1x6.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg13) S6x3.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v96) S1x3.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v97) S2048x3.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S2x1600000 : Shape := ⟨2, ![2, 1600000]⟩
abbrev S1600000 : Shape := ⟨1, ![1600000]⟩
abbrev S16384 : Shape := ⟨1, ![16384]⟩
abbrev S100000x64 : Shape := ⟨2, ![100000, 64]⟩
abbrev S64x64 : Shape := ⟨2, ![64, 64]⟩
abbrev S64 : Shape := ⟨1, ![64]⟩
abbrev S128x6 : Shape := ⟨2, ![128, 6]⟩
abbrev S6 : Shape := ⟨1, ![6]⟩
abbrev S6x3 : Shape := ⟨2, ![6, 3]⟩
abbrev S3 : Shape := ⟨1, ![3]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S16384x1 : Shape := ⟨2, ![16384, 1]⟩
abbrev S16384x64 : Shape := ⟨2, ![16384, 64]⟩
abbrev S16384x128 : Shape := ⟨2, ![16384, 128]⟩
abbrev S16384x6 : Shape := ⟨2, ![16384, 6]⟩
abbrev S1x6 : Shape := ⟨2, ![1, 6]⟩
abbrev S16384x3 : Shape := ⟨2, ![16384, 3]⟩
abbrev S1x3 : Shape := ⟨2, ![1, 3]⟩

abbrev nBuf : Space → Nat
  | .hbm => 284
  | .vmem => 0
  | .smem => 0
  | _ => 0

abbrev hbmTy0_0 (i : Nat) : BufTy := match i % 128 with
  | 0 => ⟨S2x1600000, .i32⟩
  | 1 => ⟨S1600000, .f32⟩
  | 2 => ⟨S16384, .i32⟩
  | 3 => ⟨S16384, .i32⟩
  | 4 => ⟨S100000x64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S128x6, .f32⟩
  | 12 => ⟨S6, .f32⟩
  | 13 => ⟨S6x3, .f32⟩
  | 14 => ⟨S3, .f32⟩
  | 15 => ⟨S1x1600000, .i32⟩
  | 16 => ⟨S1600000, .i32⟩
  | 17 => ⟨S1x1600000, .i32⟩
  | 18 => ⟨S1600000, .i32⟩
  | 19 => ⟨S100000x64, .f32⟩
  | 20 => ⟨S100000, .i32⟩
  | 21 => ⟨S1700000, .i32⟩
  | 22 => ⟨S1700000, .i32⟩
  | 23 => ⟨S_, .f32⟩
  | 24 => ⟨S100000, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S_, .f32⟩
  | 31 => ⟨S100000, .f32⟩
  | 32 => ⟨S100000, .i1⟩
  | 33 => ⟨S_, .f32⟩
  | 34 => ⟨S100000, .f32⟩
  | 35 => ⟨S100000, .f32⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000, .f32⟩
  | 60 => ⟨S1700000, .f32⟩
  | 61 => ⟨S1700000x1, .f32⟩
  | 62 => ⟨S_, .i32⟩
  | 63 => ⟨S1700000, .i32⟩
  | 64 => ⟨S1700000, .i1⟩
  | 65 => ⟨S_, .i32⟩
  | 66 => ⟨S1700000, .i32⟩
  | 67 => ⟨S1700000, .i32⟩
  | 68 => ⟨S1700000, .i32⟩
  | 69 => ⟨S1700000x1, .i32⟩
  | 70 => ⟨S1700000x64, .f32⟩
  | 71 => ⟨S1700000x64, .f32⟩
  | 72 => ⟨S1700000x64, .f32⟩
  | 73 => ⟨S_, .f32⟩
  | 74 => ⟨S100000x64, .f32⟩
  | 75 => ⟨S1700000x1, .i32⟩
  | 76 => ⟨S100000x64, .f32⟩
  | 77 => ⟨S1x64, .f32⟩
  | 78 => ⟨S100000x64, .f32⟩
  | 79 => ⟨S100000x64, .f32⟩
  | 80 => ⟨S_, .f32⟩
  | 81 => ⟨S_, .f32⟩
  | 82 => ⟨S100000x64, .f32⟩
  | 83 => ⟨S100000x64, .i1⟩
  | 84 => ⟨S_, .f32⟩
  | 85 => ⟨S100000x64, .f32⟩
  | 86 => ⟨S100000x64, .f32⟩
  | 87 => ⟨S100000x64, .f32⟩
  | 88 => ⟨S100000x64, .f32⟩
  | 89 => ⟨S100000, .i32⟩
  | 90 => ⟨S1700000, .i32⟩
  | 91 => ⟨S1700000, .i32⟩
  | 92 => ⟨S_, .f32⟩
  | 93 => ⟨S100000, .f32⟩
  | 94 => ⟨S1700000, .f32⟩
  | 95 => ⟨S_, .f32⟩
  | 96 => ⟨S100000, .f32⟩
  | 97 => ⟨S1700000x1, .i32⟩
  | 98 => ⟨S100000, .f32⟩
  | 99 => ⟨S_, .f32⟩
  | 100 => ⟨S100000, .f32⟩
  | 101 => ⟨S100000, .i1⟩
  | 102 => ⟨S_, .f32⟩
  | 103 => ⟨S100000, .f32⟩
  | 104 => ⟨S100000, .f32⟩
  | 105 => ⟨S100000, .f32⟩
  | 106 => ⟨S_, .f32⟩
  | 107 => ⟨S_, .f32⟩
  | 108 => ⟨S100000, .f32⟩
  | 109 => ⟨S100000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000, .f32⟩
  | 119 => ⟨S1700000, .f32⟩
  | 120 => ⟨S_, .i32⟩
  | 121 => ⟨S1700000, .i32⟩
  | 122 => ⟨S1700000, .i1⟩
  | 123 => ⟨S_, .i32⟩
  | 124 => ⟨S1700000, .i32⟩
  | 125 => ⟨S1700000, .i32⟩
  | 126 => ⟨S1700000, .i32⟩
  | 127 => ⟨S1700000x1, .i32⟩
  | _ => ⟨S2x1600000, .i32⟩

abbrev hbmTy0_1 (i : Nat) : BufTy := match i % 128 with
  | 0 => ⟨S1700000, .f32⟩
  | 1 => ⟨S1700000, .f32⟩
  | 2 => ⟨S1700000x1, .f32⟩
  | 3 => ⟨S_, .i32⟩
  | 4 => ⟨S1700000, .i32⟩
  | 5 => ⟨S1700000, .i1⟩
  | 6 => ⟨S_, .i32⟩
  | 7 => ⟨S1700000, .i32⟩
  | 8 => ⟨S1700000, .i32⟩
  | 9 => ⟨S1700000, .i32⟩
  | 10 => ⟨S1700000x1, .i32⟩
  | 11 => ⟨S1700000x64, .f32⟩
  | 12 => ⟨S1700000x64, .f32⟩
  | 13 => ⟨S1700000x64, .f32⟩
  | 14 => ⟨S_, .f32⟩
  | 15 => ⟨S100000x64, .f32⟩
  | 16 => ⟨S1700000x1, .i32⟩
  | 17 => ⟨S100000x64, .f32⟩
  | 18 => ⟨S1x64, .f32⟩
  | 19 => ⟨S100000x64, .f32⟩
  | 20 => ⟨S100000x64, .f32⟩
  | 21 => ⟨S_, .f32⟩
  | 22 => ⟨S_, .f32⟩
  | 23 => ⟨S100000x64, .f32⟩
  | 24 => ⟨S100000x64, .i1⟩
  | 25 => ⟨S_, .f32⟩
  | 26 => ⟨S100000x64, .f32⟩
  | 27 => ⟨S100000x64, .f32⟩
  | 28 => ⟨S100000x64, .f32⟩
  | 29 => ⟨S100000x64, .f32⟩
  | 30 => ⟨S100000, .i32⟩
  | 31 => ⟨S1700000, .i32⟩
  | 32 => ⟨S1700000, .i32⟩
  | 33 => ⟨S_, .f32⟩
  | 34 => ⟨S100000, .f32⟩
  | 35 => ⟨S1700000, .f32⟩
  | 36 => ⟨S_, .f32⟩
  | 37 => ⟨S100000, .f32⟩
  | 38 => ⟨S1700000x1, .i32⟩
  | 39 => ⟨S100000, .f32⟩
  | 40 => ⟨S_, .f32⟩
  | 41 => ⟨S100000, .f32⟩
  | 42 => ⟨S100000, .i1⟩
  | 43 => ⟨S_, .f32⟩
  | 44 => ⟨S100000, .f32⟩
  | 45 => ⟨S100000, .f32⟩
  | 46 => ⟨S100000, .f32⟩
  | 47 => ⟨S_, .f32⟩
  | 48 => ⟨S_, .f32⟩
  | 49 => ⟨S100000, .f32⟩
  | 50 => ⟨S100000, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000, .f32⟩
  | 60 => ⟨S1700000, .f32⟩
  | 61 => ⟨S_, .i32⟩
  | 62 => ⟨S1700000, .i32⟩
  | 63 => ⟨S1700000, .i1⟩
  | 64 => ⟨S_, .i32⟩
  | 65 => ⟨S1700000, .i32⟩
  | 66 => ⟨S1700000, .i32⟩
  | 67 => ⟨S1700000, .i32⟩
  | 68 => ⟨S1700000x1, .i32⟩
  | 69 => ⟨S1700000, .f32⟩
  | 70 => ⟨S1700000, .f32⟩
  | 71 => ⟨S1700000x1, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000x64, .f32⟩
  | 81 => ⟨S1700000x64, .f32⟩
  | 82 => ⟨S1700000x64, .f32⟩
  | 83 => ⟨S_, .f32⟩
  | 84 => ⟨S100000x64, .f32⟩
  | 85 => ⟨S1700000x1, .i32⟩
  | 86 => ⟨S100000x64, .f32⟩
  | 87 => ⟨S1x64, .f32⟩
  | 88 => ⟨S100000x64, .f32⟩
  | 89 => ⟨S100000x64, .f32⟩
  | 90 => ⟨S_, .f32⟩
  | 91 => ⟨S_, .f32⟩
  | 92 => ⟨S100000x64, .f32⟩
  | 93 => ⟨S100000x64, .i1⟩
  | 94 => ⟨S_, .f32⟩
  | 95 => ⟨S100000x64, .f32⟩
  | 96 => ⟨S100000x64, .f32⟩
  | 97 => ⟨S100000x64, .f32⟩
  | 98 => ⟨S_, .i32⟩
  | 99 => ⟨S16384, .i32⟩
  | 100 => ⟨S16384, .i1⟩
  | 101 => ⟨S_, .i32⟩
  | 102 => ⟨S16384, .i32⟩
  | 103 => ⟨S16384, .i32⟩
  | 104 => ⟨S16384, .i32⟩
  | 105 => ⟨S16384x1, .i32⟩
  | 106 => ⟨S16384x64, .f32⟩
  | 107 => ⟨S_, .i32⟩
  | 108 => ⟨S16384, .i32⟩
  | 109 => ⟨S16384, .i1⟩
  | 110 => ⟨S_, .i32⟩
  | 111 => ⟨S16384, .i32⟩
  | 112 => ⟨S16384, .i32⟩
  | 113 => ⟨S16384, .i32⟩
  | 114 => ⟨S16384x1, .i32⟩
  | 115 => ⟨S16384x64, .f32⟩
  | 116 => ⟨S16384x128, .f32⟩
  | 117 => ⟨S16384x6, .f32⟩
  | 118 => ⟨S1x6, .f32⟩
  | 119 => ⟨S16384x6, .f32⟩
  | 120 => ⟨S16384x6, .f32⟩
  | 121 => ⟨S_, .f32⟩
  | 122 => ⟨S_, .f32⟩
  | 123 => ⟨S16384x6, .f32⟩
  | 124 => ⟨S16384x6, .i1⟩
  | 125 => ⟨S_, .f32⟩
  | 126 => ⟨S16384x6, .f32⟩
  | 127 => ⟨S16384x6, .f32⟩
  | _ => ⟨S2x1600000, .i32⟩

abbrev hbmTy0_2 (i : Nat) : BufTy := match i % 128 with
  | 0 => ⟨S16384x6, .f32⟩
  | 1 => ⟨S16384x3, .f32⟩
  | 2 => ⟨S1x3, .f32⟩
  | 3 => ⟨S16384x3, .f32⟩
  | 4 => ⟨S16384x3, .f32⟩
  | 5 => ⟨S_, .f32⟩
  | 6 => ⟨S_, .f32⟩
  | 7 => ⟨S16384x3, .f32⟩
  | 8 => ⟨S16384x3, .i1⟩
  | 9 => ⟨S_, .f32⟩
  | 10 => ⟨S16384x3, .f32⟩
  | 11 => ⟨S16384x3, .f32⟩
  | 12 => ⟨S16384x3, .f32⟩
  | 13 => ⟨S_, .f32⟩
  | 14 => ⟨S3, .f32⟩
  | 15 => ⟨S_, .f32⟩
  | 16 => ⟨S3, .f32⟩
  | 17 => ⟨S3, .f32⟩
  | 18 => ⟨S1x3, .f32⟩
  | 19 => ⟨S16384x3, .f32⟩
  | 20 => ⟨S16384x3, .f32⟩
  | 21 => ⟨S16384x3, .f32⟩
  | 22 => ⟨S_, .f32⟩
  | 23 => ⟨S3, .f32⟩
  | 24 => ⟨S1x3, .f32⟩
  | 25 => ⟨S1x3, .f32⟩
  | 26 => ⟨S16384x3, .f32⟩
  | 27 => ⟨S16384x3, .f32⟩
  | _ => ⟨S2x1600000, .i32⟩

abbrev hbmTy (i : Nat) : BufTy := match i / 128 with
  | 0 => hbmTy0_0 i
  | 1 => hbmTy0_1 i
  | 2 => hbmTy0_2 i
  | _ => ⟨S2x1600000, .i32⟩

abbrev bufTy : (tb : Table) → Fin (tcTables nBuf tb) → BufTy
  | .hbm, ⟨i, _⟩ => hbmTy i
  | _, _ => ⟨S2x1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v18 : Ref sig .tc := ⟨.hbm, 40, rfl⟩
abbrev main_c : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_c_5 : Ref sig .tc := ⟨.hbm, 51, rfl⟩
abbrev main_v27 : Ref sig .tc := ⟨.hbm, 52, rfl⟩
abbrev main_v28 : Ref sig .tc := ⟨.hbm, 53, rfl⟩
abbrev main_c_6 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_7 : Ref sig .tc := ⟨.hbm, 62, rfl⟩
abbrev main_v36 : Ref sig .tc := ⟨.hbm, 63, rfl⟩
abbrev main_v37 : Ref sig .tc := ⟨.hbm, 64, rfl⟩
abbrev main_c_8 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_call1_cst : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_call1_v3 : Ref sig .tc := ⟨.hbm, 85, rfl⟩
abbrev main_call1_v4 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_11 : Ref sig .tc := ⟨.hbm, 92, rfl⟩
abbrev main_v56 : Ref sig .tc := ⟨.hbm, 93, rfl⟩
abbrev main_v57 : Ref sig .tc := ⟨.hbm, 94, rfl⟩
abbrev main_cst_12 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_cst_13 : Ref sig .tc := ⟨.hbm, 99, rfl⟩
abbrev main_v61 : Ref sig .tc := ⟨.hbm, 100, rfl⟩
abbrev main_v62 : Ref sig .tc := ⟨.hbm, 101, rfl⟩
abbrev main_cst_14 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_15 : Ref sig .tc := ⟨.hbm, 106, rfl⟩
abbrev main_call2_v0 : Ref sig .tc := ⟨.hbm, 107, rfl⟩
abbrev main_call2_v1 : Ref sig .tc := ⟨.hbm, 108, rfl⟩
abbrev main_v66 : Ref sig .tc := ⟨.hbm, 109, rfl⟩
abbrev main_c_16 : Ref sig .tc := ⟨.hbm, 110, rfl⟩
abbrev main_v67 : Ref sig .tc := ⟨.hbm, 111, rfl⟩
abbrev main_v68 : Ref sig .tc := ⟨.hbm, 112, rfl⟩
abbrev main_c_17 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_c_18 : Ref sig .tc := ⟨.hbm, 120, rfl⟩
abbrev main_v75 : Ref sig .tc := ⟨.hbm, 121, rfl⟩
abbrev main_v76 : Ref sig .tc := ⟨.hbm, 122, rfl⟩
abbrev main_c_19 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_c_20 : Ref sig .tc := ⟨.hbm, 131, rfl⟩
abbrev main_v84 : Ref sig .tc := ⟨.hbm, 132, rfl⟩
abbrev main_v85 : Ref sig .tc := ⟨.hbm, 133, rfl⟩
abbrev main_c_21 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_22 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_cst_23 : Ref sig .tc := ⟨.hbm, 149, rfl⟩
abbrev main_call3_cst : Ref sig .tc := ⟨.hbm, 150, rfl⟩
abbrev main_call3_v0 : Ref sig .tc := ⟨.hbm, 151, rfl⟩
abbrev main_call3_v1 : Ref sig .tc := ⟨.hbm, 152, rfl⟩
abbrev main_call3_v2 : Ref sig .tc := ⟨.hbm, 153, rfl⟩
abbrev main_call3_v3 : Ref sig .tc := ⟨.hbm, 154, rfl⟩
abbrev main_call3_v4 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_cst_24 : Ref sig .tc := ⟨.hbm, 161, rfl⟩
abbrev main_v104 : Ref sig .tc := ⟨.hbm, 162, rfl⟩
abbrev main_v105 : Ref sig .tc := ⟨.hbm, 163, rfl⟩
abbrev main_cst_25 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_cst_26 : Ref sig .tc := ⟨.hbm, 168, rfl⟩
abbrev main_v109 : Ref sig .tc := ⟨.hbm, 169, rfl⟩
abbrev main_v110 : Ref sig .tc := ⟨.hbm, 170, rfl⟩
abbrev main_cst_27 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_cst_28 : Ref sig .tc := ⟨.hbm, 175, rfl⟩
abbrev main_call4_v0 : Ref sig .tc := ⟨.hbm, 176, rfl⟩
abbrev main_call4_v1 : Ref sig .tc := ⟨.hbm, 177, rfl⟩
abbrev main_v114 : Ref sig .tc := ⟨.hbm, 178, rfl⟩
abbrev main_c_29 : Ref sig .tc := ⟨.hbm, 179, rfl⟩
abbrev main_v115 : Ref sig .tc := ⟨.hbm, 180, rfl⟩
abbrev main_v116 : Ref sig .tc := ⟨.hbm, 181, rfl⟩
abbrev main_c_30 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_c_31 : Ref sig .tc := ⟨.hbm, 189, rfl⟩
abbrev main_v123 : Ref sig .tc := ⟨.hbm, 190, rfl⟩
abbrev main_v124 : Ref sig .tc := ⟨.hbm, 191, rfl⟩
abbrev main_c_32 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_c_33 : Ref sig .tc := ⟨.hbm, 200, rfl⟩
abbrev main_v132 : Ref sig .tc := ⟨.hbm, 201, rfl⟩
abbrev main_v133 : Ref sig .tc := ⟨.hbm, 202, rfl⟩
abbrev main_c_34 : Ref sig .tc := ⟨.hbm, 203, rfl⟩
abbrev main_v134 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_v140 : Ref sig .tc := ⟨.hbm, 210, rfl⟩
abbrev main_cst_35 : Ref sig .tc := ⟨.hbm, 211, rfl⟩
abbrev main_v141 : Ref sig .tc := ⟨.hbm, 212, rfl⟩
abbrev main_v142 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_cst_36 : Ref sig .tc := ⟨.hbm, 218, rfl⟩
abbrev main_call5_cst : Ref sig .tc := ⟨.hbm, 219, rfl⟩
abbrev main_call5_v0 : Ref sig .tc := ⟨.hbm, 220, rfl⟩
abbrev main_call5_v1 : Ref sig .tc := ⟨.hbm, 221, rfl⟩
abbrev main_call5_v2 : Ref sig .tc := ⟨.hbm, 222, rfl⟩
abbrev main_call5_v3 : Ref sig .tc := ⟨.hbm, 223, rfl⟩
abbrev main_call5_v4 : Ref sig .tc := ⟨.hbm, 224, rfl⟩
abbrev main_v147 : Ref sig .tc := ⟨.hbm, 225, rfl⟩
abbrev main_c_37 : Ref sig .tc := ⟨.hbm, 226, rfl⟩
abbrev main_v148 : Ref sig .tc := ⟨.hbm, 227, rfl⟩
abbrev main_v149 : Ref sig .tc := ⟨.hbm, 228, rfl⟩
abbrev main_c_38 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_c_39 : Ref sig .tc := ⟨.hbm, 235, rfl⟩
abbrev main_v155 : Ref sig .tc := ⟨.hbm, 236, rfl⟩
abbrev main_v156 : Ref sig .tc := ⟨.hbm, 237, rfl⟩
abbrev main_c_40 : Ref sig .tc := ⟨.hbm, 238, rfl⟩
abbrev main_v157 : Ref sig .tc := ⟨.hbm, 239, rfl⟩
abbrev main_v158 : Ref sig .tc := ⟨.hbm, 240, rfl⟩
abbrev main_v159 : Ref sig .tc := ⟨.hbm, 241, rfl⟩
abbrev main_v160 : Ref sig .tc := ⟨.hbm, 242, rfl⟩
abbrev main_v161 : Ref sig .tc := ⟨.hbm, 243, rfl⟩
abbrev main_v162 : Ref sig .tc := ⟨.hbm, 244, rfl⟩
abbrev main_v163 : Ref sig .tc := ⟨.hbm, 245, rfl⟩
abbrev main_v164 : Ref sig .tc := ⟨.hbm, 246, rfl⟩
abbrev main_v165 : Ref sig .tc := ⟨.hbm, 247, rfl⟩
abbrev main_v166 : Ref sig .tc := ⟨.hbm, 248, rfl⟩
abbrev main_cst_41 : Ref sig .tc := ⟨.hbm, 249, rfl⟩
abbrev main_call6_cst : Ref sig .tc := ⟨.hbm, 250, rfl⟩
abbrev main_call6_v0 : Ref sig .tc := ⟨.hbm, 251, rfl⟩
abbrev main_call6_v1 : Ref sig .tc := ⟨.hbm, 252, rfl⟩
abbrev main_call6_v2 : Ref sig .tc := ⟨.hbm, 253, rfl⟩
abbrev main_call6_v3 : Ref sig .tc := ⟨.hbm, 254, rfl⟩
abbrev main_call6_v4 : Ref sig .tc := ⟨.hbm, 255, rfl⟩
abbrev main_v167 : Ref sig .tc := ⟨.hbm, 256, rfl⟩
abbrev main_v168 : Ref sig .tc := ⟨.hbm, 257, rfl⟩
abbrev main_v169 : Ref sig .tc := ⟨.hbm, 258, rfl⟩
abbrev main_v170 : Ref sig .tc := ⟨.hbm, 259, rfl⟩
abbrev main_v171 : Ref sig .tc := ⟨.hbm, 260, rfl⟩
abbrev main_cst_42 : Ref sig .tc := ⟨.hbm, 261, rfl⟩
abbrev main_call7_cst : Ref sig .tc := ⟨.hbm, 262, rfl⟩
abbrev main_call7_v0 : Ref sig .tc := ⟨.hbm, 263, rfl⟩
abbrev main_call7_v1 : Ref sig .tc := ⟨.hbm, 264, rfl⟩
abbrev main_call7_v2 : Ref sig .tc := ⟨.hbm, 265, rfl⟩
abbrev main_call7_v3 : Ref sig .tc := ⟨.hbm, 266, rfl⟩
abbrev main_call7_v4 : Ref sig .tc := ⟨.hbm, 267, rfl⟩
abbrev main_v172 : Ref sig .tc := ⟨.hbm, 268, rfl⟩
abbrev main_call8_cst : Ref sig .tc := ⟨.hbm, 269, rfl⟩
abbrev main_call8_v0 : Ref sig .tc := ⟨.hbm, 270, rfl⟩
abbrev main_call8_cst_0 : Ref sig .tc := ⟨.hbm, 271, rfl⟩
abbrev main_call8_v1 : Ref sig .tc := ⟨.hbm, 272, rfl⟩
abbrev main_call8_v2 : Ref sig .tc := ⟨.hbm, 273, rfl⟩
abbrev main_call8_v3 : Ref sig .tc := ⟨.hbm, 274, rfl⟩
abbrev main_call8_v4 : Ref sig .tc := ⟨.hbm, 275, rfl⟩
abbrev main_call8_v5 : Ref sig .tc := ⟨.hbm, 276, rfl⟩
abbrev main_call8_v6 : Ref sig .tc := ⟨.hbm, 277, rfl⟩
abbrev main_call8_cst_1 : Ref sig .tc := ⟨.hbm, 278, rfl⟩
abbrev main_call8_v7 : Ref sig .tc := ⟨.hbm, 279, rfl⟩
abbrev main_call8_v8 : Ref sig .tc := ⟨.hbm, 280, rfl⟩
abbrev main_call8_v9 : Ref sig .tc := ⟨.hbm, 281, rfl⟩
abbrev main_call8_v10 : Ref sig .tc := ⟨.hbm, 282, rfl⟩
abbrev main_v173 : Ref sig .tc := ⟨.hbm, 283, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S16384 : S_.BroadcastsInDim S16384 (![] : Fin 0 → Fin S16384.rank)
  bcast_S16384_S16384x1_0 : S16384.BroadcastsInDim S16384x1 (![0] : Fin 1 → Fin S16384x1.rank)
  concatenates_S16384x64_S16384x64_S16384x128_d1 : Shape.Concatenates [S16384x64, S16384x64] S16384x128 1
  bcast_S6_S1x6_1 : S6.BroadcastsInDim S1x6 (![1] : Fin 1 → Fin S1x6.rank)
  bcast_S1x6_S16384x6_0_1 : S1x6.BroadcastsInDim S16384x6 (![0, 1] : Fin 2 → Fin S16384x6.rank)
  bcast_S_S16384x6 : S_.BroadcastsInDim S16384x6 (![] : Fin 0 → Fin S16384x6.rank)
  bcast_S3_S1x3_1 : S3.BroadcastsInDim S1x3 (![1] : Fin 1 → Fin S1x3.rank)
  bcast_S1x3_S16384x3_0_1 : S1x3.BroadcastsInDim S16384x3 (![0, 1] : Fin 2 → Fin S16384x3.rank)
  bcast_S_S16384x3 : S_.BroadcastsInDim S16384x3 (![] : Fin 0 → Fin S16384x3.rank)
  reducesTo_S16384x3_S3_d0 : S16384x3.ReducesTo [0] S3
  h_S_ : 0 < S_.numel
  bcast_S_S3 : S_.BroadcastsInDim S3 (![] : Fin 0 → Fin S3.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  gather_S100000x64_S16384x1_S16384x64_1_0_n_n_0_1_164_wf : GatherDims.WF S100000x64 S16384x1 S16384x64 [1] [0] [] [0] [] 1 ![1, 64]
  dot_S16384x128_S128x6_S16384x6_1_0_0_1_n_n_wf : DotDims.WF S16384x128 S128x6 S16384x6 [1] [0] [0] [1] [] []
  dot_S16384x6_S6x3_S16384x3_1_0_0_1_n_n_wf : DotDims.WF S16384x6 S6x3 S16384x3 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf
def dot_S16384x128_S128x6_S16384x6_1_0_0_1_n_n : DotDims S16384x128 S128x6 S16384x6 where
  lhsContracting := [1]
  rhsContracting := [0]
  lhsNonContracting := [0]
  rhsNonContracting := [1]
  lhsBatch := []
  rhsBatch := []
  wf := dot_S16384x128_S128x6_S16384x6_1_0_0_1_n_n_wf
def dot_S16384x6_S6x3_S16384x3_1_0_0_1_n_n : DotDims S16384x6 S6x3 S16384x3 where
  lhsContracting := [1]
  rhsContracting := [0]
  lhsNonContracting := [0]
  rhsNonContracting := [1]
  lhsBatch := []
  rhsBatch := []
  wf := dot_S16384x6_S6x3_S16384x3_1_0_0_1_n_n_wf

class Facts : Prop extends Facts₀ where

variable [Facts]
-- ==== Proof.KernelRun.lean ====
/-
  The kernel program's run with its result named.

  The program is thirteen segments — six stretches of host operations around five kernel regions — and its
  frame proof carries, through every segment, the contents of every buffer as a fold from the launch memory:
  after the last segment each buffer holds the last boundary's contents.  The frame keeps of that only the
  fifteen argument arrays.  Here the same launch is read at one more buffer, the result, so the run ends with
  the result array at the last boundary's contents; what those contents are is computed elsewhere.
-/
import proofs.«103955_j78099685311022_1_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents and the argument arrays end as launched. -/
theorem run : θ_run defs (onTc (τ := τ) (main (F := F))) ⟨m, fun _ => 0, ρ⟩ (fun r => ∀ c : Dev nD,
      r.2.mem ((c.tc : Thread nD τ).loc main_v98) = W13 m ρ c (Proc.devRef .tc main_v98)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v98 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c)⟩)

end Cert.KernelIdeal.ValueRun

end
-- ==== Proof.Chain.lean ====
/-
  The host-side chains both programs share, each named once as a function of its inputs.

  With N = 100000 nodes and E = 1600000 edges, the graph arrives as an edge list (two rows: sources, then
  destinations) and a weight per edge.  Every node gets a self-loop of weight 1, so there are E + N weighted
  arcs.  The degree of a node is the total weight of the arcs that end at it; `dinv` is its inverse square
  root (0 where the degree is not positive); the arc from s to d with weight w carries the coefficient
  dinv(s) · w · dinv(d).  Aggregating node features `xw` sends to every node the coefficient-weighted sum of
  the feature rows at the sources of its incoming arcs: a gather of rows, a scaling, a scatter-add.

  Negative positions count from the end (a position p < 0 is read as p + N) before every gather.  The head
  of the network pairs, for each of 16384 matches, the final feature rows of two nodes side by side, and the
  result is normalized down each column by a log-softmax.

  Nothing here is ever opened: both programs apply these same functions, and the proof only needs that equal
  inputs give equal outputs.
-/
import proofs.«103955_j78099685311022_1_alg».proof.Proof.Gen.KernelIdeal
import Idealize.ShloMosaic.PureOps.Ideal

noncomputable section

namespace Cert.Chain

open Idealize.ShloMosaic Cert.KernelIdeal Cert.KernelIdeal.Gen

/-- An array of 32-bit integers, of 1-bit flags, of extended reals, over a shape. -/
abbrev I32 (s : Shape) : Type := IVec s 32
abbrev F32 (s : Shape) : Type := FVec Ideal s .f32

/-- Row `r` of the edge list as a flat vector of E node numbers. -/
def srcRow (ei : I32 S2x1600000) : I32 S1600000 :=
  fun i => shapeCast S1600000 (extractStridedSlice S1x1600000 ![0, 0] ei slices_S2x1600000_S1x1600000_0_0) shapeCasts_S1x1600000_S1600000 i
def dstRow (ei : I32 S2x1600000) : I32 S1600000 :=
  fun i => shapeCast S1600000 (extractStridedSlice S1x1600000 ![1, 0] ei slices_S2x1600000_S1x1600000_1_0) shapeCasts_S1x1600000_S1600000 i

/-- One end of every arc: the edges' ends followed by every node once (its self-loop). -/
def arcs (e : I32 S1600000) : I32 S1700000 :=
  concatenate S1700000 0 [⟨S1600000, e⟩, ⟨S100000, iotaInDim S100000 32 0⟩] concatenates_S1600000_S100000_S1700000_d0

/-- The arcs' weights: the edges' followed by a 1 per self-loop. -/
def w2 (ew : F32 S1600000) : F32 S1700000 :=
  concatenate S1700000 0 [⟨S1600000, ew⟩, ⟨S100000, broadcastInDim S100000 ![] bcast_S_S100000 (constant S_ .f32 0x3F800000#32)⟩] concatenates_S1600000_S100000_S1700000_d0

/-- A list of positions as a column. -/
def col (x : I32 S1700000) : I32 S1700000x1 := broadcastInDim S1700000x1 ![0] bcast_S1700000_S1700000x1_0 x

/-- Positions with the negative ones counted from the end, as a column. -/
def wrap (x : I32 S1700000) : I32 S1700000x1 :=
  broadcastInDim S1700000x1 ![0] bcast_S1700000_S1700000x1_0
    (select (cmpi .slt x (broadcastInDim S1700000 ![] bcast_S_S1700000 (constantI S_ 32 0#32)))
      (addi x (broadcastInDim S1700000 ![] bcast_S_S1700000 (constantI S_ 32 100000#32))) x)

/-- The weighted in-degree of every node. -/
def deg (d : I32 S1600000) (ew : F32 S1600000) : F32 S100000 :=
  Host.scatterAdd scatter_S100000_S1700000x1_S1700000_n_0_0_1
    (broadcastInDim S100000 ![] bcast_S_S100000 (constant S_ .f32 0x00000000#32)) (col (arcs d)) (w2 ew)

/-- Its inverse square root, 0 where the degree is not positive. -/
def dinv (d : I32 S1600000) (ew : F32 S1600000) : F32 S100000 :=
  select (cmpf .ogt (deg d ew) (broadcastInDim S100000 ![] bcast_S_S100000 (constant S_ .f32 0x00000000#32)))
    (Host.rsqrt (maximumf (deg d ew) (broadcastInDim S100000 ![] bcast_S_S100000 (constant S_ .f32 0x2B8CBCCC#32))))
    (broadcastInDim S100000 ![] bcast_S_S100000 (id (constant (F := Ideal) S_ .f32 0x00000000#32)))

/-- The coefficient of every arc: dinv(source) · weight · dinv(destination). -/
def norm (s d : I32 S1600000) (ew : F32 S1600000) : F32 S1700000 :=
  mulf (mulf (Host.gather gather_S100000_S1700000x1_S1700000_n_0_n_n_0_1_1 (dinv d ew) (wrap (arcs s))) (w2 ew))
    (Host.gather gather_S100000_S1700000x1_S1700000_n_0_n_n_0_1_1 (dinv d ew) (wrap (arcs d)))

/-- Aggregation over arcs with destinations `d`, sources `s` and coefficients `n`: every node receives the
    coefficient-weighted sum of the feature rows at the sources of its incoming arcs. -/
def aggOf (d s : I32 S1700000) (n : F32 S1700000) (xw : F32 S100000x64) : F32 S100000x64 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 d)
    (mulf
      (broadcastInDim S1700000x64 ![0, 1] bcast_S1700000x1_S1700000x64_0_1
        (broadcastInDim S1700000x1 ![0] bcast_S1700000_S1700000x1_0 n))
      (Host.gather gather_S100000x64_S1700000x1_S1700000x64_1_0_n_n_0_1_164 xw (wrap s)))

/-- The graph's aggregation of node features, from the edges' two rows of ends and their weights. -/
def aggR (s d : I32 S1600000) (ew : F32 S1600000) (xw : F32 S100000x64) : F32 S100000x64 :=
  aggOf (arcs d) (arcs s) (norm s d ew) xw

/-- The same from the edge list. -/
def agg (ei : I32 S2x1600000) (ew : F32 S1600000) (xw : F32 S100000x64) : F32 S100000x64 :=
  aggR (srcRow ei) (dstRow ei) ew xw

/-- A bias vector as an array of one row. -/
def row64 (b : F32 S64) : F32 S1x64 := fun i => shapeCast S1x64 b shapeCasts_S64_S1x64 i
def row6 (b : F32 S6) : F32 S1x6 := fun i => shapeCast S1x6 b shapeCasts_S6_S1x6 i
def row3 (b : F32 S3) : F32 S1x3 := fun i => shapeCast S1x3 b shapeCasts_S3_S1x3 i

/-- 16384 positions with the negative ones counted from the end, as a column. -/
def wrapB (x : I32 S16384) : I32 S16384x1 :=
  broadcastInDim S16384x1 ![0] bcast_S16384_S16384x1_0
    (select (cmpi .slt x (broadcastInDim S16384 ![] bcast_S_S16384 (constantI S_ 32 0#32)))
      (addi x (broadcastInDim S16384 ![] bcast_S_S16384 (constantI S_ 32 100000#32))) x)

/-- The head's input: for each match the feature rows of its two nodes, side by side. -/
def pairs (x : F32 S100000x64) (home away : I32 S16384) : F32 S16384x128 :=
  concatenate S16384x128 1
    [⟨S16384x64, Host.gather gather_S100000x64_S16384x1_S16384x64_1_0_n_n_0_1_164 x (wrapB home)⟩,
     ⟨S16384x64, Host.gather gather_S100000x64_S16384x1_S16384x64_1_0_n_n_0_1_164 x (wrapB away)⟩]
    concatenates_S16384x64_S16384x64_S16384x128_d1

/-- The log-softmax down each of the three columns: subtract the column's maximum, then the logarithm of the
    column's sum of exponentials. -/
def logSoftmax (x : F32 S16384x3) : F32 S16384x3 :=
  subf
    (subf x (broadcastInDim S16384x3 ![0, 1] bcast_S1x3_S16384x3_0_1 (broadcastInDim S1x3 ![1] bcast_S3_S1x3_1
      (maximumf (broadcastInDim S3 ![] bcast_S_S3 (constant S_ .f32 0xFF800000#32))
        (Host.reduce FloatOps.maximumf x (constant S_ .f32 0xFF800000#32) reducesTo_S16384x3_S3_d0 h_S_)))))
    (broadcastInDim S16384x3 ![0, 1] bcast_S1x3_S16384x3_0_1 (Host.log (broadcastInDim S1x3 ![1] bcast_S3_S1x3_1
      (Host.reduceAdd
        (Host.exp (subf x (broadcastInDim S16384x3 ![0, 1] bcast_S1x3_S16384x3_0_1 (broadcastInDim S1x3 ![1] bcast_S3_S1x3_1
          (maximumf (broadcastInDim S3 ![] bcast_S_S3 (constant S_ .f32 0xFF800000#32))
            (Host.reduce FloatOps.maximumf x (constant S_ .f32 0xFF800000#32) reducesTo_S16384x3_S3_d0 h_S_))))))
        (constant S_ .f32 0x00000000#32) reducesTo_S16384x3_S3_d0 h_S_))))

end Cert.Chain

end
-- ==== Proof.KernelKeep.lean ====
/-
  Which buffers each stretch of host operations of the kernel program leaves alone.

  Every host operation writes exactly one buffer, its result.  So a stretch writes the buffers in the list of
  its operations' results and no other, and any buffer outside that list holds after the stretch what it held
  before it.  The lists are read off the stretches, one entry per operation in order.
-/
import proofs.«103955_j78099685311022_1_alg».proof.Proof.Gen.KernelIdeal.Launch
import Idealize.ShloMosaic.Lib.StableHlo.Run

noncomputable section

namespace Cert.KernelIdeal.HostKeep

open Idealize.ShloMosaic Idealize.ShloMosaic.StableHlo Idealize.SL.Sem Cert.KernelIdeal Cert.KernelIdeal.Gen

variable {F : FTy → Type} [FloatOps F]

/-- An operation whose one written buffer is in a list writes inside that list. -/
theorem writes_in {W : List (Ref sig .tc)} {op : HloOp τ sig (Elt F)} (y : Ref sig .tc) (hy : y ∈ W)
    (hw : op.writes = {Proc.devRef .tc y} := by rfl) :
    op.writes ⊆ (W.map (Proc.devRef (τ := τ) .tc)).toFinset := by
  rw [hw]; exact Finset.singleton_subset_iff.2 (List.mem_toFinset.2 (List.mem_map.2 ⟨y, hy, rfl⟩))

/-- The buffers `hostOps0` writes. -/
abbrev written0 : List (Ref sig .tc) :=
  [ main_v0, main_v1, main_v2, main_v3, main_v4, main_v5, main_v6, main_cst, main_v7, main_v8, main_cst_0, main_v9, main_v10, main_v11, main_cst_1, main_v12, main_v13, main_cst_2, main_v14, main_v15, main_v16, main_cst_3 ]
theorem writes0 : (hostOps0 : List (HloOp τ sig (Elt F))).Forall fun op =>
    op.writes ⊆ (written0.map (Proc.devRef (τ := τ) .tc)).toFinset :=
  ⟨writes_in main_v0 (by decide), writes_in main_v1 (by decide), writes_in main_v2 (by decide), writes_in main_v3 (by decide), writes_in main_v4 (by decide), writes_in main_v5 (by decide), writes_in main_v6 (by decide), writes_in main_cst (by decide), writes_in main_v7 (by decide), writes_in main_v8 (by decide), writes_in main_cst_0 (by decide), writes_in main_v9 (by decide), writes_in main_v10 (by decide), writes_in main_v11 (by decide), writes_in main_cst_1 (by decide), writes_in main_v12 (by decide), writes_in main_v13 (by decide), writes_in main_cst_2 (by decide), writes_in main_v14 (by decide), writes_in main_v15 (by decide), writes_in main_v16 (by decide), writes_in main_cst_3 (by decide)⟩
/-- A buffer `hostOps0` does not write holds afterwards what it held before. -/
theorem keeps0 (V : Valuation τ sig (Elt F)) {r : Ref sig .tc} (hr : r ∉ written0) :
    after hostOps0 V (Proc.devRef .tc r) = V (Proc.devRef .tc r) :=
  after_of_writes_sub hostOps0 V writes0 hr

/-- The buffers `hostOps0_1` writes. -/
abbrev written0a : List (Ref sig .tc) :=
  [ main_call0_v0, main_call0_v1, main_v17 ]
theorem writes0a : (hostOps0_1 : List (HloOp τ sig (Elt F))).Forall fun op =>
    op.writes ⊆ (written0a.map (Proc.devRef (τ := τ) .tc)).toFinset :=
  ⟨writes_in main_call0_v0 (by decide), writes_in main_call0_v1 (by decide), writes_in main_v17 (by decide)⟩
/-- A buffer `hostOps0_1` does not write holds afterwards what it held before. -/
theorem keeps0a (V : Valuation τ sig (Elt F)) {r : Ref sig .tc} (hr : r ∉ written0a) :
    after hostOps0_1 V (Proc.devRef .tc r) = V (Proc.devRef .tc r) :=
  after_of_writes_sub hostOps0_1 V writes0a hr

/-- The buffers `hostOps0_2` writes. -/
abbrev written0b : List (Ref sig .tc) :=
  [ main_c, main_v18, main_v19, main_c_4, main_v20, main_v21, main_v22, main_v23, main_v24, main_v25, main_c_5, main_v26, main_v27, main_c_6, main_v28, main_v29, main_v30, main_v31, main_v32, main_v33 ]
theorem writes0b : (hostOps0_2 : List (HloOp τ sig (Elt F))).Forall fun op =>
    op.writes ⊆ (written0b.map (Proc.devRef (τ := τ) .tc)).toFinset :=
  ⟨writes_in main_c (by decide), writes_in main_v18 (by decide), writes_in main_v19 (by decide), writes_in main_c_4 (by decide), writes_in main_v20 (by decide), writes_in main_v21 (by decide), writes_in main_v22 (by decide), writes_in main_v23 (by decide), writes_in main_v24 (by decide), writes_in main_v25 (by decide), writes_in main_c_5 (by decide), writes_in main_v26 (by decide), writes_in main_v27 (by decide), writes_in main_c_6 (by decide), writes_in main_v28 (by decide), writes_in main_v29 (by decide), writes_in main_v30 (by decide), writes_in main_v31 (by decide), writes_in main_v32 (by decide), writes_in main_v33 (by decide)⟩
/-- A buffer `hostOps0_2` does not write holds afterwards what it held before. -/
theorem keeps0b (V : Valuation τ sig (Elt F)) {r : Ref sig .tc} (hr : r ∉ written0b) :
    after hostOps0_2 V (Proc.devRef .tc r) = V (Proc.devRef .tc r) :=
  after_of_writes_sub hostOps0_2 V writes0b hr

/-- The buffers `hostOps1` writes. -/
abbrev written1 : List (Ref sig .tc) :=
  [ main_v35, main_c_7, main_v36, main_v37, main_c_8, main_v38, main_v39, main_v40, main_v41, main_v42, main_v43, main_v44, main_cst_9, main_v45, main_v46, main_v47, main_v48 ]
theorem writes1 : (hostOps1 : List (HloOp τ sig (Elt F))).Forall fun op =>
    op.writes ⊆ (written1.map (Proc.devRef (τ := τ) .tc)).toFinset :=
  ⟨writes_in main_v35 (by decide), writes_in main_c_7 (by decide), writes_in main_v36 (by decide), writes_in main_v37 (by decide), writes_in main_c_8 (by decide), writes_in main_v38 (by decide), writes_in main_v39 (by decide), writes_in main_v40 (by decide), writes_in main_v41 (by decide), writes_in main_v42 (by decide), writes_in main_v43 (by decide), writes_in main_v44 (by decide), writes_in main_cst_9 (by decide), writes_in main_v45 (by decide), writes_in main_v46 (by decide), writes_in main_v47 (by decide), writes_in main_v48 (by decide)⟩
/-- A buffer `hostOps1` does not write holds afterwards what it held before. -/
theorem keeps1 (V : Valuation τ sig (Elt F)) {r : Ref sig .tc} (hr : r ∉ written1) :
    after hostOps1 V (Proc.devRef .tc r) = V (Proc.devRef .tc r) :=
  after_of_writes_sub hostOps1 V writes1 hr

/-- The buffers `hostOps2` writes. -/
abbrev written2 : List (Ref sig .tc) :=
  [ main_v50, main_c_10, main_v51, main_v52, main_c_11, main_v53, main_v54, main_v55, main_v56, main_v57, main_v58, main_v59, main_cst_12, main_v60, main_v61, main_v62, main_v63 ]
theorem writes2 : (hostOps2 : List (HloOp τ sig (Elt F))).Forall fun op =>
    op.writes ⊆ (written2.map (Proc.devRef (τ := τ) .tc)).toFinset :=
  ⟨writes_in main_v50 (by decide), writes_in main_c_10 (by decide), writes_in main_v51 (by decide), writes_in main_v52 (by decide), writes_in main_c_11 (by decide), writes_in main_v53 (by decide), writes_in main_v54 (by decide), writes_in main_v55 (by decide), writes_in main_v56 (by decide), writes_in main_v57 (by decide), writes_in main_v58 (by decide), writes_in main_v59 (by decide), writes_in main_cst_12 (by decide), writes_in main_v60 (by decide), writes_in main_v61 (by decide), writes_in main_v62 (by decide), writes_in main_v63 (by decide)⟩
/-- A buffer `hostOps2` does not write holds afterwards what it held before. -/
theorem keeps2 (V : Valuation τ sig (Elt F)) {r : Ref sig .tc} (hr : r ∉ written2) :
    after hostOps2 V (Proc.devRef .tc r) = V (Proc.devRef .tc r) :=
  after_of_writes_sub hostOps2 V writes2 hr

/-- The buffers `hostOps3` writes. -/
abbrev written3 : List (Ref sig .tc) :=
  [ main_v65, main_c_13, main_v66, main_v67, main_c_14, main_v68, main_v69, main_v70, main_v71, main_v72, main_v73, main_v74, main_cst_15, main_v75, main_v76, main_v77, main_v78 ]
theorem writes3 : (hostOps3 : List (HloOp τ sig (Elt F))).Forall fun op =>
    op.writes ⊆ (written3.map (Proc.devRef (τ := τ) .tc)).toFinset :=
  ⟨writes_in main_v65 (by decide), writes_in main_c_13 (by decide), writes_in main_v66 (by decide), writes_in main_v67 (by decide), writes_in main_c_14 (by decide), writes_in main_v68 (by decide), writes_in main_v69 (by decide), writes_in main_v70 (by decide), writes_in main_v71 (by decide), writes_in main_v72 (by decide), writes_in main_v73 (by decide), writes_in main_v74 (by decide), writes_in main_cst_15 (by decide), writes_in main_v75 (by decide), writes_in main_v76 (by decide), writes_in main_v77 (by decide), writes_in main_v78 (by decide)⟩
/-- A buffer `hostOps3` does not write holds afterwards what it held before. -/
theorem keeps3 (V : Valuation τ sig (Elt F)) {r : Ref sig .tc} (hr : r ∉ written3) :
    after hostOps3 V (Proc.devRef .tc r) = V (Proc.devRef .tc r) :=
  after_of_writes_sub hostOps3 V writes3 hr

/-- The buffers `hostOps4` writes. -/
abbrev written4 : List (Ref sig .tc) :=
  [ main_c_16, main_v80, main_v81, main_c_17, main_v82, main_v83, main_v84, main_v85, main_v86, main_c_18, main_v87, main_v88, main_c_19, main_v89, main_v90, main_v91, main_v92, main_v93, main_v94, main_v95, main_v96 ]
theorem writes4 : (hostOps4 : List (HloOp τ sig (Elt F))).Forall fun op =>
    op.writes ⊆ (written4.map (Proc.devRef (τ := τ) .tc)).toFinset :=
  ⟨writes_in main_c_16 (by decide), writes_in main_v80 (by decide), writes_in main_v81 (by decide), writes_in main_c_17 (by decide), writes_in main_v82 (by decide), writes_in main_v83 (by decide), writes_in main_v84 (by decide), writes_in main_v85 (by decide), writes_in main_v86 (by decide), writes_in main_c_18 (by decide), writes_in main_v87 (by decide), writes_in main_v88 (by decide), writes_in main_c_19 (by decide), writes_in main_v89 (by decide), writes_in main_v90 (by decide), writes_in main_v91 (by decide), writes_in main_v92 (by decide), writes_in main_v93 (by decide), writes_in main_v94 (by decide), writes_in main_v95 (by decide), writes_in main_v96 (by decide)⟩
/-- A buffer `hostOps4` does not write holds afterwards what it held before. -/
theorem keeps4 (V : Valuation τ sig (Elt F)) {r : Ref sig .tc} (hr : r ∉ written4) :
    after hostOps4 V (Proc.devRef .tc r) = V (Proc.devRef .tc r) :=
  after_of_writes_sub hostOps4 V writes4 hr

/-- The buffers `hostOps5` writes. -/
abbrev written5 : List (Ref sig .tc) :=
  [ main_call1_cst, main_call1_v0, main_call1_cst_0, main_call1_v1, main_call1_v2, main_call1_v3, main_call1_v4, main_call1_v5, main_call1_v6, main_call1_cst_1, main_call1_v7, main_call1_v8, main_call1_v9, main_call1_v10, main_v98 ]
theorem writes5 : (hostOps5 : List (HloOp τ sig (Elt F))).Forall fun op =>
    op.writes ⊆ (written5.map (Proc.devRef (τ := τ) .tc)).toFinset :=
  ⟨writes_in main_call1_cst (by decide), writes_in main_call1_v0 (by decide), writes_in main_call1_cst_0 (by decide), writes_in main_call1_v1 (by decide), writes_in main_call1_v2 (by decide), writes_in main_call1_v3 (by decide), writes_in main_call1_v4 (by decide), writes_in main_call1_v5 (by decide), writes_in main_call1_v6 (by decide), writes_in main_call1_cst_1 (by decide), writes_in main_call1_v7 (by decide), writes_in main_call1_v8 (by decide), writes_in main_call1_v9 (by decide), writes_in main_call1_v10 (by decide), writes_in main_v98 (by decide)⟩
/-- A buffer `hostOps5` does not write holds afterwards what it held before. -/
theorem keeps5 (V : Valuation τ sig (Elt F)) {r : Ref sig .tc} (hr : r ∉ written5) :
    after hostOps5 V (Proc.devRef .tc r) = V (Proc.devRef .tc r) :=
  after_of_writes_sub hostOps5 V writes5 hr

end Cert.KernelIdeal.HostKeep

end
-- ==== Proof.KernelHostA.lean ====
/-
  What the three stretches of host operations before the first region compute: the arcs and their coefficients.

  A stretch is a list of whole-array operations, each writing one buffer from a few others.  Its effect on a
  buffer is found by walking the list backwards from the last operation that writes the buffer, reading each
  operand the same way; the walk ends at buffers the list does not write, which hold what they held at its
  start.  The coefficient of an arc uses the inverse-root degree at both its ends, and the inverse-root degree
  uses the degree twice, so a walk over the whole of it would revisit the degree's history once per use.
  Instead the first stretch is cut in two where the degree is complete, and every walk below covers ONE
  list — the part up to the degree, the part after it, the second stretch, the third stretch — from ANY
  contents, with the buffers earlier lists wrote as plain inputs.  A list leaves alone every buffer it does not
  write, and the reads compose to the shared chain applied to the program's arguments.
-/
import proofs.«103955_j78099685311022_1_alg».proof.Proof.Gen.KernelIdeal.Launch
import proofs.«103955_j78099685311022_1_alg».proof.Proof.Chain
import proofs.«103955_j78099685311022_1_alg».proof.Proof.KernelKeep
import Idealize.ShloMosaic.Lib.StableHlo.Run

set_option maxRecDepth 16384
-- the walks are checked one after the other
set_option Elab.async false

noncomputable section

namespace Cert.KernelIdeal.HostRead

open Idealize.ShloMosaic Idealize.ShloMosaic.TcCoe Idealize.ShloMosaic.StableHlo Idealize.SL.Sem
open Cert.KernelIdeal Cert.KernelIdeal.Gen Cert.Chain

/-! ## The lists and their reads (the names of this part live in a namespace of their own) -/

namespace Pre

variable {F : FTy → Type} [FloatOps F]

/-- Folding a concatenation: fold the first list, then the second from where the first ended. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The first stretch up to the degree: the two rows of the edge list, the arcs' ends and weights, the degree. -/
abbrev kA : List (HloOp τ sig (Elt F)) :=
  [ StableHlo.unary main_arg0 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg0 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_v4 (iotaInDim S100000 32 0),
    StableHlo.binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v7 (broadcastInDim S100000 ![] bcast_S_S100000 : (⟨S_, .f32⟩ : BufTy).Contents (Elt F) → (⟨S100000, .f32⟩ : BufTy).Contents (Elt F)),
    StableHlo.binary main_arg1 main_v7 main_v8 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.unary main_v6 main_v10 (broadcastInDim S1700000x1 ![0] bcast_S1700000_S1700000x1_0 : (⟨S1700000, .i32⟩ : BufTy).Contents (Elt F) → (⟨S1700000x1, .i32⟩ : BufTy).Contents (Elt F)),
    StableHlo.ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ]

/-- The rest of the first stretch: where the degree is positive, its inverse square root kept away from 0, a zero. -/
abbrev kB : List (HloOp τ sig (Elt F)) :=
  [ StableHlo.nullary main_cst_1 (constant S_ .f32 0x00000000#32),
    StableHlo.unary main_cst_1 main_v12 (broadcastInDim S100000 ![] bcast_S_S100000 : (⟨S_, .f32⟩ : BufTy).Contents (Elt F) → (⟨S100000, .f32⟩ : BufTy).Contents (Elt F)),
    StableHlo.binary main_v11 main_v12 main_v13 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x2B8CBCCC#32),
    StableHlo.unary main_cst_2 main_v14 (broadcastInDim S100000 ![] bcast_S_S100000 : (⟨S_, .f32⟩ : BufTy).Contents (Elt F) → (⟨S100000, .f32⟩ : BufTy).Contents (Elt F)),
    StableHlo.binary main_v11 main_v14 main_v15 (maximumf : (⟨S100000, .f32⟩ : BufTy).Contents (Elt F) → (⟨S100000, .f32⟩ : BufTy).Contents (Elt F) → (⟨S100000, .f32⟩ : BufTy).Contents (Elt F)),
    StableHlo.unary main_v15 main_v16 (Host.rsqrt : (⟨S100000, .f32⟩ : BufTy).Contents (Elt F) → (⟨S100000, .f32⟩ : BufTy).Contents (Elt F)),
    StableHlo.nullary main_cst_3 (constant S_ .f32 0x00000000#32) ]

/-- The first stretch is those two lists, one after the other. -/
theorem hostOps0_cut : (hostOps0 : List (HloOp τ sig (Elt F))) = kA ++ kB := rfl

/-- The buffers the second list writes, in order. -/
abbrev kBw : List (Ref sig .tc) :=
  [ main_cst_1, main_v12, main_v13, main_cst_2, main_v14, main_v15, main_v16, main_cst_3 ]

theorem kB_writes : (kB : List (HloOp τ sig (Elt F))).Forall fun op =>
    op.writes ⊆ (kBw.map (Proc.devRef (τ := τ) .tc)).toFinset :=
  ⟨HostKeep.writes_in main_cst_1 (by decide), HostKeep.writes_in main_v12 (by decide), HostKeep.writes_in main_v13 (by decide), HostKeep.writes_in main_cst_2 (by decide), HostKeep.writes_in main_v14 (by decide), HostKeep.writes_in main_v15 (by decide), HostKeep.writes_in main_v16 (by decide), HostKeep.writes_in main_cst_3 (by decide)⟩

/-- A buffer the second list does not write holds afterwards what it held before. -/
theorem kB_keeps (V : Valuation τ sig (Elt F)) {r : Ref sig .tc} (hr : r ∉ kBw) :
    after kB V (Proc.devRef .tc r) = V (Proc.devRef .tc r) :=
  after_of_writes_sub kB V kB_writes hr

/-- Where an array of degrees is positive. -/
def posOf (g : F32 S100000) : IVec S100000 1 :=
  cmpf .ogt g (broadcastInDim S100000 ![] bcast_S_S100000 (constant S_ .f32 0x00000000#32))

/-- The inverse square root of an array of degrees kept away from 0. -/
def rootOf (g : F32 S100000) : F32 S100000 :=
  Host.rsqrt (maximumf g (broadcastInDim S100000 ![] bcast_S_S100000 (constant S_ .f32 0x2B8CBCCC#32)))

/-- The selection between the root and a repeated scalar, by the flags. -/
def pickOf (p : IVec S100000 1) (r : F32 S100000) (z : F32 S_) : F32 S100000 :=
  select p r (broadcastInDim S100000 ![] bcast_S_S100000 (id z))

/-- The arcs' coefficients from the values `v` at the nodes, the arcs' two ends and their weights: the value at the
    source, times the weight, times the value at the destination. -/
def normOf (v : F32 S100000) (s d : I32 S1700000) (w : F32 S1700000) : F32 S1700000 :=
  mulf (mulf (Host.gather gather_S100000_S1700000x1_S1700000_n_0_n_n_0_1_1 v (wrap s)) w)
    (Host.gather gather_S100000_S1700000x1_S1700000_n_0_n_n_0_1_1 v (wrap d))

variable (W : Valuation τ sig (Elt Ideal))

-- the gathers, scatter-adds, reductions and concatenations are names here: no walk looks inside one
attribute [local irreducible] Host.scatterAdd Host.gather Host.reduce Host.reduceAdd concatenate

/-- Up to the degree, from the program's arguments: the arcs' sources, -/
theorem kA_as : after (kA (F := Ideal)) W (Proc.devRef .tc main_v5) = arcs (srcRow (W (Proc.devRef .tc main_arg0))) := by
  simp only [after_cons, after_nil]
  rfl

/-- their destinations, -/
theorem kA_ad : after (kA (F := Ideal)) W (Proc.devRef .tc main_v6) = arcs (dstRow (W (Proc.devRef .tc main_arg0))) := by
  simp only [after_cons, after_nil]
  rfl

/-- their weights, -/
theorem kA_w2 : after (kA (F := Ideal)) W (Proc.devRef .tc main_v8) = w2 (W (Proc.devRef .tc main_arg1)) := by
  simp only [after_cons, after_nil]
  rfl

/-- and the weighted in-degree of every node. -/
theorem kA_deg : after (kA (F := Ideal)) W (Proc.devRef .tc main_v11) = deg (dstRow (W (Proc.devRef .tc main_arg0))) (W (Proc.devRef .tc main_arg1)) := by
  simp only [after_cons, after_nil]
  rfl

/-- After the degree, from any contents: where the degree found is positive, -/
theorem kB_pos : after (kB (F := Ideal)) W (Proc.devRef .tc main_v13) = posOf (W (Proc.devRef .tc main_v11)) := by
  simp only [after_cons, after_nil]
  rfl

/-- its inverse square root kept away from 0, -/
theorem kB_root : after (kB (F := Ideal)) W (Proc.devRef .tc main_v16) = rootOf (W (Proc.devRef .tc main_v11)) := by
  simp only [after_cons, after_nil]
  rfl

/-- and a zero. -/
theorem kB_zero : after (kB (F := Ideal)) W (Proc.devRef .tc main_cst_3) = constant (F := Ideal) S_ .f32 0x00000000#32 := by
  simp only [after_cons, after_nil]
  rfl

/-- The second stretch selects between the two it finds. -/
theorem kC_pick : after (hostOps0_1 (F := Ideal)) W (Proc.devRef .tc main_v17)
    = pickOf (W (Proc.devRef .tc main_v13)) (W (Proc.devRef .tc main_v16)) (W (Proc.devRef .tc main_cst_3)) := by
  simp only [after_cons, after_nil]
  rfl

/-- The third stretch multiplies each arc's weight by the value it finds at each of the arc's two ends. -/
theorem kD_norm : after (hostOps0_2 (F := Ideal)) W (Proc.devRef .tc main_v33)
    = normOf (W (Proc.devRef .tc main_v17)) (W (Proc.devRef .tc main_v5)) (W (Proc.devRef .tc main_v6)) (W (Proc.devRef .tc main_v8)) := by
  simp only [after_cons, after_nil]
  rfl

end Pre

/-! ## The three stretches together -/

open Pre

variable (W : Valuation τ sig (Elt Ideal))

-- as above: the closing comparison never looks inside these
attribute [local irreducible] Host.scatterAdd Host.gather Host.reduce Host.reduceAdd concatenate

/-- After the three stretches, buffer 5 holds the arcs' sources, -/
theorem pre_src : after (hostOps0_2 (F := Ideal)) (after (hostOps0_1 (F := Ideal)) (after (hostOps0 (F := Ideal)) W)) (Proc.devRef .tc main_v5)
    = arcs (srcRow (W (Proc.devRef .tc main_arg0))) := by
  rw [HostKeep.keeps0b (r := main_v5) _ (by decide), HostKeep.keeps0a (r := main_v5) _ (by decide), hostOps0_cut, after_app,
    kB_keeps (r := main_v5) _ (by decide)]
  exact kA_as W

/-- buffer 6 their destinations, -/
theorem pre_dst : after (hostOps0_2 (F := Ideal)) (after (hostOps0_1 (F := Ideal)) (after (hostOps0 (F := Ideal)) W)) (Proc.devRef .tc main_v6)
    = arcs (dstRow (W (Proc.devRef .tc main_arg0))) := by
  rw [HostKeep.keeps0b (r := main_v6) _ (by decide), HostKeep.keeps0a (r := main_v6) _ (by decide), hostOps0_cut, after_app,
    kB_keeps (r := main_v6) _ (by decide)]
  exact kA_ad W

/-- and buffer 33 their coefficients. -/
theorem pre_norm : after (hostOps0_2 (F := Ideal)) (after (hostOps0_1 (F := Ideal)) (after (hostOps0 (F := Ideal)) W)) (Proc.devRef .tc main_v33)
    = norm (srcRow (W (Proc.devRef .tc main_arg0))) (dstRow (W (Proc.devRef .tc main_arg0))) (W (Proc.devRef .tc main_arg1)) := by
  rw [kD_norm, kC_pick,
    HostKeep.keeps0a (r := main_v5) _ (by decide), HostKeep.keeps0a (r := main_v6) _ (by decide),
    HostKeep.keeps0a (r := main_v8) _ (by decide),
    hostOps0_cut, after_app, kB_pos, kB_root, kB_zero,
    kB_keeps (r := main_v5) _ (by decide), kB_keeps (r := main_v6) _ (by decide), kB_keeps (r := main_v8) _ (by decide),
    kA_as, kA_ad, kA_w2, kA_deg]
  rfl

end Cert.KernelIdeal.HostRead

end
-- ==== Proof.KernelHostB.lean ====
/-
  What the stretches of host operations between and after the regions compute: the aggregation of a region's output, a bias as a row, the paired rows of the head, the log-softmax.

  A stretch is a list of whole-array operations, each writing one buffer from a few others.  Its effect on a
  buffer is found by walking the list backwards from the last operation that writes the buffer, reading each
  operand the same way; the walk ends at buffers the stretch does not write, which hold what they held at
  its start.  Each walk below covers ONE stretch, with the buffers earlier stretches left as plain inputs, and
  the walks run one after the other: a walk over several stretches at once revisits the early operations once
  per later use.
-/
import proofs.«103955_j78099685311022_1_alg».proof.Proof.Gen.KernelIdeal.Launch
import proofs.«103955_j78099685311022_1_alg».proof.Proof.Chain
import Idealize.ShloMosaic.Lib.StableHlo.Run

set_option maxRecDepth 16384
-- the walks are checked one after the other
set_option Elab.async false

noncomputable section

namespace Cert.KernelIdeal.HostRead

open Idealize.ShloMosaic Idealize.ShloMosaic.TcCoe Idealize.ShloMosaic.StableHlo Idealize.SL.Sem
open Cert.KernelIdeal Cert.KernelIdeal.Gen Cert.Chain

variable (W : Valuation τ sig (Elt Ideal))

-- the gathers, scatter-adds and reductions are names here: no walk ever looks inside one
attribute [local irreducible] Host.scatterAdd Host.gather Host.reduce Host.reduceAdd concatenate

/-- The stretch after the first region aggregates that region's output -/
theorem agg1 : after (hostOps1 (F := Ideal)) W (Proc.devRef .tc main_v47)
    = aggOf (W (Proc.devRef .tc main_v6)) (W (Proc.devRef .tc main_v5)) (W (Proc.devRef .tc main_v33)) (W (Proc.devRef .tc main_v34)) := by
  simp only [after_cons, after_nil]
  rfl

/-- and lays the first bias out as a row. -/
theorem row1 : after (hostOps1 (F := Ideal)) W (Proc.devRef .tc main_v48)
    = row64 (W (Proc.devRef .tc main_arg6)) := by
  simp only [after_cons, after_nil]
  rfl

/-- The same after the second region, -/
theorem agg2 : after (hostOps2 (F := Ideal)) W (Proc.devRef .tc main_v62)
    = aggOf (W (Proc.devRef .tc main_v6)) (W (Proc.devRef .tc main_v5)) (W (Proc.devRef .tc main_v33)) (W (Proc.devRef .tc main_v49)) := by
  simp only [after_cons, after_nil]
  rfl

theorem row2 : after (hostOps2 (F := Ideal)) W (Proc.devRef .tc main_v63)
    = row64 (W (Proc.devRef .tc main_arg8)) := by
  simp only [after_cons, after_nil]
  rfl

/-- and after the third. -/
theorem agg3 : after (hostOps3 (F := Ideal)) W (Proc.devRef .tc main_v77)
    = aggOf (W (Proc.devRef .tc main_v6)) (W (Proc.devRef .tc main_v5)) (W (Proc.devRef .tc main_v33)) (W (Proc.devRef .tc main_v64)) := by
  simp only [after_cons, after_nil]
  rfl

theorem row3' : after (hostOps3 (F := Ideal)) W (Proc.devRef .tc main_v78)
    = row64 (W (Proc.devRef .tc main_arg10)) := by
  simp only [after_cons, after_nil]
  rfl

/-- The stretch before the last region pairs the final feature rows -/
theorem pairs4 : after (hostOps4 (F := Ideal)) W (Proc.devRef .tc main_v94)
    = pairs (W (Proc.devRef .tc main_v79)) (W (Proc.devRef .tc main_arg2)) (W (Proc.devRef .tc main_arg3)) := by
  simp only [after_cons, after_nil]
  rfl

/-- and lays the head's two biases out as rows. -/
theorem row4a : after (hostOps4 (F := Ideal)) W (Proc.devRef .tc main_v95)
    = row6 (W (Proc.devRef .tc main_arg12)) := by
  simp only [after_cons, after_nil]
  rfl

theorem row4b : after (hostOps4 (F := Ideal)) W (Proc.devRef .tc main_v96)
    = row3 (W (Proc.devRef .tc main_arg14)) := by
  simp only [after_cons, after_nil]
  rfl

/-- The last stretch is the log-softmax of the last region's output. -/
theorem tail5 : after (hostOps5 (F := Ideal)) W (Proc.devRef .tc main_v98)
    = logSoftmax (W (Proc.devRef .tc main_v97)) := by
  simp only [after_cons, after_nil]
  rfl

end Cert.KernelIdeal.HostRead

end
-- ==== Proof.Spec.lean ====
/-
  The mathematics both programs compute, stated once over plain index coordinates and importing neither program.

  A graph-convolution layer sends node features `x` to `leaky (A (x · W) + b)`, where `A` is the normalized
  adjacency aggregation (a gather of rows, a scaling and a scatter-add: the same host operations in both
  programs, never opened here).  The dense parts are two functions:

  * `mm x w`   — the matrix product, entry (r, q) the sum over k of x(r, k) · w(k, q);
  * `act a b`  — a bias row added to every row, then the leaky rectifier entry by entry.

  On the extended reals the rectifier is `a` where `0 < a` and `slope · a` elsewhere.  Read with `0 ≤ a` instead
  it is the same function: the two readings differ only at `a = 0`, where `slope · 0 = 0`.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- A two-axis array of extended reals. -/
abbrev A2 (n0 n1 : Nat) : Type := (⟨2, ![n0, n1]⟩ : Shape).Idx → EReal

/-- The rectifier's slope on the negative side: the single-precision number nearest 0.01, as an exact real. -/
def slope : EReal := Ideal.ofBits .f32 0x3C23D70A#32

/-- The leaky rectifier: the identity on the positive side, a multiple on the rest. -/
def leaky (a : EReal) : EReal := if 0 < a then a else slope * a

/-- Deciding the side with `0 ≤ a` gives the same function: at `a = 0` both branches are `0`. -/
theorem leaky_of_le (a : EReal) : (if 0 ≤ a then a else slope * a) = leaky a := by
  unfold leaky
  by_cases h : 0 < a
  · rw [if_pos h, if_pos h.le]
  · rw [if_neg h]
    by_cases h0 : 0 ≤ a
    · have : a = 0 := le_antisymm (not_lt.mp h) h0
      rw [if_pos h0, this, mul_zero]
    · rw [if_neg h0]

/-- The matrix product: entry (r, q) is the sum over the contracted axis of x(r, k) · w(k, q). -/
def mm {n k m : Nat} (x : A2 n k) (w : A2 k m) : A2 n m :=
  fun i => ∑ j : Fin k, x (ix2 (i 0) j) * w (ix2 j (i 1))

/-- A bias row (an array of one row) added to every row, then the rectifier entry by entry. -/
def act {n m : Nat} (a : A2 n m) (b : A2 1 m) : A2 n m :=
  fun i => leaky (a i + b (ix2 0 (i 1)))

end Cert.Spec

end
-- ==== Proof.Region0.lean ====
/-
  Region 0 of the kernel program (the first layer's matrix-product kernel), read as one function of the arrays it
  finds.

  The region walks ten blocks of 10000 rows down a 100000 × 64 array of node features.  At each block it loads the
  block and the whole 64 × 64 weight matrix and multiplies them into a zero accumulator.  On the extended reals the
  narrowing of the operands is the identity and the product is exact, so entry (p, q) of the block written is the sum
  over k of x(p, k) · w(k, q), with x the rows of that block: the same block of one whole-array function —
  `Cert.Spec.mm` of the features and the weights.  The ten blocks tile the rows, so the array after the region is that
  function.
-/
import proofs.«103955_j78099685311022_1_alg».proof.Proof.Spec
import proofs.«103955_j78099685311022_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-- The two offsets of a whole-block access, spelt as the constant function the library's lemmas ask for. -/
theorem zero_offsets : (![0, 0] : Fin 2 → Nat) = fun _ => 0 := funext fun a => by fin_cases a <;> rfl

/-- The body's arithmetic at entry (p, q) of a block: the product of the block of rows with the weight matrix,
    accumulated into zero, is the sum over the contracted coordinate k of x(p, k) · w(k, q). The narrowing of the
    operands is the identity on extended reals; the product's contraction index has one axis, of extent 64, and is
    re-indexed by its one coordinate. -/
theorem pay_apply (x : FVec Ideal S10000x64 .f32) (w : FVec Ideal S64x64 .f32) (p : Fin 10000) (q : Fin 64) :
    k0_pay1 (F := Ideal) x w (ix2 p q) = ∑ k : Fin 64, x (ix2 p k) * w (ix2 k q) := by
  unfold k0_pay1
  show FloatOps.matmul dot_S10000x64_S64x64_S10000x64_1_0_0_1_n_n none (truncf .bf16 x bitsLt_bf16_f32) (truncf .bf16 w bitsLt_bf16_f32)
      (constant (F := Ideal) S10000x64 .f32 0x00000000#32) (ix2 p q) = _
  rw [Ideal.matmul_constant_zero_apply, ← Equiv.sum_comp (contrEquiv1 dot_S10000x64_S64x64_S10000x64_1_0_0_1_n_n 64 rfl rfl).symm]
  refine Finset.sum_congr rfl fun k _ => ?_
  have ck := contrEquiv1_symm_val dot_S10000x64_S64x64_S10000x64_1_0_0_1_n_n 64 rfl rfl k
  have hl : dot_S10000x64_S64x64_S10000x64_1_0_0_1_n_n.lhsIdx (ix2 p q) ((contrEquiv1 dot_S10000x64_S64x64_S10000x64_1_0_0_1_n_n 64 rfl rfl).symm k) = ix2 p k := by
    funext ax; apply Fin.ext
    match ax with
    | ⟨0, _⟩ => simp [DotDims.lhsIdx, dot_S10000x64_S64x64_S10000x64_1_0_0_1_n_n]; rfl
    | ⟨1, _⟩ => exact (DotDims.lhsIdx_val_of_single dot_S10000x64_S64x64_S10000x64_1_0_0_1_n_n (cl := 1) rfl (ix2 p q) _).trans ck
  have hr : dot_S10000x64_S64x64_S10000x64_1_0_0_1_n_n.rhsIdx (ix2 p q) ((contrEquiv1 dot_S10000x64_S64x64_S10000x64_1_0_0_1_n_n 64 rfl rfl).symm k) = ix2 k q := by
    funext ax; apply Fin.ext
    match ax with
    | ⟨0, _⟩ => exact (DotDims.rhsIdx_val_of_single dot_S10000x64_S64x64_S10000x64_1_0_0_1_n_n (cr := 0) rfl (ix2 p q) _).trans ck
    | ⟨1, _⟩ => simp [DotDims.rhsIdx, dot_S10000x64_S64x64_S10000x64_1_0_0_1_n_n]; rfl
  rw [hl, hr, truncf_apply, truncf_apply]

/-- One entry of a block against one entry of the whole arrays: when the block of rows is the array of rows read
    through a placement `e` of the block in the array that starts at row `r0` and keeps the columns, and the weight
    block is the weight array, the body's result at `j` is the matrix product at `e j`. -/
theorem point_eq (X : Cert.Spec.A2 100000 64) (W : Cert.Spec.A2 64 64) (x0 : Vec Ideal S10000x64 .f32) (x1 : Vec Ideal S64x64 .f32)
    (e : S10000x64.Idx → S100000x64.Idx) (r0 : Nat)
    (h0 : ∀ y, x0 y = X (e y)) (h1 : ∀ y, x1 y = W y)
    (hrow : ∀ (p : Fin 10000) (q : Fin 64), ((e (ix2 p q)) 0).val = r0 + p.val)
    (hcol : ∀ (p : Fin 10000) (q : Fin 64), ((e (ix2 p q)) 1).val = q.val) (j : S10000x64.Idx) :
    k0_pay1 x0 x1 j = Cert.Spec.mm X W (e j) := by
  obtain ⟨p, q, rfl⟩ : ∃ (p : Fin 10000) (q : Fin 64), j = ix2 p q := ⟨j 0, j 1, eq_ix2 j⟩
  rw [pay_apply]
  unfold Cert.Spec.mm
  refine Finset.sum_congr rfl fun k _ => ?_
  have hq : (e (ix2 p q)) 1 = q := Fin.ext (hcol p q)
  have hpk : e (ix2 p k) = ix2 ((e (ix2 p q)) 0) k := by
    funext a; apply Fin.ext
    match a with
    | ⟨0, _⟩ => show ((e (ix2 p k)) 0).val = ((e (ix2 p q)) 0).val; rw [hrow p k, hrow p q]
    | ⟨1, _⟩ => show ((e (ix2 p k)) 1).val = k.val; exact hcol p k
  show x0 (ix2 p k) * x1 (ix2 k q) = X (ix2 ((e (ix2 p q)) 0) k) * W (ix2 k ((e (ix2 p q)) 1))
  rw [h0, h1, hpk]
  exact congrArg (fun z : Fin 64 => X (ix2 ((e (ix2 p q)) 0) k) * W (ix2 k z)) hq.symm

/-- The printed index maps over the ten grid points: the rows' window and the output move together, block t at point
    t; the weight window stays at its one block. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block is some point's. -/
theorem idx_onto : ∀ r : Fin 10, ∃ t : Fin cfg0.N, win0_2.index t = ![r.val, 0] :=
  (by decide +kernel : ∀ r : Fin 10, ∃ t : Fin grid0.N, win0_2.index t = ![r.val, 0])

/-- What point t writes back is block t of the matrix product of the arrays as the region finds them. -/
theorem flushed_eq (c : Dev nD) (t : Fin cfg0.N) :
    (dat0 V c).flushed 2 t = ((cfg0.win 2).blk t).view.read (Elt Ideal)
      (Cert.Spec.mm (V c (Pipeline.arrRef spec0 0)) (V c (Pipeline.arrRef spec0 1))) := by
  show (cfg0.win 2).cut (grid0.coords t) ((dat0 V c).after 2 t) = _
  rw [after0_2]
  unfold out0_2
  rw [View.canon_unit_zero zero_offsets]
  simp only [View.ld_unit_zero (S := S10000x64) zero_offsets, View.ld_unit_zero (S := S64x64) zero_offsets]
  obtain ⟨e0, e1, e2, e3, e4, e5⟩ := idx_facts t
  funext j
  have hblk0 : ∀ y : S10000x64.Idx, ((cfg0.win 0).blk t).view.emb y = ((cfg0.win 2).blk t).view.emb y := by
    intro y; funext a; apply Fin.ext
    match a with
    | ⟨0, _⟩ => show win0_0.index t (0 : Fin 2) * 10000 + 1 * (y 0).val = win0_2.index t (0 : Fin 2) * 10000 + 1 * (y 0).val; omega
    | ⟨1, _⟩ => show win0_0.index t (1 : Fin 2) * 64 + 1 * (y 1).val = win0_2.index t (1 : Fin 2) * 64 + 1 * (y 1).val; omega
  have hblk1 : ∀ y : S64x64.Idx, ((cfg0.win 1).blk t).view.emb y = y := by
    intro y; funext a; apply Fin.ext
    match a with
    | ⟨0, _⟩ => show win0_1.index t (0 : Fin 2) * 64 + 1 * (y 0).val = (y 0).val; omega
    | ⟨1, _⟩ => show win0_1.index t (1 : Fin 2) * 64 + 1 * (y 1).val = (y 1).val; omega
  refine point_eq (V c (Pipeline.arrRef spec0 0)) (V c (Pipeline.arrRef spec0 1)) (iblk0 V c 0 t) (iblk0 V c 1 t)
    (((cfg0.win 2).blk t).view.emb) (win0_2.index t (0 : Fin 2) * 10000) (fun y => ?_) (fun y => ?_) (fun p q => ?_) (fun p q => ?_) j
  · show V c (Pipeline.arrRef spec0 0) (((cfg0.win 0).blk t).view.emb y) = _
    rw [hblk0 y]
  · show V c (Pipeline.arrRef spec0 1) (((cfg0.win 1).blk t).view.emb y) = _
    rw [hblk1 y]
  · show win0_2.index t (0 : Fin 2) * 10000 + 1 * p.val = win0_2.index t (0 : Fin 2) * 10000 + p.val
    omega
  · show win0_2.index t (1 : Fin 2) * 64 + 1 * q.val = q.val
    omega

/-- An index of the array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v34).slice (win0_2.rect t)).set ↔ _
  rw [View.set_slice_whole, Rect.mem_set_unit]
  exact Iff.rfl

/-- Row r of the array is in the block of the point whose block index is r / 10000: the ten blocks tile the rows. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the region: the matrix product of the array of rows with the weight matrix, as one
    function of the two arrays the region finds. -/
theorem final (c : Dev nD) : (dat0 (F := Ideal) V c).arrAt 2 cfg0.N
    = Cert.Spec.mm (V c (Pipeline.arrRef spec0 0)) (V c (Pipeline.arrRef spec0 1)) :=
  (dat0 V c).arrAt_eq_of_cover 2 (Cert.Spec.mm (V c (Pipeline.arrRef spec0 0)) (V c (Pipeline.arrRef spec0 1)))
    (fun t _ => flushed_eq V c t) cover

end Cert.KernelIdeal.Region0

end
-- ==== Proof.Region1.lean ====
/-
  A bias, rectifier and matrix-product stage of the network (the first of the two regions with this body), read off
  the program's frame as one whole-array function.

  The region's body takes a block of 10000 rows of the aggregated features, adds the bias row to every row, applies the
  leaky rectifier entry by entry and multiplies the result by the 64 × 64 weight, accumulating into zero.  Every grid
  point handles one block of rows, and the ten blocks tile the 100000 rows, so the array the region leaves is

      mm (act agg bias) w :   entry (r, q) = ∑ k, leaky (agg (r, k) + bias (0, k)) · w (k, q).

  The steps: the body's arithmetic at one entry of a block (the contraction re-indexed over `Fin 64`, the rectifier's
  compare-and-choose read as the `if` of the specification); each input block as rows of its array; what one grid point
  writes back as a block of the whole-array function; the blocks cover the array.
-/
import proofs.«103955_j78099685311022_1_alg».proof.Proof.Spec
import proofs.«103955_j78099685311022_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Region1

open Idealize.ShloMosaic Idealize.ShloMosaic.TcCoe Idealize.SL.Sem Cert.KernelIdeal Cert.KernelIdeal.Gen
open Idealize.ShloMosaic.ValueIdx
open Idealize.ShloMosaic.Pipeline (Dat)
open scoped BigOperators

/-- The rectifier as the vector unit spells it: compare with the zero word, then choose. -/
theorem select_leaky (a : EReal) :
    Scalar.select (FloatOps.cmpf (F := Ideal) (φ := .f32) .ogt a (Ideal.ofBits .f32 0x00000000#32)) a (Ideal.ofBits .f32 0x3C23D70A#32 * a)
      = Cert.Spec.leaky a := by
  rw [Ideal.cmpf_def, Ideal.ofBits_zero_f32]
  unfold Ideal.cmp Cert.Spec.leaky Cert.Spec.slope Scalar.select
  by_cases h : (0 : EReal) < a
  · simp [h]
  · simp [h]

/-- The product's dimension numbers: rows of the left operand against columns of the right, one contracted axis of extent 64. -/
abbrev D := dot_S10000x64_S64x64_S10000x64_1_0_0_1_n_n

/-- At output entry (p, q) and contraction position k the left operand is read at (p, k) … -/
theorem lhs_idx (p : Fin 10000) (q k : Fin 64) :
    D.lhsIdx (ix2 p q) ((contrEquiv1 D 64 rfl rfl).symm k) = ix2 p k := by
  funext a; apply Fin.ext
  match a with
  | ⟨0, _⟩ => simp [DotDims.lhsIdx, D, dot_S10000x64_S64x64_S10000x64_1_0_0_1_n_n]; rfl
  | ⟨1, _⟩ =>
    refine (D.lhsIdx_val_of_single (cl := 1) rfl (ix2 p q) _).trans ?_
    exact contrEquiv1_symm_val D 64 rfl rfl k

/-- … and the right operand at (k, q). -/
theorem rhs_idx (p : Fin 10000) (q k : Fin 64) :
    D.rhsIdx (ix2 p q) ((contrEquiv1 D 64 rfl rfl).symm k) = ix2 k q := by
  funext a; apply Fin.ext
  match a with
  | ⟨0, _⟩ =>
    refine (D.rhsIdx_val_of_single (cr := 0) rfl (ix2 p q) _).trans ?_
    exact contrEquiv1_symm_val D 64 rfl rfl k
  | ⟨1, _⟩ => simp [DotDims.rhsIdx, D, dot_S10000x64_S64x64_S10000x64_1_0_0_1_n_n]; rfl

/-- The body's arithmetic at one entry of the block: the bias row is added to the row of the aggregate, the rectifier
    is applied, and the result is contracted against a column of the weight. -/
theorem payload_apply (x0 : Vec Ideal S10000x64 .f32) (x1 : Vec Ideal S1x64 .f32) (x2 : Vec Ideal S64x64 .f32)
    (p : Fin 10000) (q : Fin 64) :
    k1_pay1 (F := Ideal) x0 x1 x2 (ix2 p q)
      = ∑ k : Fin 64, Cert.Spec.leaky (x0 (ix2 p k) + x1 (ix2 (0 : Fin 1) k)) * x2 (ix2 k q) := by
  unfold k1_pay1
  refine (Ideal.matmul_constant_zero_apply D none _ _ (ix2 p q)).trans ?_
  rw [← Equiv.sum_comp (contrEquiv1 D 64 rfl rfl).symm]
  refine Finset.sum_congr rfl fun k _ => ?_
  rw [lhs_idx, rhs_idx]
  simp only [truncf_apply, select_apply, cmpf_apply, mulf_apply, addf_apply, broadcast_apply, shapeCast_self]
  rw [broadcastTo_1b_ab_apply]
  exact congrArg (· * x2 (ix2 k q)) (select_leaky _)

variable (V : (c : Dev nD) → (b : Ref sig .tc) → Buf (Elt Ideal) ((c : Thread nD τ).loc b))

/-- The two zero offsets of a whole-block access, as the constant function. -/
theorem hz : (![0, 0] : Fin 2 → Nat) = fun _ => 0 := funext fun a => by fin_cases a <;> rfl

/-- Where each window's block sits at grid point `t`: the aggregate and the output move down one block of rows per
    point; the bias row and the weight stay at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row `p` of the aggregate's block at point `t` is row `10000 t + p` of the aggregate. -/
theorem agg_block (c : Dev nD) (t : Fin cfg1.N) (p : Fin 10000) (k : Fin 64) (i : S100000x64.Idx)
    (h0 : (i 0).val = t.val * 10000 + p.val) (h1 : (i 1).val = k.val) :
    (iblk1 V c 0 t : Vec Ideal S10000x64 .f32) (ix2 p k) = (V c (Pipeline.arrRef spec1 0) : S100000x64.Idx → EReal) i := by
  obtain ⟨e0, e1, -⟩ := idx_facts t
  unfold iblk1
  rw [View.read_apply]
  show V c (Pipeline.arrRef spec1 0) _ = V c (Pipeline.arrRef spec1 0) _
  congr 1
  funext a
  apply Fin.ext
  match a with
  | ⟨0, _⟩ => show win1_0.index t 0 * 10000 + 1 * p.val = (i 0).val; rw [e0, h0]; omega
  | ⟨1, _⟩ => show win1_0.index t 1 * 64 + 1 * k.val = (i 1).val; rw [e1, h1]; omega

/-- The bias window's block is the whole bias row at every point. -/
theorem bias_block (c : Dev nD) (t : Fin cfg1.N) (k : Fin 64) :
    (iblk1 V c 1 t : Vec Ideal S1x64 .f32) (ix2 (0 : Fin 1) k) = (V c (Pipeline.arrRef spec1 1) : S1x64.Idx → EReal) (ix2 (0 : Fin 1) k) := by
  obtain ⟨-, -, e2, e3, -⟩ := idx_facts t
  unfold iblk1
  rw [View.read_apply]
  show V c (Pipeline.arrRef spec1 1) _ = V c (Pipeline.arrRef spec1 1) _
  congr 1
  funext a
  apply Fin.ext
  match a with
  | ⟨0, _⟩ => show win1_1.index t 0 * 1 + 1 * 0 = 0; rw [e2]
  | ⟨1, _⟩ => show win1_1.index t 1 * 64 + 1 * k.val = k.val; rw [e3]; omega

/-- The weight window's block is the whole weight at every point. -/
theorem weight_block (c : Dev nD) (t : Fin cfg1.N) (k q : Fin 64) :
    (iblk1 V c 2 t : Vec Ideal S64x64 .f32) (ix2 k q) = (V c (Pipeline.arrRef spec1 2) : S64x64.Idx → EReal) (ix2 k q) := by
  obtain ⟨-, -, -, -, e4, e5, -⟩ := idx_facts t
  unfold iblk1
  rw [View.read_apply]
  show V c (Pipeline.arrRef spec1 2) _ = V c (Pipeline.arrRef spec1 2) _
  congr 1
  funext a
  apply Fin.ext
  match a with
  | ⟨0, _⟩ => show win1_2.index t 0 * 64 + 1 * k.val = k.val; rw [e4]; omega
  | ⟨1, _⟩ => show win1_2.index t 1 * 64 + 1 * q.val = q.val; rw [e5]; omega

/-- What grid point `t` writes back is block `t` of the product of the rectified, biased aggregate with the weight:
    entry (p, q) of the block is the body's sum over `k`, whose terms read row `10000 t + p` of the aggregate, the
    bias row and column `q` of the weight — the same terms as entry (10000 t + p, q) of the whole-array product. -/
theorem flushed_eq (c : Dev nD) (t : Fin cfg1.N) :
    (dat1 V c).flushed 3 t = ((cfg1.win 3).blk t).view.read (Elt Ideal)
      (Cert.Spec.mm (Cert.Spec.act (V c (Pipeline.arrRef spec1 0)) (V c (Pipeline.arrRef spec1 1))) (V c (Pipeline.arrRef spec1 2))) := by
  show (cfg1.win 3).cut (grid1.coords t) ((dat1 V c).after 3 t) = _
  rw [after1_3]
  unfold out1_3
  rw [View.canon_unit_zero hz]
  simp only [View.ld_unit_zero (S := S10000x64) hz, View.ld_unit_zero (S := S1x64) hz, View.ld_unit_zero (S := S64x64) hz]
  obtain ⟨-, -, -, -, -, -, e6, e7⟩ := idx_facts t
  refine funext fun (j : S10000x64.Idx) => ?_
  obtain ⟨p, q, rfl⟩ : ∃ (p : Fin 10000) (q : Fin 64), j = ix2 p q := ⟨j 0, j 1, eq_ix2 j⟩
  show k1_pay1 (iblk1 V c 0 t) (iblk1 V c 1 t) (iblk1 V c 2 t) (ix2 p q)
    = Cert.Spec.mm (Cert.Spec.act (V c (Pipeline.arrRef spec1 0)) (V c (Pipeline.arrRef spec1 1))) (V c (Pipeline.arrRef spec1 2))
        (((cfg1.win 3).blk t).view.emb (ix2 p q))
  refine (payload_apply (iblk1 V c 0 t) (iblk1 V c 1 t) (iblk1 V c 2 t) p q).trans ?_
  have hE0 : ((((cfg1.win 3).blk t).view.emb (ix2 p q)) 0).val = t.val * 10000 + p.val := by
    show win1_3.index t 0 * 10000 + 1 * p.val = _; rw [e6]; omega
  have hE1 : ((((cfg1.win 3).blk t).view.emb (ix2 p q)) 1) = q := by
    apply Fin.ext; show win1_3.index t 1 * 64 + 1 * q.val = _; rw [e7]; omega
  unfold Cert.Spec.mm Cert.Spec.act
  rw [hE1]
  refine Finset.sum_congr rfl fun k _ => ?_
  exact congrArg₂ (· * ·)
    (congrArg Cert.Spec.leaky (congrArg₂ (· + ·) (agg_block V c t p k _ hE0 rfl) (bias_block V c t k)))
    (weight_block V c t k q)

/-- An index of the output array lies in point `t`'s block iff each coordinate lies in the block's range. -/
theorem mem_blk (t : Fin cfg1.N) (i : S100000x64.Idx) :
    i ∈ ((cfg1.win 3).blk t).view.set ↔ ∀ a : Fin 2, win1_3.index t a * S10000x64.size a ≤ (i a).val ∧ (i a).val < win1_3.index t a * S10000x64.size a + S10000x64.size a := by
  show i ∈ ((View.whole main_v49).slice (win1_3.rect t)).set ↔ _
  rw [View.set_slice_whole, Rect.mem_set_unit]
  exact Iff.rfl

/-- Every row of the output belongs to a block: row `r` to the block of point `r / 10000`. -/
theorem cover (i : S100000x64.Idx) : ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨-, -, -, -, -, -, e6, e7⟩ := idx_facts t
  refine ⟨t, flush1_3 t, ?_⟩
  rw [mem_blk]
  intro a
  match a with
  | ⟨0, _⟩ => show win1_3.index t 0 * 10000 ≤ (i 0).val ∧ (i 0).val < win1_3.index t 0 * 10000 + 10000; rw [e6]; omega
  | ⟨1, _⟩ => show win1_3.index t 1 * 64 ≤ (i 1).val ∧ (i 1).val < win1_3.index t 1 * 64 + 64; rw [e7]; omega

/-- The output array after the region: the product of the rectified, biased aggregate with the weight, as one function
    of the three input arrays as the region finds them. -/
theorem final (c : Dev nD) : (Gen.dat1 (F := Ideal) V c).arrAt 3 cfg1.N
    = Cert.Spec.mm (Cert.Spec.act (V c (Pipeline.arrRef spec1 0)) (V c (Pipeline.arrRef spec1 1))) (V c (Pipeline.arrRef spec1 2)) :=
  (dat1 V c).arrAt_eq_of_cover 3 _ (fun t _ => flushed_eq V c t) cover

end Cert.KernelIdeal.Region1

end
-- ==== Proof.Region2.lean ====
/-
  A bias, rectifier and matrix-product stage of the network (the second of the two regions with this body), read off
  the program's frame as one whole-array function.

  The region's body takes a block of 10000 rows of the aggregated features, adds the bias row to every row, applies the
  leaky rectifier entry by entry and multiplies the result by the 64 × 64 weight, accumulating into zero.  Every grid
  point handles one block of rows, and the ten blocks tile the 100000 rows, so the array the region leaves is

      mm (act agg bias) w :   entry (r, q) = ∑ k, leaky (agg (r, k) + bias (0, k)) · w (k, q).

  The steps: the body's arithmetic at one entry of a block (the contraction re-indexed over `Fin 64`, the rectifier's
  compare-and-choose read as the `if` of the specification); each input block as rows of its array; what one grid point
  writes back as a block of the whole-array function; the blocks cover the array.
-/
import proofs.«103955_j78099685311022_1_alg».proof.Proof.Spec
import proofs.«103955_j78099685311022_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Region2

open Idealize.ShloMosaic Idealize.ShloMosaic.TcCoe Idealize.SL.Sem Cert.KernelIdeal Cert.KernelIdeal.Gen
open Idealize.ShloMosaic.ValueIdx
open Idealize.ShloMosaic.Pipeline (Dat)
open scoped BigOperators

/-- The rectifier as the vector unit spells it: compare with the zero word, then choose. -/
theorem select_leaky (a : EReal) :
    Scalar.select (FloatOps.cmpf (F := Ideal) (φ := .f32) .ogt a (Ideal.ofBits .f32 0x00000000#32)) a (Ideal.ofBits .f32 0x3C23D70A#32 * a)
      = Cert.Spec.leaky a := by
  rw [Ideal.cmpf_def, Ideal.ofBits_zero_f32]
  unfold Ideal.cmp Cert.Spec.leaky Cert.Spec.slope Scalar.select
  by_cases h : (0 : EReal) < a
  · simp [h]
  · simp [h]

/-- The product's dimension numbers: rows of the left operand against columns of the right, one contracted axis of extent 64. -/
abbrev D := dot_S10000x64_S64x64_S10000x64_1_0_0_1_n_n

/-- At output entry (p, q) and contraction position k the left operand is read at (p, k) … -/
theorem lhs_idx (p : Fin 10000) (q k : Fin 64) :
    D.lhsIdx (ix2 p q) ((contrEquiv1 D 64 rfl rfl).symm k) = ix2 p k := by
  funext a; apply Fin.ext
  match a with
  | ⟨0, _⟩ => simp [DotDims.lhsIdx, D, dot_S10000x64_S64x64_S10000x64_1_0_0_1_n_n]; rfl
  | ⟨1, _⟩ =>
    refine (D.lhsIdx_val_of_single (cl := 1) rfl (ix2 p q) _).trans ?_
    exact contrEquiv1_symm_val D 64 rfl rfl k

/-- … and the right operand at (k, q). -/
theorem rhs_idx (p : Fin 10000) (q k : Fin 64) :
    D.rhsIdx (ix2 p q) ((contrEquiv1 D 64 rfl rfl).symm k) = ix2 k q := by
  funext a; apply Fin.ext
  match a with
  | ⟨0, _⟩ =>
    refine (D.rhsIdx_val_of_single (cr := 0) rfl (ix2 p q) _).trans ?_
    exact contrEquiv1_symm_val D 64 rfl rfl k
  | ⟨1, _⟩ => simp [DotDims.rhsIdx, D, dot_S10000x64_S64x64_S10000x64_1_0_0_1_n_n]; rfl

/-- The body's arithmetic at one entry of the block: the bias row is added to the row of the aggregate, the rectifier
    is applied, and the result is contracted against a column of the weight. -/
theorem payload_apply (x0 : Vec Ideal S10000x64 .f32) (x1 : Vec Ideal S1x64 .f32) (x2 : Vec Ideal S64x64 .f32)
    (p : Fin 10000) (q : Fin 64) :
    k2_pay1 (F := Ideal) x0 x1 x2 (ix2 p q)
      = ∑ k : Fin 64, Cert.Spec.leaky (x0 (ix2 p k) + x1 (ix2 (0 : Fin 1) k)) * x2 (ix2 k q) := by
  unfold k2_pay1
  refine (Ideal.matmul_constant_zero_apply D none _ _ (ix2 p q)).trans ?_
  rw [← Equiv.sum_comp (contrEquiv1 D 64 rfl rfl).symm]
  refine Finset.sum_congr rfl fun k _ => ?_
  rw [lhs_idx, rhs_idx]
  simp only [truncf_apply, select_apply, cmpf_apply, mulf_apply, addf_apply, broadcast_apply, shapeCast_self]
  rw [broadcastTo_1b_ab_apply]
  exact congrArg (· * x2 (ix2 k q)) (select_leaky _)

variable (V : (c : Dev nD) → (b : Ref sig .tc) → Buf (Elt Ideal) ((c : Thread nD τ).loc b))

/-- The two zero offsets of a whole-block access, as the constant function. -/
theorem hz : (![0, 0] : Fin 2 → Nat) = fun _ => 0 := funext fun a => by fin_cases a <;> rfl

/-- Where each window's block sits at grid point `t`: the aggregate and the output move down one block of rows per
    point; the bias row and the weight stay at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row `p` of the aggregate's block at point `t` is row `10000 t + p` of the aggregate. -/
theorem agg_block (c : Dev nD) (t : Fin cfg2.N) (p : Fin 10000) (k : Fin 64) (i : S100000x64.Idx)
    (h0 : (i 0).val = t.val * 10000 + p.val) (h1 : (i 1).val = k.val) :
    (iblk2 V c 0 t : Vec Ideal S10000x64 .f32) (ix2 p k) = (V c (Pipeline.arrRef spec2 0) : S100000x64.Idx → EReal) i := by
  obtain ⟨e0, e1, -⟩ := idx_facts t
  unfold iblk2
  rw [View.read_apply]
  show V c (Pipeline.arrRef spec2 0) _ = V c (Pipeline.arrRef spec2 0) _
  congr 1
  funext a
  apply Fin.ext
  match a with
  | ⟨0, _⟩ => show win2_0.index t 0 * 10000 + 1 * p.val = (i 0).val; rw [e0, h0]; omega
  | ⟨1, _⟩ => show win2_0.index t 1 * 64 + 1 * k.val = (i 1).val; rw [e1, h1]; omega

/-- The bias window's block is the whole bias row at every point. -/
theorem bias_block (c : Dev nD) (t : Fin cfg2.N) (k : Fin 64) :
    (iblk2 V c 1 t : Vec Ideal S1x64 .f32) (ix2 (0 : Fin 1) k) = (V c (Pipeline.arrRef spec2 1) : S1x64.Idx → EReal) (ix2 (0 : Fin 1) k) := by
  obtain ⟨-, -, e2, e3, -⟩ := idx_facts t
  unfold iblk2
  rw [View.read_apply]
  show V c (Pipeline.arrRef spec2 1) _ = V c (Pipeline.arrRef spec2 1) _
  congr 1
  funext a
  apply Fin.ext
  match a with
  | ⟨0, _⟩ => show win2_1.index t 0 * 1 + 1 * 0 = 0; rw [e2]
  | ⟨1, _⟩ => show win2_1.index t 1 * 64 + 1 * k.val = k.val; rw [e3]; omega

/-- The weight window's block is the whole weight at every point. -/
theorem weight_block (c : Dev nD) (t : Fin cfg2.N) (k q : Fin 64) :
    (iblk2 V c 2 t : Vec Ideal S64x64 .f32) (ix2 k q) = (V c (Pipeline.arrRef spec2 2) : S64x64.Idx → EReal) (ix2 k q) := by
  obtain ⟨-, -, -, -, e4, e5, -⟩ := idx_facts t
  unfold iblk2
  rw [View.read_apply]
  show V c (Pipeline.arrRef spec2 2) _ = V c (Pipeline.arrRef spec2 2) _
  congr 1
  funext a
  apply Fin.ext
  match a with
  | ⟨0, _⟩ => show win2_2.index t 0 * 64 + 1 * k.val = k.val; rw [e4]; omega
  | ⟨1, _⟩ => show win2_2.index t 1 * 64 + 1 * q.val = q.val; rw [e5]; omega

/-- What grid point `t` writes back is block `t` of the product of the rectified, biased aggregate with the weight:
    entry (p, q) of the block is the body's sum over `k`, whose terms read row `10000 t + p` of the aggregate, the
    bias row and column `q` of the weight — the same terms as entry (10000 t + p, q) of the whole-array product. -/
theorem flushed_eq (c : Dev nD) (t : Fin cfg2.N) :
    (dat2 V c).flushed 3 t = ((cfg2.win 3).blk t).view.read (Elt Ideal)
      (Cert.Spec.mm (Cert.Spec.act (V c (Pipeline.arrRef spec2 0)) (V c (Pipeline.arrRef spec2 1))) (V c (Pipeline.arrRef spec2 2))) := by
  show (cfg2.win 3).cut (grid2.coords t) ((dat2 V c).after 3 t) = _
  rw [after2_3]
  unfold out2_3
  rw [View.canon_unit_zero hz]
  simp only [View.ld_unit_zero (S := S10000x64) hz, View.ld_unit_zero (S := S1x64) hz, View.ld_unit_zero (S := S64x64) hz]
  obtain ⟨-, -, -, -, -, -, e6, e7⟩ := idx_facts t
  refine funext fun (j : S10000x64.Idx) => ?_
  obtain ⟨p, q, rfl⟩ : ∃ (p : Fin 10000) (q : Fin 64), j = ix2 p q := ⟨j 0, j 1, eq_ix2 j⟩
  show k2_pay1 (iblk2 V c 0 t) (iblk2 V c 1 t) (iblk2 V c 2 t) (ix2 p q)
    = Cert.Spec.mm (Cert.Spec.act (V c (Pipeline.arrRef spec2 0)) (V c (Pipeline.arrRef spec2 1))) (V c (Pipeline.arrRef spec2 2))
        (((cfg2.win 3).blk t).view.emb (ix2 p q))
  refine (payload_apply (iblk2 V c 0 t) (iblk2 V c 1 t) (iblk2 V c 2 t) p q).trans ?_
  have hE0 : ((((cfg2.win 3).blk t).view.emb (ix2 p q)) 0).val = t.val * 10000 + p.val := by
    show win2_3.index t 0 * 10000 + 1 * p.val = _; rw [e6]; omega
  have hE1 : ((((cfg2.win 3).blk t).view.emb (ix2 p q)) 1) = q := by
    apply Fin.ext; show win2_3.index t 1 * 64 + 1 * q.val = _; rw [e7]; omega
  unfold Cert.Spec.mm Cert.Spec.act
  rw [hE1]
  refine Finset.sum_congr rfl fun k _ => ?_
  exact congrArg₂ (· * ·)
    (congrArg Cert.Spec.leaky (congrArg₂ (· + ·) (agg_block V c t p k _ hE0 rfl) (bias_block V c t k)))
    (weight_block V c t k q)

/-- An index of the output array lies in point `t`'s block iff each coordinate lies in the block's range. -/
theorem mem_blk (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v64).slice (win2_3.rect t)).set ↔ _
  rw [View.set_slice_whole, Rect.mem_set_unit]
  exact Iff.rfl

/-- Every row of the output belongs to a block: row `r` to the block of point `r / 10000`. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨-, -, -, -, -, -, e6, e7⟩ := idx_facts t
  refine ⟨t, flush2_3 t, ?_⟩
  rw [mem_blk]
  intro a
  match a with
  | ⟨0, _⟩ => show win2_3.index t 0 * 10000 ≤ (i 0).val ∧ (i 0).val < win2_3.index t 0 * 10000 + 10000; rw [e6]; omega
  | ⟨1, _⟩ => show win2_3.index t 1 * 64 ≤ (i 1).val ∧ (i 1).val < win2_3.index t 1 * 64 + 64; rw [e7]; omega

/-- The output array after the region: the product of the rectified, biased aggregate with the weight, as one function
    of the three input arrays as the region finds them. -/
theorem final (c : Dev nD) : (Gen.dat2 (F := Ideal) V c).arrAt 3 cfg2.N
    = Cert.Spec.mm (Cert.Spec.act (V c (Pipeline.arrRef spec2 0)) (V c (Pipeline.arrRef spec2 1))) (V c (Pipeline.arrRef spec2 2)) :=
  (dat2 V c).arrAt_eq_of_cover 3 _ (fun t _ => flushed_eq V c t) cover

end Cert.KernelIdeal.Region2

end
-- ==== Proof.Region3.lean ====
/-
  Region 3 of the kernel program (the bias-and-rectifier kernel after the last aggregation), read as one function of
  the arrays it finds.

  The region walks ten blocks of 10000 rows down a 100000 × 64 array of aggregated features.  At each block it loads
  the block and the one-row bias, adds the bias row to every row, and keeps an entry where it is positive and
  multiplies it by the slope elsewhere: the leaky rectifier.  Every step acts entry by entry, so the block written at
  a point is the same block of one whole-array function — `Cert.Spec.act` of the aggregate and the bias — and since the
  ten blocks tile the rows, the array after the region is that function.
-/
import proofs.«103955_j78099685311022_1_alg».proof.Proof.Spec
import proofs.«103955_j78099685311022_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Region3

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-- The two offsets of a whole-block access, spelt as the constant function the library's lemmas ask for. -/
theorem zero_offsets : (![0, 0] : Fin 2 → Nat) = fun _ => 0 := funext fun a => by fin_cases a <;> rfl

/-- The bias block is one row; cast to its own shape and broadcast down the 10000 rows of a block, its entry at
    (p, q) is the row's entry q. -/
theorem bias_row (b : FVec Ideal S1x64 .f32) (p : Fin 10000) (q : Fin 64) :
    broadcastTo S10000x64 (shapeCast S1x64 b shapeCasts_S1x64_S1x64) broadcasts_S1x64_S10000x64 (ix2 p q) = b (ix2 0 q) := by
  rw [shapeCast_self]
  refine broadcastTo_apply b broadcasts_S1x64_S10000x64 (ix2 p q) (ix2 0 q) ?_
  intro a
  match a with
  | ⟨0, _⟩ => rfl
  | ⟨1, _⟩ => rfl

/-- Selecting on the bit of "a is greater than 0" between a and slope · a is the leaky rectifier. -/
theorem select_gt (a : EReal) :
    Scalar.select (Ideal.cmp .ogt a 0) a (Cert.Spec.slope * a) = Cert.Spec.leaky a := by
  unfold Cert.Spec.leaky
  by_cases h : 0 < a
  · rw [if_pos h]
    show Scalar.select (BitVec.ofBool (decide (0 < a))) a _ = a
    rw [decide_eq_true h]
    exact select_one _ _
  · rw [if_neg h]
    show Scalar.select (BitVec.ofBool (decide (0 < a))) a _ = _
    rw [decide_eq_false h]
    exact select_zero _ _

/-- The body's arithmetic at entry (p, q) of a block: the aggregate's entry plus the bias row's entry q, through the
    rectifier. -/
theorem pay_apply (x0 : FVec Ideal S10000x64 .f32) (x1 : FVec Ideal S1x64 .f32) (p : Fin 10000) (q : Fin 64) :
    k3_pay1 (F := Ideal) x0 x1 (ix2 p q) = Cert.Spec.leaky (x0 (ix2 p q) + x1 (ix2 0 q)) := by
  have ha : addf (shapeCast S10000x64 x0 shapeCasts_S10000x64_S10000x64)
      (broadcastTo S10000x64 (shapeCast S1x64 x1 shapeCasts_S1x64_S1x64) broadcasts_S1x64_S10000x64) (ix2 p q)
      = x0 (ix2 p q) + x1 (ix2 0 q) := by
    rw [addf_apply, bias_row, shapeCast_self]
  have hs : ∀ a : EReal, a = x0 (ix2 p q) + x1 (ix2 0 q) →
      Scalar.select (Ideal.cmp .ogt a (Ideal.ofBits .f32 0x00000000#32)) a (Cert.Spec.slope * a)
        = Cert.Spec.leaky (x0 (ix2 p q) + x1 (ix2 0 q)) := by
    intro a h
    rw [h, Ideal.ofBits_zero_f32]
    exact select_gt _
  unfold k3_pay1
  exact hs _ ha

/-- One entry of a block against one entry of the whole arrays: when the aggregate block is the aggregate array read
    through a placement `e` of the block in the array, the bias block is the bias array, and the placement keeps the
    column, the body's result at `j` is the specification at `e j`. -/
theorem point_eq (A : Cert.Spec.A2 100000 64) (B : Cert.Spec.A2 1 64) (x0 : Vec Ideal S10000x64 .f32) (x1 : Vec Ideal S1x64 .f32)
    (e : S10000x64.Idx → S100000x64.Idx)
    (h0 : ∀ y, x0 y = A (e y)) (h1 : ∀ q : Fin 64, x1 (ix2 0 q) = B (ix2 0 q))
    (h2 : ∀ (p : Fin 10000) (q : Fin 64), ((e (ix2 p q)) 1).val = q.val) (j : S10000x64.Idx) :
    k3_pay1 x0 x1 j = Cert.Spec.act A B (e j) := by
  obtain ⟨p, q, rfl⟩ : ∃ (p : Fin 10000) (q : Fin 64), j = ix2 p q := ⟨j 0, j 1, eq_ix2 j⟩
  rw [pay_apply, h0, h1]
  unfold Cert.Spec.act
  have hq : (e (ix2 p q)) 1 = q := Fin.ext (h2 p q)
  show _ = Cert.Spec.leaky (A (e (ix2 p q)) + B (ix2 0 ((e (ix2 p q)) 1)))
  rw [hq]

/-- The printed index maps over the ten grid points: the aggregate and the output move together down the rows, block t
    at point t; the bias stays at its one block. -/
theorem idx_facts : ∀ t : Fin cfg3.N, win3_0.index t (0 : Fin 2) = win3_2.index t (0 : Fin 2)
    ∧ win3_0.index t (1 : Fin 2) = win3_2.index t (1 : Fin 2)
    ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every row block is some point's. -/
theorem idx_onto : ∀ r : Fin 10, ∃ t : Fin cfg3.N, win3_2.index t = ![r.val, 0] :=
  (by decide +kernel : ∀ r : Fin 10, ∃ t : Fin grid3.N, win3_2.index t = ![r.val, 0])

/-- What point t writes back is block t of the specification of the arrays as the region finds them. -/
theorem flushed_eq (c : Dev nD) (t : Fin cfg3.N) :
    (dat3 V c).flushed 2 t = ((cfg3.win 2).blk t).view.read (Elt Ideal)
      (Cert.Spec.act (V c (Pipeline.arrRef spec3 0)) (V c (Pipeline.arrRef spec3 1))) := by
  show (cfg3.win 2).cut (grid3.coords t) ((dat3 V c).after 2 t) = _
  rw [after3_2]
  unfold out3_2
  rw [View.canon_unit_zero zero_offsets]
  simp only [View.ld_unit_zero (S := S10000x64) zero_offsets, View.ld_unit_zero (S := S1x64) zero_offsets]
  obtain ⟨e0, e1, e2, e3, e4, e5⟩ := idx_facts t
  funext j
  have hblk0 : ∀ y : S10000x64.Idx, ((cfg3.win 0).blk t).view.emb y = ((cfg3.win 2).blk t).view.emb y := by
    intro y; funext a; apply Fin.ext
    match a with
    | ⟨0, _⟩ => show win3_0.index t (0 : Fin 2) * 10000 + 1 * (y 0).val = win3_2.index t (0 : Fin 2) * 10000 + 1 * (y 0).val; omega
    | ⟨1, _⟩ => show win3_0.index t (1 : Fin 2) * 64 + 1 * (y 1).val = win3_2.index t (1 : Fin 2) * 64 + 1 * (y 1).val; omega
  have hblk1 : ∀ q : Fin 64, ((cfg3.win 1).blk t).view.emb (ix2 0 q) = ix2 0 q := by
    intro q; funext a; apply Fin.ext
    match a with
    | ⟨0, _⟩ => show win3_1.index t (0 : Fin 2) * 1 + 1 * 0 = 0; omega
    | ⟨1, _⟩ => show win3_1.index t (1 : Fin 2) * 64 + 1 * q.val = q.val; omega
  refine point_eq (V c (Pipeline.arrRef spec3 0)) (V c (Pipeline.arrRef spec3 1)) (iblk3 V c 0 t) (iblk3 V c 1 t)
    (((cfg3.win 2).blk t).view.emb) (fun y => ?_) (fun q => ?_) (fun p q => ?_) j
  · show V c (Pipeline.arrRef spec3 0) (((cfg3.win 0).blk t).view.emb y) = _
    rw [hblk0 y]
  · show V c (Pipeline.arrRef spec3 1) (((cfg3.win 1).blk t).view.emb (ix2 0 q)) = _
    rw [hblk1 q]
  · show win3_2.index t (1 : Fin 2) * 64 + 1 * q.val = q.val
    omega

/-- An index of the array is in point t's block iff each coordinate is in the block's range on its axis. -/
theorem mem_blk (t : Fin cfg3.N) (i : S100000x64.Idx) :
    i ∈ ((cfg3.win 2).blk t).view.set ↔ ∀ a : Fin 2, win3_2.index t a * S10000x64.size a ≤ (i a).val
      ∧ (i a).val < win3_2.index t a * S10000x64.size a + S10000x64.size a := by
  show i ∈ ((View.whole main_v79).slice (win3_2.rect t)).set ↔ _
  rw [View.set_slice_whole, Rect.mem_set_unit]
  exact Iff.rfl

/-- Row r of the array is in the block of the point whose block index is r / 10000: the ten blocks tile the rows. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The output array after the region: the bias added to every row of the aggregate and the rectifier applied, as one
    function of the two arrays the region finds. -/
theorem final (c : Dev nD) : (dat3 (F := Ideal) V c).arrAt 2 cfg3.N
    = Cert.Spec.act (V c (Pipeline.arrRef spec3 0)) (V c (Pipeline.arrRef spec3 1)) :=
  (dat3 V c).arrAt_eq_of_cover 2 (Cert.Spec.act (V c (Pipeline.arrRef spec3 0)) (V c (Pipeline.arrRef spec3 1)))
    (fun t _ => flushed_eq V c t) cover

end Cert.KernelIdeal.Region3

end
-- ==== Proof.Region4Pay.lean ====
/-
  One row-block of the two-layer read-out, entry by entry.

  The last dense stage of the network takes a block of 2048 node rows with 128 features each and applies two dense
  layers in a row: multiply by a 128×6 weight matrix, add a bias row, rectify with the leaky rectifier; then multiply by
  a 6×3 weight matrix, add a second bias row and rectify again.  On the extended reals every step is exact: narrowing
  the operands before a product changes nothing, a product accumulated into zeros is the plain sum of products over the
  contracted axis, a bias of one row laid under every row adds that row's entry of the same column, and choosing
  between `a` and `slope · a` by the comparison `a > 0` is the rectifier of the specification.

  So a single dense layer, as the vector unit spells it, is `act (mm x w) b` of the specification (`layer_eq`), and the
  whole block computation is two such layers, the second applied to the first one's result (`block_eq`).  The last
  statement, `block_at`, reads the block's result at row `p` and column `q` when the block's rows are rows
  `off + p` of a taller array: a dense layer works row by row, so the entry is the same entry of the two layers applied
  to the whole tall array.
-/
import proofs.«103955_j78099685311022_1_alg».proof.Proof.Spec
import proofs.«103955_j78099685311022_1_alg».proof.Proof.Gen.KernelIdeal.Skeleton
import Idealize.ShloMosaic.Lib.ValueIdx
import Idealize.ShloMosaic.Lib.Pipeline.Value
import Idealize.ShloMosaic.Lib.ValueLayout
import Idealize.ShloMosaic.Lib.KernelVsHost
import Idealize.ShloMosaic.Lib.StackMember
import Idealize.ShloMosaic.PureOps.Ideal.Laws

noncomputable section

namespace Cert.KernelIdeal.Region4

open Idealize.ShloMosaic Idealize.ShloMosaic.ValueIdx Cert.KernelIdeal Cert.KernelIdeal.Gen

/-- Selecting `a` where the comparison `a > 0` holds and `slope · a` elsewhere is the leaky rectifier: the comparison's
    bit is `1` exactly when `0 < a`, and the zero word is the real number zero. -/
theorem rectifier_word (a : EReal) :
    Scalar.select (FloatOps.cmpf (F := Ideal) (φ := .f32) .ogt a (Scalar.ofBits .f32 0x00000000#32)) a
        ((Scalar.ofBits (F := Ideal) .f32 0x3C23D70A#32 : Ideal .f32) * a) = Cert.Spec.leaky a := by
  show Scalar.select (Ideal.cmp .ogt a (Ideal.ofBits .f32 0x00000000#32)) a (Cert.Spec.slope * a) = _
  rw [Ideal.ofBits_zero_f32]
  unfold Cert.Spec.leaky Ideal.cmp Scalar.select
  by_cases h : 0 < a
  · simp [h]
  · simp [h]

/-- One dense layer as the vector unit spells it, for any extents: the operands narrowed, their product accumulated
    into zeros, the bias row laid under every row and added, then the choice between the sum and `slope` times the sum
    by the comparison with zero. -/
def layer {n k m : Nat} (x : FVec Ideal ⟨2, ![n, k]⟩ .f32) (w : FVec Ideal ⟨2, ![k, m]⟩ .f32) (b : FVec Ideal ⟨2, ![1, m]⟩ .f32)
    (hb : (⟨2, ![1, m]⟩ : Shape).Broadcasts ⟨2, ![n, m]⟩) (hlt : FTy.bits .bf16 < FTy.bits .f32) : FVec Ideal ⟨2, ![n, m]⟩ .f32 :=
  select (cmpf .ogt (addf (matmul (DotDims.plain n k m) none (truncf .bf16 x hlt) (truncf .bf16 w hlt) (constant ⟨2, ![n, m]⟩ .f32 0x00000000#32)) (broadcastTo ⟨2, ![n, m]⟩ b hb))
      (broadcast ⟨2, ![n, m]⟩ (Scalar.ofBits .f32 0x00000000#32)))
    (addf (matmul (DotDims.plain n k m) none (truncf .bf16 x hlt) (truncf .bf16 w hlt) (constant ⟨2, ![n, m]⟩ .f32 0x00000000#32)) (broadcastTo ⟨2, ![n, m]⟩ b hb))
    (mulf (broadcast ⟨2, ![n, m]⟩ (Scalar.ofBits .f32 0x3C23D70A#32))
      (addf (matmul (DotDims.plain n k m) none (truncf .bf16 x hlt) (truncf .bf16 w hlt) (constant ⟨2, ![n, m]⟩ .f32 0x00000000#32)) (broadcastTo ⟨2, ![n, m]⟩ b hb)))

/-- A dense layer is the specification's: at row `p` and column `q` the product is the sum over the contracted axis
    of `x(p, j) · w(j, q)`, the bias contributes its entry of column `q`, and the selection is the rectifier. -/
theorem layer_eq {n k m : Nat} (x : FVec Ideal ⟨2, ![n, k]⟩ .f32) (w : FVec Ideal ⟨2, ![k, m]⟩ .f32) (b : FVec Ideal ⟨2, ![1, m]⟩ .f32)
    (hb : (⟨2, ![1, m]⟩ : Shape).Broadcasts ⟨2, ![n, m]⟩) (hlt : FTy.bits .bf16 < FTy.bits .f32) :
    layer x w b hb hlt = Cert.Spec.act (Cert.Spec.mm x w) b := by
  funext i
  obtain ⟨p, q, rfl⟩ : ∃ (p : Fin n) (q : Fin m), i = ix2 p q := ⟨i 0, i 1, eq_ix2 i⟩
  unfold layer
  rw [select_apply, cmpf_apply, mulf_apply, broadcast_apply, broadcast_apply, addf_apply, broadcastTo_1b_ab_apply,
    matmul_zero_eq_dotGeneral, StackMember.dotGeneral_plain_apply]
  simp only [truncf_apply]
  exact rectifier_word _

/-- The block computation is two dense layers: the casts to the same shape are the identity, and the two products'
    dimension numbers are the plain rows-by-columns ones. -/
theorem block_eq (x0 : Vec Ideal S2048x128 .f32) (x1 : Vec Ideal S128x6 .f32) (x2 : Vec Ideal S1x6 .f32) (x3 : Vec Ideal S6x3 .f32)
    (x4 : Vec Ideal S1x3 .f32) :
    k4_pay1 (F := Ideal) x0 x1 x2 x3 x4 = Cert.Spec.act (Cert.Spec.mm (Cert.Spec.act (Cert.Spec.mm x0 x1) x2) x3) x4 := by
  have e : k4_pay1 (F := Ideal) x0 x1 x2 x3 x4
      = layer (layer x0 x1 x2 broadcasts_S1x6_S2048x6 bitsLt_bf16_f32) x3 x4 broadcasts_S1x3_S2048x3 bitsLt_bf16_f32 := by
    unfold k4_pay1
    simp only [shapeCast_self]
    rfl
  rw [e, layer_eq, layer_eq]

/-- Two dense layers work row by row: if the rows of the block `x0` are rows `off + p` of a taller array `a0`, the
    block's result at `(p, q)` is the tall array's result at `(off + p, q)`. -/
theorem block_at (x0 : Vec Ideal S2048x128 .f32) (x1 : Vec Ideal S128x6 .f32) (x2 : Vec Ideal S1x6 .f32) (x3 : Vec Ideal S6x3 .f32)
    (x4 : Vec Ideal S1x3 .f32) (a0 : S16384x128.Idx → EReal) (p : Fin 2048) (q : Fin 3) (r : Fin 16384)
    (hrows : ∀ k : Fin 128, x0 (ix2 p k) = a0 (ix2 r k)) :
    k4_pay1 (F := Ideal) x0 x1 x2 x3 x4 (ix2 p q)
      = Cert.Spec.act (Cert.Spec.mm (Cert.Spec.act (Cert.Spec.mm a0 x1) x2) x3) x4 (ix2 r q) := by
  rw [block_eq]
  show Cert.Spec.leaky ((∑ j : Fin 6, Cert.Spec.leaky ((∑ k : Fin 128, x0 (ix2 p k) * x1 (ix2 k j)) + x2 (ix2 0 j)) * x3 (ix2 j q)) + x4 (ix2 0 q))
    = Cert.Spec.leaky ((∑ j : Fin 6, Cert.Spec.leaky ((∑ k : Fin 128, a0 (ix2 r k) * x1 (ix2 k j)) + x2 (ix2 0 j)) * x3 (ix2 j q)) + x4 (ix2 0 q))
  simp only [hrows]

/-- The same with the two indices given as wholes and their coordinates named beside them (the form a block of a
    pipeline is read in: the block's index on one side, the array's on the other). -/
theorem block_at_idx (x0 : Vec Ideal S2048x128 .f32) (x1 : Vec Ideal S128x6 .f32) (x2 : Vec Ideal S1x6 .f32) (x3 : Vec Ideal S6x3 .f32)
    (x4 : Vec Ideal S1x3 .f32) (a0 : S16384x128.Idx → EReal) (y : S2048x3.Idx) (i : S16384x3.Idx)
    (p : Fin 2048) (q : Fin 3) (r : Fin 16384) (hy : y = ix2 p q) (hi : i = ix2 r q)
    (hrows : ∀ k : Fin 128, x0 (ix2 p k) = a0 (ix2 r k)) :
    k4_pay1 (F := Ideal) x0 x1 x2 x3 x4 y
      = Cert.Spec.act (Cert.Spec.mm (Cert.Spec.act (Cert.Spec.mm a0 x1) x2) x3) x4 i := by
  subst hy hi
  exact block_at x0 x1 x2 x3 x4 a0 p q r hrows

end Cert.KernelIdeal.Region4

end
-- ==== Proof.Region4.lean ====
/-
  The read-out region's output array as one function of its input arrays.

  The region walks a grid of 8 points.  At point `t` it holds rows `2048·t … 2048·t + 2047` of the node-feature array
  (16384 rows of 128 features), the two weight matrices and the two bias rows whole, computes two dense layers on that
  block of rows (the block computation read entry by entry in the module beside this one) and writes the 2048×3 result
  back as rows `2048·t … 2048·t + 2047` of the output array (16384 rows of 3 columns).

  A dense layer works row by row: row `r` of its result depends on row `r` of its operand only.  So what point `t`
  writes back is exactly rows `2048·t …` of the two layers applied to the WHOLE feature array (`written_back`).  Every
  row `r` of the output lies in the block of point `r / 2048` (`covered`), hence after the last point the output array
  is the two layers of the whole feature array (`final`).

  Where an element of a block sits in its array: on each axis, at the block's index times the block's extent plus the
  element's own coordinate.  The block indices are decided once for all 8 points (`block_indices`): the feature and the
  output windows are at row-block `t`, every weight and bias window is at block 0 on both axes.
-/
import proofs.«103955_j78099685311022_1_alg».proof.Proof.Spec
import proofs.«103955_j78099685311022_1_alg».proof.Proof.Region4Pay
import proofs.«103955_j78099685311022_1_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws

-- membership in a rectangle of 16384 rows: the elaborator's structural look goes once per coordinate
set_option maxRecDepth 16384

noncomputable section

namespace Cert.KernelIdeal.Region4

open Idealize.ShloMosaic Idealize.ShloMosaic.TcCoe Idealize.SL.Sem Cert.KernelIdeal Cert.KernelIdeal.Gen
open Idealize.ShloMosaic.ValueIdx
open Idealize.ShloMosaic.Pipeline (Dat)

variable (V : (c : Dev nD) → (b : Ref sig .tc) → Buf (Elt Ideal) ((c : Thread nD τ).loc b))

/-- The body loads and stores through rectangles at offsets `(0, 0)`: that pair is the constant zero function. -/
theorem zero_offsets : (![0, 0] : Fin 2 → Nat) = fun _ => 0 := funext fun a => by fin_cases a <;> rfl

/-- The block index of every window at every point of the grid: the feature window (0) and the output window (5) move
    down one row-block per point and stay at column-block 0; the weights and biases (1–4) stay at block (0, 0). -/
theorem block_indices : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The grid has 8 points. -/
theorem grid_size : cfg4.N = 8 := N_4

/-- The two dense layers of the whole feature array: what the region leaves in its output array. -/
abbrev readout (c : Dev nD) : S16384x3.Idx → EReal :=
  Cert.Spec.act (Cert.Spec.mm (Cert.Spec.act (Cert.Spec.mm (V c (Pipeline.arrRef spec4 0)) (V c (Pipeline.arrRef spec4 1)))
    (V c (Pipeline.arrRef spec4 2))) (V c (Pipeline.arrRef spec4 3))) (V c (Pipeline.arrRef spec4 4))

/-- What point `t` writes back is rows `2048·t …` of `readout`.  The body's one store leaves the block computation of
    the five loaded blocks; each weight or bias block is its whole array (block 0 of a one-block array: index × extent
    + coordinate is the coordinate); row `p` of the feature block is row `2048·t + p` of the feature array, and the
    entry `(p, q)` of the output block is entry `(2048·t + p, q)` of the output array; a dense layer works row by
    row. -/
theorem written_back (c : Dev nD) (t : Fin cfg4.N) :
    (dat4 (F := Ideal) V c).flushed 5 t = ((cfg4.win 5).blk t).view.read (Elt Ideal) (readout V c) := by
  show (cfg4.win 5).cut (grid4.coords t) ((dat4 V c).after 5 t) = _
  rw [after4_5]
  unfold out4_5
  rw [View.canon_unit_zero zero_offsets]
  simp only [View.ld_unit_zero (S := S2048x128) zero_offsets, View.ld_unit_zero (S := S128x6) zero_offsets,
    View.ld_unit_zero (S := S1x6) zero_offsets, View.ld_unit_zero (S := S6x3) zero_offsets,
    View.ld_unit_zero (S := S1x3) zero_offsets]
  obtain ⟨e00, e01, e10, e11, e20, e21, e30, e31, e40, e41, e50, e51⟩ := block_indices t
  have ht : t.val < 8 := lt_of_lt_of_eq t.isLt grid_size
  -- the first weight matrix, whole
  have w1 : (iblk4 V c 1 t : Vec Ideal S128x6 .f32) = V c (Pipeline.arrRef spec4 1) := by
    funext y
    show V c (Pipeline.arrRef spec4 1) (((cfg4.win 1).blk t).view.emb y) = V c (Pipeline.arrRef spec4 1) y
    refine congrArg _ (funext fun a => Fin.ext ?_)
    match a with
    | ⟨0, _⟩ => show win4_1.index t (0 : Fin 2) * 128 + 1 * (y 0).val = (y 0).val; omega
    | ⟨1, _⟩ => show win4_1.index t (1 : Fin 2) * 6 + 1 * (y 1).val = (y 1).val; omega
  -- the first bias row, whole
  have w2 : (iblk4 V c 2 t : Vec Ideal S1x6 .f32) = V c (Pipeline.arrRef spec4 2) := by
    funext y
    show V c (Pipeline.arrRef spec4 2) (((cfg4.win 2).blk t).view.emb y) = V c (Pipeline.arrRef spec4 2) y
    refine congrArg _ (funext fun a => Fin.ext ?_)
    match a with
    | ⟨0, _⟩ => show win4_2.index t (0 : Fin 2) * 1 + 1 * (y 0).val = (y 0).val; omega
    | ⟨1, _⟩ => show win4_2.index t (1 : Fin 2) * 6 + 1 * (y 1).val = (y 1).val; omega
  -- the second weight matrix, whole
  have w3 : (iblk4 V c 3 t : Vec Ideal S6x3 .f32) = V c (Pipeline.arrRef spec4 3) := by
    funext y
    show V c (Pipeline.arrRef spec4 3) (((cfg4.win 3).blk t).view.emb y) = V c (Pipeline.arrRef spec4 3) y
    refine congrArg _ (funext fun a => Fin.ext ?_)
    match a with
    | ⟨0, _⟩ => show win4_3.index t (0 : Fin 2) * 6 + 1 * (y 0).val = (y 0).val; omega
    | ⟨1, _⟩ => show win4_3.index t (1 : Fin 2) * 3 + 1 * (y 1).val = (y 1).val; omega
  -- the second bias row, whole
  have w4 : (iblk4 V c 4 t : Vec Ideal S1x3 .f32) = V c (Pipeline.arrRef spec4 4) := by
    funext y
    show V c (Pipeline.arrRef spec4 4) (((cfg4.win 4).blk t).view.emb y) = V c (Pipeline.arrRef spec4 4) y
    refine congrArg _ (funext fun a => Fin.ext ?_)
    match a with
    | ⟨0, _⟩ => show win4_4.index t (0 : Fin 2) * 1 + 1 * (y 0).val = (y 0).val; omega
    | ⟨1, _⟩ => show win4_4.index t (1 : Fin 2) * 3 + 1 * (y 1).val = (y 1).val; omega
  funext j
  have hj0 : (j 0).val < 2048 := (j 0).isLt
  have hj1 : (j 1).val < 3 := (j 1).isLt
  -- entry (p, q) of the block against entry (2048·t + p, q) of the array, the feature rows matched likewise
  refine (block_at_idx (iblk4 V c 0 t) (iblk4 V c 1 t) (iblk4 V c 2 t) (iblk4 V c 3 t) (iblk4 V c 4 t)
      (V c (Pipeline.arrRef spec4 0)) ((cfg4.win 5).xinj (grid4.coords t) j) (((cfg4.win 5).blk t).view.emb j)
      ⟨(j 0).val, hj0⟩ ⟨(j 1).val, hj1⟩ ⟨t.val * 2048 + (j 0).val, by omega⟩ ?_ ?_ ?_).trans ?_
  · funext a
    match a with
    | ⟨0, _⟩ => rfl
    | ⟨1, _⟩ => rfl
  · funext a
    apply Fin.ext
    match a with
    | ⟨0, _⟩ => show win4_5.index t (0 : Fin 2) * 2048 + 1 * (j 0).val = t.val * 2048 + (j 0).val; omega
    | ⟨1, _⟩ => show win4_5.index t (1 : Fin 2) * 3 + 1 * (j 1).val = (j 1).val; omega
  · intro k
    show V c (Pipeline.arrRef spec4 0) (((cfg4.win 0).blk t).view.emb (ix2 ⟨(j 0).val, hj0⟩ k)) = _
    refine congrArg _ (funext fun a => Fin.ext ?_)
    match a with
    | ⟨0, _⟩ => show win4_0.index t (0 : Fin 2) * 2048 + 1 * (j 0).val = t.val * 2048 + (j 0).val; omega
    | ⟨1, _⟩ => show win4_0.index t (1 : Fin 2) * 128 + 1 * k.val = k.val; omega
  · rw [w1, w2, w3, w4]
    rfl

/-- An index of the output array is in point `t`'s block iff each coordinate is in the block's range on its axis. -/
theorem mem_block (t : Fin cfg4.N) (i : S16384x3.Idx) :
    i ∈ ((cfg4.win 5).blk t).view.set ↔ ∀ a : Fin 2, win4_5.index t a * S2048x3.size a ≤ (i a).val ∧ (i a).val < win4_5.index t a * S2048x3.size a + S2048x3.size a := by
  show i ∈ ((View.whole main_v97).slice (win4_5.rect t)).set ↔ _
  rw [View.set_slice_whole, Rect.mem_set_unit]
  exact Iff.rfl

/-- Every index of the output array is in some point's block: row `r` is in the block of point `r / 2048`, and every
    point writes its block back. -/
theorem covered (i : S16384x3.Idx) : ∃ t : Fin cfg4.N, (cfg4.win 5).flush t = true ∧ i ∈ ((cfg4.win 5).blk t).view.set := by
  have hi0 : (i 0).val < 16384 := (i 0).isLt
  have hi1 : (i 1).val < 3 := (i 1).isLt
  obtain ⟨t, ht⟩ : ∃ t : Fin cfg4.N, t.val = (i 0).val / 2048 := ⟨⟨(i 0).val / 2048, by rw [grid_size]; omega⟩, rfl⟩
  obtain ⟨-, -, -, -, -, -, -, -, -, -, e50, e51⟩ := block_indices t
  refine ⟨t, flush4_5 t, ?_⟩
  rw [mem_block]
  intro a
  match a with
  | ⟨0, _⟩ =>
    show win4_5.index t (0 : Fin 2) * 2048 ≤ (i 0).val ∧ (i 0).val < win4_5.index t (0 : Fin 2) * 2048 + 2048
    omega
  | ⟨1, _⟩ =>
    show win4_5.index t (1 : Fin 2) * 3 ≤ (i 1).val ∧ (i 1).val < win4_5.index t (1 : Fin 2) * 3 + 3
    omega

/-- After the last point the output array is the two dense layers of the whole feature array: every block written
    back is a block of that one function, and the blocks cover the array. -/
theorem final (c : Dev nD) : (Gen.dat4 (F := Ideal) V c).arrAt 5 cfg4.N = Cert.Spec.act (Cert.Spec.mm (Cert.Spec.act (Cert.Spec.mm (V c (Pipeline.arrRef spec4 0)) (V c (Pipeline.arrRef spec4 1))) (V c (Pipeline.arrRef spec4 2))) (V c (Pipeline.arrRef spec4 3))) (V c (Pipeline.arrRef spec4 4)) :=
  (dat4 V c).arrAt_eq_of_cover 5 (readout V c) (fun t _ => written_back V c t) covered

end Cert.KernelIdeal.Region4

end
-- ==== Proof.Network.lean ====
/-
  The network both programs compute, as one function of the fifteen argument arrays.

  Three graph-convolution layers — a matrix product, the graph's aggregation, a bias row and the leaky
  rectifier — turn the node embeddings into the final node features.  The head pairs, per match, the feature
  rows of the two nodes, applies two small dense layers (a matrix product, a bias row, the rectifier) and
  normalizes each of the three output columns by a log-softmax over all matches.

  The rectifier of one layer is written next to the matrix product of the following layer, which is where the
  kernel program computes it; that is only a choice of bracketing.
-/
import proofs.«103955_j78099685311022_1_alg».proof.Proof.Chain
import proofs.«103955_j78099685311022_1_alg».proof.Proof.Spec

noncomputable section

namespace Cert.Network

open Idealize.ShloMosaic Cert.KernelIdeal Cert.KernelIdeal.Gen Cert.Chain Cert.Spec

/-- The node features after the three graph-convolution layers. -/
def features (ei : I32 S2x1600000) (ew : F32 S1600000) (emb : F32 S100000x64)
    (w0 : F32 S64x64) (b0 : F32 S64) (w1 : F32 S64x64) (b1 : F32 S64) (w2 : F32 S64x64) (b2 : F32 S64) : F32 S100000x64 :=
  act (n := 100000) (m := 64)
    (agg ei ew (mm (n := 100000) (k := 64) (m := 64)
      (act (n := 100000) (m := 64)
        (agg ei ew (mm (n := 100000) (k := 64) (m := 64)
          (act (n := 100000) (m := 64) (agg ei ew (mm (n := 100000) (k := 64) (m := 64) emb w0)) (row64 b0)) w1))
        (row64 b1)) w2))
    (row64 b2)

/-- The head on node features `x`: the paired rows through two dense layers, then the log-softmax. -/
def head (x : F32 S100000x64) (home away : I32 S16384)
    (l1w : F32 S128x6) (l1b : F32 S6) (l3w : F32 S6x3) (l3b : F32 S3) : F32 S16384x3 :=
  logSoftmax (act (n := 16384) (m := 3)
    (mm (n := 16384) (k := 6) (m := 3)
      (act (n := 16384) (m := 6) (mm (n := 16384) (k := 128) (m := 6) (pairs x home away) l1w) (row6 l1b)) l3w)
    (row3 l3b))

/-- The whole network. -/
def out (ei : I32 S2x1600000) (ew : F32 S1600000) (home away : I32 S16384) (emb : F32 S100000x64)
    (w0 : F32 S64x64) (b0 : F32 S64) (w1 : F32 S64x64) (b1 : F32 S64) (w2 : F32 S64x64) (b2 : F32 S64)
    (l1w : F32 S128x6) (l1b : F32 S6) (l3w : F32 S6x3) (l3b : F32 S3) : F32 S16384x3 :=
  head (features ei ew emb w0 b0 w1 b1 w2 b2) home away l1w l1b l3w l3b

end Cert.Network

end
-- ==== Proof.KernelFold.lean ====
/-
  The kernel program's result, read through its thirteen segments.

  The frame proof names the contents of every buffer at each boundary between segments as a fold from the
  launch memory.  Walking the fold backwards from the result: the last stretch is a log-softmax of the last
  region's output array; a region's output array is the specification's function of its input arrays; an input
  array is either what a stretch computed from an earlier region's output — the graph's aggregation, a bias as
  a row, the paired rows of the head — or an argument array nobody has written.  The arcs and their
  coefficients are computed once, before the first region, and every later stretch finds them untouched.
  Put together, the result buffer ends at the network of the fifteen argument arrays.
-/
import proofs.«103955_j78099685311022_1_alg».proof.Proof.Gen.KernelIdeal.Frame
import proofs.«103955_j78099685311022_1_alg».proof.Proof.KernelHostA
import proofs.«103955_j78099685311022_1_alg».proof.Proof.KernelHostB
import proofs.«103955_j78099685311022_1_alg».proof.Proof.KernelKeep
import proofs.«103955_j78099685311022_1_alg».proof.Proof.Region0
import proofs.«103955_j78099685311022_1_alg».proof.Proof.Region1
import proofs.«103955_j78099685311022_1_alg».proof.Proof.Region2
import proofs.«103955_j78099685311022_1_alg».proof.Proof.Region3
import proofs.«103955_j78099685311022_1_alg».proof.Proof.Region4
import proofs.«103955_j78099685311022_1_alg».proof.Proof.Network

set_option maxRecDepth 16384

noncomputable section

namespace Cert.KernelIdeal.Fold

open Idealize.ShloMosaic Idealize.ShloMosaic.TcCoe Idealize.ShloMosaic.StableHlo Idealize.SL.Sem
open Cert.KernelIdeal Cert.KernelIdeal.Gen Cert.KernelIdeal.HostKeep Cert.KernelIdeal.HostRead Cert.Chain Cert.Spec

variable (m : (ℓ : Loc nD τ sig) → Buf (Elt Ideal) ℓ) (ρ : Dev nD → PrngReg) (c : Dev nD)

/-! ## Buffers that are left alone

A region writes only its own arrays and a stretch only its operations' results, so a buffer that is neither —
up to a given boundary — still holds there what it held at the first region's entry. -/

/-- Not an array of the first region. -/
abbrev Q4 (r : Ref sig .tc) : Prop := ∀ w, Pipeline.arrRef spec0 w ≠ r
abbrev Q5 (r : Ref sig .tc) : Prop := Q4 r ∧ r ∉ written1
abbrev Q6 (r : Ref sig .tc) : Prop := Q5 r ∧ ∀ w, Pipeline.arrRef spec1 w ≠ r
abbrev Q7 (r : Ref sig .tc) : Prop := Q6 r ∧ r ∉ written2
abbrev Q8 (r : Ref sig .tc) : Prop := Q7 r ∧ ∀ w, Pipeline.arrRef spec2 w ≠ r
abbrev Q9 (r : Ref sig .tc) : Prop := Q8 r ∧ r ∉ written3
abbrev Q10 (r : Ref sig .tc) : Prop := Q9 r ∧ ∀ w, Pipeline.arrRef spec3 w ≠ r
abbrev Q11 (r : Ref sig .tc) : Prop := Q10 r ∧ r ∉ written4
/-- Written by none of the three stretches before the first region. -/
abbrev Q3 (r : Ref sig .tc) : Prop := r ∉ written0 ∧ r ∉ written0a ∧ r ∉ written0b

theorem at3 {r : Ref sig .tc} (h : Q3 r) : W3 m ρ c (Proc.devRef .tc r) = m ((c : Thread nD τ).loc r) :=
  (keeps0b _ h.2.2).trans ((keeps0a _ h.2.1).trans ((keeps0 _ h.1).trans rfl))
theorem at4 {r : Ref sig .tc} (h : Q4 r) : W4 m ρ c (Proc.devRef .tc r) = W3 m ρ c (Proc.devRef .tc r) :=
  W4_of_ne m ρ c r h
theorem at5 {r : Ref sig .tc} (h : Q5 r) : W5 m ρ c (Proc.devRef .tc r) = W3 m ρ c (Proc.devRef .tc r) :=
  (keeps1 _ h.2).trans (at4 m ρ c h.1)
theorem at6 {r : Ref sig .tc} (h : Q6 r) : W6 m ρ c (Proc.devRef .tc r) = W3 m ρ c (Proc.devRef .tc r) :=
  (W6_of_ne m ρ c r h.2).trans (at5 m ρ c h.1)
theorem at7 {r : Ref sig .tc} (h : Q7 r) : W7 m ρ c (Proc.devRef .tc r) = W3 m ρ c (Proc.devRef .tc r) :=
  (keeps2 _ h.2).trans (at6 m ρ c h.1)
theorem at8 {r : Ref sig .tc} (h : Q8 r) : W8 m ρ c (Proc.devRef .tc r) = W3 m ρ c (Proc.devRef .tc r) :=
  (W8_of_ne m ρ c r h.2).trans (at7 m ρ c h.1)
theorem at9 {r : Ref sig .tc} (h : Q9 r) : W9 m ρ c (Proc.devRef .tc r) = W3 m ρ c (Proc.devRef .tc r) :=
  (keeps3 _ h.2).trans (at8 m ρ c h.1)
theorem at10 {r : Ref sig .tc} (h : Q10 r) : W10 m ρ c (Proc.devRef .tc r) = W3 m ρ c (Proc.devRef .tc r) :=
  (W10_of_ne m ρ c r h.2).trans (at9 m ρ c h.1)
theorem at11 {r : Ref sig .tc} (h : Q11 r) : W11 m ρ c (Proc.devRef .tc r) = W3 m ρ c (Proc.devRef .tc r) :=
  (keeps4 _ h.2).trans (at10 m ρ c h.1)

/-! ## The arcs, at the first region's entry -/

/-- The first three stretches, walked from the launch memory. -/
theorem src3 : W3 m ρ c (Proc.devRef .tc main_v5) = arcs (srcRow (m ((c : Thread nD τ).loc main_arg0))) := pre_src (W0 m ρ c)
theorem dst3 : W3 m ρ c (Proc.devRef .tc main_v6) = arcs (dstRow (m ((c : Thread nD τ).loc main_arg0))) := pre_dst (W0 m ρ c)
theorem norm3 : W3 m ρ c (Proc.devRef .tc main_v33) = norm (srcRow (m ((c : Thread nD τ).loc main_arg0))) (dstRow (m ((c : Thread nD τ).loc main_arg0))) (m ((c : Thread nD τ).loc main_arg1)) := pre_norm (W0 m ρ c)

/-! ## The three layers -/

/-- After the first region: the embeddings times the first weight. -/
theorem xw0 : W4 m ρ c (Proc.devRef .tc main_v34) = mm (n := 100000) (k := 64) (m := 64) (m ((c : Thread nD τ).loc main_arg4)) (m ((c : Thread nD τ).loc main_arg5)) := by
  refine ((W4_arr m ρ c 2).trans (Cert.KernelIdeal.Region0.final (V3 m ρ) c)).trans ?_
  rw [show V3 m ρ c (Pipeline.arrRef spec0 0) = (m ((c : Thread nD τ).loc main_arg4)) from at3 m ρ c (by decide),
    show V3 m ρ c (Pipeline.arrRef spec0 1) = (m ((c : Thread nD τ).loc main_arg5)) from at3 m ρ c (by decide)]

/-- The aggregation of a feature array held in buffer-independent form: the stretch's reads of the arcs go back to
    the first region's entry. -/
theorem agg5 : W5 m ρ c (Proc.devRef .tc main_v47) = agg (m ((c : Thread nD τ).loc main_arg0)) (m ((c : Thread nD τ).loc main_arg1)) (mm (n := 100000) (k := 64) (m := 64) (m ((c : Thread nD τ).loc main_arg4)) (m ((c : Thread nD τ).loc main_arg5))) := by
  refine (agg1 (W4 m ρ c)).trans ?_
  rw [at4 m ρ c (r := main_v6) (by decide), at4 m ρ c (r := main_v5) (by decide), at4 m ρ c (r := main_v33) (by decide),
    dst3, src3, norm3, xw0]
  rfl
theorem row5 : W5 m ρ c (Proc.devRef .tc main_v48) = row64 (m ((c : Thread nD τ).loc main_arg6)) := by
  refine (row1 (W4 m ρ c)).trans ?_
  rw [at4 m ρ c (r := main_arg6) (by decide), at3 m ρ c (r := main_arg6) (by decide)]

/-- After the second region. -/
theorem xw1 : W6 m ρ c (Proc.devRef .tc main_v49)
    = mm (n := 100000) (k := 64) (m := 64) (act (n := 100000) (m := 64) (agg (m ((c : Thread nD τ).loc main_arg0)) (m ((c : Thread nD τ).loc main_arg1)) (mm (n := 100000) (k := 64) (m := 64) (m ((c : Thread nD τ).loc main_arg4)) (m ((c : Thread nD τ).loc main_arg5)))) (row64 (m ((c : Thread nD τ).loc main_arg6)))) (m ((c : Thread nD τ).loc main_arg7)) := by
  refine ((W6_arr m ρ c 3).trans (Cert.KernelIdeal.Region1.final (V5 m ρ) c)).trans ?_
  rw [show V5 m ρ c (Pipeline.arrRef spec1 0) = _ from agg5 m ρ c,
    show V5 m ρ c (Pipeline.arrRef spec1 1) = _ from row5 m ρ c,
    show V5 m ρ c (Pipeline.arrRef spec1 2) = (m ((c : Thread nD τ).loc main_arg7)) from (at5 m ρ c (by decide)).trans (at3 m ρ c (by decide))]

theorem agg7 : W7 m ρ c (Proc.devRef .tc main_v62) = agg (m ((c : Thread nD τ).loc main_arg0)) (m ((c : Thread nD τ).loc main_arg1)) (W6 m ρ c (Proc.devRef .tc main_v49)) := by
  refine (agg2 (W6 m ρ c)).trans ?_
  rw [at6 m ρ c (r := main_v6) (by decide), at6 m ρ c (r := main_v5) (by decide), at6 m ρ c (r := main_v33) (by decide),
    dst3, src3, norm3]
  rfl
theorem row7 : W7 m ρ c (Proc.devRef .tc main_v63) = row64 (m ((c : Thread nD τ).loc main_arg8)) := by
  refine (row2 (W6 m ρ c)).trans ?_
  rw [at6 m ρ c (r := main_arg8) (by decide), at3 m ρ c (r := main_arg8) (by decide)]

/-- After the third region. -/
theorem xw2 : W8 m ρ c (Proc.devRef .tc main_v64)
    = mm (n := 100000) (k := 64) (m := 64) (act (n := 100000) (m := 64) (agg (m ((c : Thread nD τ).loc main_arg0)) (m ((c : Thread nD τ).loc main_arg1)) (W6 m ρ c (Proc.devRef .tc main_v49))) (row64 (m ((c : Thread nD τ).loc main_arg8)))) (m ((c : Thread nD τ).loc main_arg9)) := by
  refine ((W8_arr m ρ c 3).trans (Cert.KernelIdeal.Region2.final (V7 m ρ) c)).trans ?_
  rw [show V7 m ρ c (Pipeline.arrRef spec2 0) = _ from agg7 m ρ c,
    show V7 m ρ c (Pipeline.arrRef spec2 1) = _ from row7 m ρ c,
    show V7 m ρ c (Pipeline.arrRef spec2 2) = (m ((c : Thread nD τ).loc main_arg9)) from (at7 m ρ c (by decide)).trans (at3 m ρ c (by decide))]

theorem agg9 : W9 m ρ c (Proc.devRef .tc main_v77) = agg (m ((c : Thread nD τ).loc main_arg0)) (m ((c : Thread nD τ).loc main_arg1)) (W8 m ρ c (Proc.devRef .tc main_v64)) := by
  refine (agg3 (W8 m ρ c)).trans ?_
  rw [at8 m ρ c (r := main_v6) (by decide), at8 m ρ c (r := main_v5) (by decide), at8 m ρ c (r := main_v33) (by decide),
    dst3, src3, norm3]
  rfl
theorem row9 : W9 m ρ c (Proc.devRef .tc main_v78) = row64 (m ((c : Thread nD τ).loc main_arg10)) := by
  refine (row3' (W8 m ρ c)).trans ?_
  rw [at8 m ρ c (r := main_arg10) (by decide), at3 m ρ c (r := main_arg10) (by decide)]

/-- After the fourth region: the final node features. -/
theorem feat : W10 m ρ c (Proc.devRef .tc main_v79)
    = Cert.Network.features (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine ((W10_arr m ρ c 2).trans (Cert.KernelIdeal.Region3.final (V9 m ρ) c)).trans ?_
  rw [show V9 m ρ c (Pipeline.arrRef spec3 0) = _ from agg9 m ρ c,
    show V9 m ρ c (Pipeline.arrRef spec3 1) = _ from row9 m ρ c, xw2, xw1]
  rfl

/-! ## The head -/

theorem pairs11 : W11 m ρ c (Proc.devRef .tc main_v94)
    = pairs (W10 m ρ c (Proc.devRef .tc main_v79)) (m ((c : Thread nD τ).loc main_arg2)) (m ((c : Thread nD τ).loc main_arg3)) := by
  refine (pairs4 (W10 m ρ c)).trans ?_
  rw [at10 m ρ c (r := main_arg2) (by decide), at3 m ρ c (r := main_arg2) (by decide),
    at10 m ρ c (r := main_arg3) (by decide), at3 m ρ c (r := main_arg3) (by decide)]
theorem row11a : W11 m ρ c (Proc.devRef .tc main_v95) = row6 (m ((c : Thread nD τ).loc main_arg12)) := by
  refine (row4a (W10 m ρ c)).trans ?_
  rw [at10 m ρ c (r := main_arg12) (by decide), at3 m ρ c (r := main_arg12) (by decide)]
theorem row11b : W11 m ρ c (Proc.devRef .tc main_v96) = row3 (m ((c : Thread nD τ).loc main_arg14)) := by
  refine (row4b (W10 m ρ c)).trans ?_
  rw [at10 m ρ c (r := main_arg14) (by decide), at3 m ρ c (r := main_arg14) (by decide)]

/-- THE RESULT: the last boundary's contents at the result buffer are the network of the argument arrays. -/
theorem result : W13 m ρ c (Proc.devRef .tc main_v98)
    = Cert.Network.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (tail5 (W12 m ρ c)).trans ?_
  rw [show W12 m ρ c (Proc.devRef .tc main_v97) = _ from (W12_arr m ρ c 5).trans (Cert.KernelIdeal.Region4.final (V11 m ρ) c),
    show V11 m ρ c (Pipeline.arrRef spec4 0) = _ from pairs11 m ρ c,
    show V11 m ρ c (Pipeline.arrRef spec4 1) = (m ((c : Thread nD τ).loc main_arg11)) from (at11 m ρ c (by decide)).trans (at3 m ρ c (by decide)),
    show V11 m ρ c (Pipeline.arrRef spec4 2) = _ from row11a m ρ c,
    show V11 m ρ c (Pipeline.arrRef spec4 3) = (m ((c : Thread nD τ).loc main_arg13)) from (at11 m ρ c (by decide)).trans (at3 m ρ c (by decide)),
    show V11 m ρ c (Pipeline.arrRef spec4 4) = _ from row11b m ρ c, feat]
  rfl

end Cert.KernelIdeal.Fold

end
-- ==== Proof.RefOps0.lean ====
/-
  The reference network as a straight line of array operations: the first of four consecutive stretches
  (statements 1 to 60 of the 220 the program prints for its entry function).

  The reference has no kernel and no loop: its entry function is a sequence of whole-array operations — slices,
  broadcasts, comparisons, selects, gathers, scatter-adds, matrix products, elementwise arithmetic — together with
  calls of small helper functions (the three-way select `where`, the leaky rectifier, the log-softmax).  A call
  means its callee's body with the operands substituted and the call's own buffers for the callee's values, so
  each call is written out here in place: the callee's operations, in order, over the buffers of that call.
  The rectifier itself calls the select, so its select line is written out one level deeper, over the inner
  call's buffer.

  `ops0` is that list for this stretch (62 operations).  Three facts about it are all that the rest of the
  proof needs:
  * running the stretch is running the list in order (`part0_eq`): once the helper functions' definitions are
    unfolded, both sides compute to the same chain of steps;
  * every operation reads and writes only buffers of the tensor core (`ops0_sub`), and none of them leaves a
    result undetermined (`ops0_fresh`), which is what the general theorem about straight lines asks;
  * the list of buffers the stretch writes (`written0`): each operation writes exactly one buffer, its result,
    so a buffer outside this list still holds afterwards what it held before (`ops0_keeps`).

  The contraction, gather, scatter-add and reduction are never opened here: they are names.
-/
import proofs.«103955_j78099685311022_1_alg».proof.Proof.Gen.ReferenceIdeal
import Idealize.ShloMosaic.Lib.StableHlo.Run

noncomputable section

namespace Cert.ReferenceIdeal.RefRun

open Idealize.ShloMosaic Idealize.ShloMosaic.StableHlo Idealize.SL.Sem Cert.ReferenceIdeal Cert.ReferenceIdeal.Gen

variable {F : FTy → Type} [FloatOps F]

/-- The operations of statements 1 to 60, in order, every call written out at its place. -/
abbrev ops0 : List (HloOp τ sig (Elt F)) :=
  [ StableHlo.unary main_arg0 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg0 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg4 main_arg5 main_v4 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_v5 (iotaInDim S100000 32 0),
    StableHlo.binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v8 (broadcastInDim S100000 ![] bcast_S_S100000 : (⟨S_, .f32⟩ : BufTy).Contents (Elt F) → (⟨S100000, .f32⟩ : BufTy).Contents (Elt F)),
    StableHlo.binary main_arg1 main_v8 main_v9 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_0 (constant S_ .f32 0x00000000#32),
    StableHlo.unary main_cst_0 main_v10 (broadcastInDim S100000 ![] bcast_S_S100000 : (⟨S_, .f32⟩ : BufTy).Contents (Elt F) → (⟨S100000, .f32⟩ : BufTy).Contents (Elt F)),
    StableHlo.unary main_v7 main_v11 (broadcastInDim S1700000x1 ![0] bcast_S1700000_S1700000x1_0 : (⟨S1700000, .i32⟩ : BufTy).Contents (Elt F) → (⟨S1700000x1, .i32⟩ : BufTy).Contents (Elt F)),
    StableHlo.ternary main_v10 main_v11 main_v9 main_v12 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v13 (broadcastInDim S100000 ![] bcast_S_S100000 : (⟨S_, .f32⟩ : BufTy).Contents (Elt F) → (⟨S100000, .f32⟩ : BufTy).Contents (Elt F)),
    StableHlo.binary main_v12 main_v13 main_v14 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x2B8CBCCC#32),
    StableHlo.unary main_cst_2 main_v15 (broadcastInDim S100000 ![] bcast_S_S100000 : (⟨S_, .f32⟩ : BufTy).Contents (Elt F) → (⟨S100000, .f32⟩ : BufTy).Contents (Elt F)),
    StableHlo.binary main_v12 main_v15 main_v16 (maximumf : (⟨S100000, .f32⟩ : BufTy).Contents (Elt F) → (⟨S100000, .f32⟩ : BufTy).Contents (Elt F) → (⟨S100000, .f32⟩ : BufTy).Contents (Elt F)),
    StableHlo.unary main_v16 main_v17 (Host.rsqrt : (⟨S100000, .f32⟩ : BufTy).Contents (Elt F) → (⟨S100000, .f32⟩ : BufTy).Contents (Elt F)),
    StableHlo.nullary main_cst_3 (constant S_ .f32 0x00000000#32),
    StableHlo.TRef.unary (.of main_cst_3 : StableHlo.TRef sig ⟨S_, .f32⟩) main_call0.v0 id,
    StableHlo.TRef.unary main_call0.v0 main_call0.v1 (broadcastInDim S100000 ![] bcast_S_S100000),
    StableHlo.TRef.ternary (.of main_v14 : StableHlo.TRef sig ⟨S100000, .i1⟩) (.of main_v17 : StableHlo.TRef sig ⟨S100000, .f32⟩) main_call0.v1 main_call0.v2 select,
    StableHlo.nullary main_c (constantI S_ 32 0#32),
    StableHlo.unary main_c main_v19 (broadcastInDim S1700000 ![] bcast_S_S1700000 : (⟨S_, .i32⟩ : BufTy).Contents (Elt F) → (⟨S1700000, .i32⟩ : BufTy).Contents (Elt F)),
    StableHlo.binary main_v6 main_v19 main_v20 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v21 (broadcastInDim S1700000 ![] bcast_S_S1700000 : (⟨S_, .i32⟩ : BufTy).Contents (Elt F) → (⟨S1700000, .i32⟩ : BufTy).Contents (Elt F)),
    StableHlo.binary main_v6 main_v21 main_v22 (addi : (⟨S1700000, .i32⟩ : BufTy).Contents (Elt F) → (⟨S1700000, .i32⟩ : BufTy).Contents (Elt F) → (⟨S1700000, .i32⟩ : BufTy).Contents (Elt F)),
    StableHlo.ternary main_v20 main_v22 main_v6 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v23 main_v24 (broadcastInDim S1700000x1 ![0] bcast_S1700000_S1700000x1_0 : (⟨S1700000, .i32⟩ : BufTy).Contents (Elt F) → (⟨S1700000x1, .i32⟩ : BufTy).Contents (Elt F)),
    StableHlo.binary main_v18 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v25 main_v9 main_v26 (mulf : (⟨S1700000, .f32⟩ : BufTy).Contents (Elt F) → (⟨S1700000, .f32⟩ : BufTy).Contents (Elt F) → (⟨S1700000, .f32⟩ : BufTy).Contents (Elt F)),
    StableHlo.nullary main_c_5 (constantI S_ 32 0#32),
    StableHlo.unary main_c_5 main_v27 (broadcastInDim S1700000 ![] bcast_S_S1700000 : (⟨S_, .i32⟩ : BufTy).Contents (Elt F) → (⟨S1700000, .i32⟩ : BufTy).Contents (Elt F)),
    StableHlo.binary main_v7 main_v27 main_v28 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v29 (broadcastInDim S1700000 ![] bcast_S_S1700000 : (⟨S_, .i32⟩ : BufTy).Contents (Elt F) → (⟨S1700000, .i32⟩ : BufTy).Contents (Elt F)),
    StableHlo.binary main_v7 main_v29 main_v30 (addi : (⟨S1700000, .i32⟩ : BufTy).Contents (Elt F) → (⟨S1700000, .i32⟩ : BufTy).Contents (Elt F) → (⟨S1700000, .i32⟩ : BufTy).Contents (Elt F)),
    StableHlo.ternary main_v28 main_v30 main_v7 main_v31 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v31 main_v32 (broadcastInDim S1700000x1 ![0] bcast_S1700000_S1700000x1_0 : (⟨S1700000, .i32⟩ : BufTy).Contents (Elt F) → (⟨S1700000x1, .i32⟩ : BufTy).Contents (Elt F)),
    StableHlo.binary main_v18 main_v32 main_v33 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v26 main_v33 main_v34 (mulf : (⟨S1700000, .f32⟩ : BufTy).Contents (Elt F) → (⟨S1700000, .f32⟩ : BufTy).Contents (Elt F) → (⟨S1700000, .f32⟩ : BufTy).Contents (Elt F)),
    StableHlo.unary main_v34 main_v35 (broadcastInDim S1700000x1 ![0] bcast_S1700000_S1700000x1_0 : (⟨S1700000, .f32⟩ : BufTy).Contents (Elt F) → (⟨S1700000x1, .f32⟩ : BufTy).Contents (Elt F)),
    StableHlo.nullary main_c_7 (constantI S_ 32 0#32),
    StableHlo.unary main_c_7 main_v36 (broadcastInDim S1700000 ![] bcast_S_S1700000 : (⟨S_, .i32⟩ : BufTy).Contents (Elt F) → (⟨S1700000, .i32⟩ : BufTy).Contents (Elt F)),
    StableHlo.binary main_v6 main_v36 main_v37 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v38 (broadcastInDim S1700000 ![] bcast_S_S1700000 : (⟨S_, .i32⟩ : BufTy).Contents (Elt F) → (⟨S1700000, .i32⟩ : BufTy).Contents (Elt F)),
    StableHlo.binary main_v6 main_v38 main_v39 (addi : (⟨S1700000, .i32⟩ : BufTy).Contents (Elt F) → (⟨S1700000, .i32⟩ : BufTy).Contents (Elt F) → (⟨S1700000, .i32⟩ : BufTy).Contents (Elt F)),
    StableHlo.ternary main_v37 main_v39 main_v6 main_v40 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v40 main_v41 (broadcastInDim S1700000x1 ![0] bcast_S1700000_S1700000x1_0 : (⟨S1700000, .i32⟩ : BufTy).Contents (Elt F) → (⟨S1700000x1, .i32⟩ : BufTy).Contents (Elt F)),
    StableHlo.binary main_v4 main_v41 main_v42 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v35 main_v43 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v43 main_v42 main_v44 (mulf : (⟨S1700000x64, .f32⟩ : BufTy).Contents (Elt F) → (⟨S1700000x64, .f32⟩ : BufTy).Contents (Elt F) → (⟨S1700000x64, .f32⟩ : BufTy).Contents (Elt F)),
    StableHlo.nullary main_cst_9 (constant S_ .f32 0x00000000#32),
    StableHlo.unary main_cst_9 main_v45 (broadcastInDim S100000x64 ![] bcast_S_S100000x64 : (⟨S_, .f32⟩ : BufTy).Contents (Elt F) → (⟨S100000x64, .f32⟩ : BufTy).Contents (Elt F)),
    StableHlo.unary main_v7 main_v46 (broadcastInDim S1700000x1 ![0] bcast_S1700000_S1700000x1_0 : (⟨S1700000, .i32⟩ : BufTy).Contents (Elt F) → (⟨S1700000x1, .i32⟩ : BufTy).Contents (Elt F)),
    StableHlo.ternary main_v45 main_v46 main_v44 main_v47 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

-- the two chains are compared link by link: the comparison recurses as deep as the list is long
set_option maxRecDepth 4096 in
/-- Running statements 1 to 60 is running `ops0` in order.  With the helper functions' definitions unfolded at
    their calls, both sides compute to the same chain of steps, link for link, so the equation holds by computation. -/
theorem part0_eq (c : Dev nD) : main_part0 (F := F) c = seq ops0 := rfl

/-- Every operation touches tensor-core buffers only: one instance of the builder's lemma per operation, in order. -/
theorem ops0_sub : (ops0 : List (HloOp τ sig (Elt F))).Forall fun op => op.bufs ⊆ tcRefs τ sig :=
  ⟨unary_bufs_sub .., reshape_bufs_sub .., unary_bufs_sub .., reshape_bufs_sub .., binary_bufs_sub .., nullary_bufs_sub ..,
    binary_bufs_sub .., binary_bufs_sub .., nullary_bufs_sub .., unary_bufs_sub .., binary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., binary_bufs_sub .., nullary_bufs_sub .., unary_bufs_sub ..,
    unary_bufs_sub .., ternary_bufs_sub ..⟩

/-- No operation leaves a result to be chosen: each is a function of the buffers it reads. -/
theorem ops0_fresh : ∀ op ∈ (ops0 : List (HloOp τ sig (Elt F))), op.fresh = ∅ :=
  List.forall_iff_forall_mem.1 (show (ops0 : List (HloOp τ sig (Elt F))).Forall fun op => op.fresh = ∅ from
    ⟨rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl, rfl, rfl, rfl, rfl, rfl, rfl, rfl,
      rfl, rfl⟩)

/-- An operation whose one written buffer is in a list writes inside that list. -/
private theorem wr {W : List (Ref sig .tc)} {op : HloOp τ sig (Elt F)} (y : Ref sig .tc) (hy : y ∈ W)
    (hw : op.writes = {Proc.devRef .tc y} := by rfl) :
    op.writes ⊆ (W.map (Proc.devRef (τ := τ) .tc)).toFinset := by
  rw [hw]; exact Finset.singleton_subset_iff.2 (List.mem_toFinset.2 (List.mem_map.2 ⟨y, hy, rfl⟩))

/-- The buffers this stretch writes: the result buffer of each operation, in order. -/
abbrev written0 : List (Ref sig .tc) :=
  [ main_v0, main_v1, main_v2, main_v3, main_v4, main_v5, main_v6, main_v7,
    main_cst, main_v8, main_v9, main_cst_0, main_v10, main_v11, main_v12, main_cst_1,
    main_v13, main_v14, main_cst_2, main_v15, main_v16, main_v17, main_cst_3, main_call0_v0,
    main_call0_v1, main_v18, main_c, main_v19, main_v20, main_c_4, main_v21, main_v22,
    main_v23, main_v24, main_v25, main_v26, main_c_5, main_v27, main_v28, main_c_6,
    main_v29, main_v30, main_v31, main_v32, main_v33, main_v34, main_v35, main_c_7,
    main_v36, main_v37, main_c_8, main_v38, main_v39, main_v40, main_v41, main_v42,
    main_v43, main_v44, main_cst_9, main_v45, main_v46, main_v47 ]

/-- Each operation writes its one result buffer, which is in the list. -/
theorem ops0_writes : (ops0 : List (HloOp τ sig (Elt F))).Forall fun op =>
    op.writes ⊆ (written0.map (Proc.devRef (τ := τ) .tc)).toFinset :=
  ⟨wr main_v0 (by decide), wr main_v1 (by decide), wr main_v2 (by decide), wr main_v3 (by decide),
    wr main_v4 (by decide), wr main_v5 (by decide), wr main_v6 (by decide), wr main_v7 (by decide),
    wr main_cst (by decide), wr main_v8 (by decide), wr main_v9 (by decide), wr main_cst_0 (by decide),
    wr main_v10 (by decide), wr main_v11 (by decide), wr main_v12 (by decide), wr main_cst_1 (by decide),
    wr main_v13 (by decide), wr main_v14 (by decide), wr main_cst_2 (by decide), wr main_v15 (by decide),
    wr main_v16 (by decide), wr main_v17 (by decide), wr main_cst_3 (by decide), wr main_call0_v0 (by decide),
    wr main_call0_v1 (by decide), wr main_v18 (by decide), wr main_c (by decide), wr main_v19 (by decide),
    wr main_v20 (by decide), wr main_c_4 (by decide), wr main_v21 (by decide), wr main_v22 (by decide),
    wr main_v23 (by decide), wr main_v24 (by decide), wr main_v25 (by decide), wr main_v26 (by decide),
    wr main_c_5 (by decide), wr main_v27 (by decide), wr main_v28 (by decide), wr main_c_6 (by decide),
    wr main_v29 (by decide), wr main_v30 (by decide), wr main_v31 (by decide), wr main_v32 (by decide),
    wr main_v33 (by decide), wr main_v34 (by decide), wr main_v35 (by decide), wr main_c_7 (by decide),
    wr main_v36 (by decide), wr main_v37 (by decide), wr main_c_8 (by decide), wr main_v38 (by decide),
    wr main_v39 (by decide), wr main_v40 (by decide), wr main_v41 (by decide), wr main_v42 (by decide),
    wr main_v43 (by decide), wr main_v44 (by decide), wr main_cst_9 (by decide), wr main_v45 (by decide),
    wr main_v46 (by decide), wr main_v47 (by decide)⟩

/-- A buffer the stretch does not write holds afterwards what it held before. -/
theorem ops0_keeps (V : Valuation τ sig (Elt F)) {r : Ref sig .tc} (hr : r ∉ written0) :
    after ops0 V (Proc.devRef .tc r) = V (Proc.devRef .tc r) :=
  after_of_writes_sub ops0 V ops0_writes hr

end Cert.ReferenceIdeal.RefRun

end
-- ==== Proof.RefOps1.lean ====
/-
  The reference network as a straight line of array operations: the second of four consecutive stretches
  (statements 61 to 120 of the 220 the program prints for its entry function).

  The reference has no kernel and no loop: its entry function is a sequence of whole-array operations — slices,
  broadcasts, comparisons, selects, gathers, scatter-adds, matrix products, elementwise arithmetic — together with
  calls of small helper functions (the three-way select `where`, the leaky rectifier, the log-softmax).  A call
  means its callee's body with the operands substituted and the call's own buffers for the callee's values, so
  each call is written out here in place: the callee's operations, in order, over the buffers of that call.
  The rectifier itself calls the select, so its select line is written out one level deeper, over the inner
  call's buffer.

  `ops1` is that list for this stretch (68 operations).  Three facts about it are all that the rest of the
  proof needs:
  * running the stretch is running the list in order (`part1_eq`): once the helper functions' definitions are
    unfolded, both sides compute to the same chain of steps;
  * every operation reads and writes only buffers of the tensor core (`ops1_sub`), and none of them leaves a
    result undetermined (`ops1_fresh`), which is what the general theorem about straight lines asks;
  * the list of buffers the stretch writes (`written1`): each operation writes exactly one buffer, its result,
    so a buffer outside this list still holds afterwards what it held before (`ops1_keeps`).

  The contraction, gather, scatter-add and reduction are never opened here: they are names.
-/
import proofs.«103955_j78099685311022_1_alg».proof.Proof.Gen.ReferenceIdeal
import Idealize.ShloMosaic.Lib.StableHlo.Run

noncomputable section

namespace Cert.ReferenceIdeal.RefRun

open Idealize.ShloMosaic Idealize.ShloMosaic.StableHlo Idealize.SL.Sem Cert.ReferenceIdeal Cert.ReferenceIdeal.Gen

variable {F : FTy → Type} [FloatOps F]

/-- The operations of statements 61 to 120, in order, every call written out at its place. -/
abbrev ops1 : List (HloOp τ sig (Elt F)) :=
  [ StableHlo.unary main_arg6 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S100000x64 ![0, 1] bcast_S1x64_S100000x64_0_1 : (⟨S1x64, .f32⟩ : BufTy).Contents (Elt F) → (⟨S100000x64, .f32⟩ : BufTy).Contents (Elt F)),
    StableHlo.binary main_v47 main_v49 main_v50 (addf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x3C23D70A#32),
    StableHlo.TRef.nullary main_call1.cst (constant S_ .f32 0x00000000#32),
    StableHlo.TRef.unary main_call1.cst main_call1.v0 (broadcastInDim S100000x64 ![] bcast_S_S100000x64),
    StableHlo.TRef.binary (.of main_v50 : StableHlo.TRef sig ⟨S100000x64, .f32⟩) main_call1.v0 main_call1.v1 (cmpf .oge),
    StableHlo.TRef.unary (.of main_cst_10 : StableHlo.TRef sig ⟨S_, .f32⟩) main_call1.v2 id,
    StableHlo.TRef.unary main_call1.v2 main_call1.v3 (broadcastInDim S100000x64 ![] bcast_S_S100000x64),
    StableHlo.TRef.binary main_call1.v3 (.of main_v50 : StableHlo.TRef sig ⟨S100000x64, .f32⟩) main_call1.v4 mulf,
    StableHlo.TRef.ternary main_call1.v1 (.of main_v50 : StableHlo.TRef sig ⟨S100000x64, .f32⟩) main_call1.v4 main_call1.call0.v0 select,
    StableHlo.binary main_v51 main_arg7 main_v52 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_v53 (iotaInDim S100000 32 0),
    StableHlo.binary main_v1 main_v53 main_v54 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v53 main_v55 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst_11 (constant S_ .f32 0x3F800000#32),
    StableHlo.unary main_cst_11 main_v56 (broadcastInDim S100000 ![] bcast_S_S100000 : (⟨S_, .f32⟩ : BufTy).Contents (Elt F) → (⟨S100000, .f32⟩ : BufTy).Contents (Elt F)),
    StableHlo.binary main_arg1 main_v56 main_v57 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_12 (constant S_ .f32 0x00000000#32),
    StableHlo.unary main_cst_12 main_v58 (broadcastInDim S100000 ![] bcast_S_S100000 : (⟨S_, .f32⟩ : BufTy).Contents (Elt F) → (⟨S100000, .f32⟩ : BufTy).Contents (Elt F)),
    StableHlo.unary main_v55 main_v59 (broadcastInDim S1700000x1 ![0] bcast_S1700000_S1700000x1_0 : (⟨S1700000, .i32⟩ : BufTy).Contents (Elt F) → (⟨S1700000x1, .i32⟩ : BufTy).Contents (Elt F)),
    StableHlo.ternary main_v58 main_v59 main_v57 main_v60 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_13 (constant S_ .f32 0x00000000#32),
    StableHlo.unary main_cst_13 main_v61 (broadcastInDim S100000 ![] bcast_S_S100000 : (⟨S_, .f32⟩ : BufTy).Contents (Elt F) → (⟨S100000, .f32⟩ : BufTy).Contents (Elt F)),
    StableHlo.binary main_v60 main_v61 main_v62 (cmpf .ogt : (⟨S100000, .f32⟩ : BufTy).Contents (Elt F) → (⟨S100000, .f32⟩ : BufTy).Contents (Elt F) → (⟨S100000, .i1⟩ : BufTy).Contents (Elt F)),
    StableHlo.nullary main_cst_14 (constant S_ .f32 0x2B8CBCCC#32),
    StableHlo.unary main_cst_14 main_v63 (broadcastInDim S100000 ![] bcast_S_S100000 : (⟨S_, .f32⟩ : BufTy).Contents (Elt F) → (⟨S100000, .f32⟩ : BufTy).Contents (Elt F)),
    StableHlo.binary main_v60 main_v63 main_v64 (maximumf : (⟨S100000, .f32⟩ : BufTy).Contents (Elt F) → (⟨S100000, .f32⟩ : BufTy).Contents (Elt F) → (⟨S100000, .f32⟩ : BufTy).Contents (Elt F)),
    StableHlo.unary main_v64 main_v65 (Host.rsqrt : (⟨S100000, .f32⟩ : BufTy).Contents (Elt F) → (⟨S100000, .f32⟩ : BufTy).Contents (Elt F)),
    StableHlo.nullary main_cst_15 (constant S_ .f32 0x00000000#32),
    StableHlo.TRef.unary (.of main_cst_15 : StableHlo.TRef sig ⟨S_, .f32⟩) main_call2.v0 id,
    StableHlo.TRef.unary main_call2.v0 main_call2.v1 (broadcastInDim S100000 ![] bcast_S_S100000),
    StableHlo.TRef.ternary (.of main_v62 : StableHlo.TRef sig ⟨S100000, .i1⟩) (.of main_v65 : StableHlo.TRef sig ⟨S100000, .f32⟩) main_call2.v1 main_call2.v2 select,
    StableHlo.nullary main_c_16 (constantI S_ 32 0#32),
    StableHlo.unary main_c_16 main_v67 (broadcastInDim S1700000 ![] bcast_S_S1700000 : (⟨S_, .i32⟩ : BufTy).Contents (Elt F) → (⟨S1700000, .i32⟩ : BufTy).Contents (Elt F)),
    StableHlo.binary main_v54 main_v67 main_v68 (cmpi .slt : (⟨S1700000, .i32⟩ : BufTy).Contents (Elt F) → (⟨S1700000, .i32⟩ : BufTy).Contents (Elt F) → (⟨S1700000, .i1⟩ : BufTy).Contents (Elt F)),
    StableHlo.nullary main_c_17 (constantI S_ 32 100000#32),
    StableHlo.unary main_c_17 main_v69 (broadcastInDim S1700000 ![] bcast_S_S1700000 : (⟨S_, .i32⟩ : BufTy).Contents (Elt F) → (⟨S1700000, .i32⟩ : BufTy).Contents (Elt F)),
    StableHlo.binary main_v54 main_v69 main_v70 (addi : (⟨S1700000, .i32⟩ : BufTy).Contents (Elt F) → (⟨S1700000, .i32⟩ : BufTy).Contents (Elt F) → (⟨S1700000, .i32⟩ : BufTy).Contents (Elt F)),
    StableHlo.ternary main_v68 main_v70 main_v54 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v71 main_v72 (broadcastInDim S1700000x1 ![0] bcast_S1700000_S1700000x1_0 : (⟨S1700000, .i32⟩ : BufTy).Contents (Elt F) → (⟨S1700000x1, .i32⟩ : BufTy).Contents (Elt F)),
    StableHlo.binary main_v66 main_v72 main_v73 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v73 main_v57 main_v74 (mulf : (⟨S1700000, .f32⟩ : BufTy).Contents (Elt F) → (⟨S1700000, .f32⟩ : BufTy).Contents (Elt F) → (⟨S1700000, .f32⟩ : BufTy).Contents (Elt F)),
    StableHlo.nullary main_c_18 (constantI S_ 32 0#32),
    StableHlo.unary main_c_18 main_v75 (broadcastInDim S1700000 ![] bcast_S_S1700000 : (⟨S_, .i32⟩ : BufTy).Contents (Elt F) → (⟨S1700000, .i32⟩ : BufTy).Contents (Elt F)),
    StableHlo.binary main_v55 main_v75 main_v76 (cmpi .slt : (⟨S1700000, .i32⟩ : BufTy).Contents (Elt F) → (⟨S1700000, .i32⟩ : BufTy).Contents (Elt F) → (⟨S1700000, .i1⟩ : BufTy).Contents (Elt F)),
    StableHlo.nullary main_c_19 (constantI S_ 32 100000#32),
    StableHlo.unary main_c_19 main_v77 (broadcastInDim S1700000 ![] bcast_S_S1700000 : (⟨S_, .i32⟩ : BufTy).Contents (Elt F) → (⟨S1700000, .i32⟩ : BufTy).Contents (Elt F)),
    StableHlo.binary main_v55 main_v77 main_v78 (addi : (⟨S1700000, .i32⟩ : BufTy).Contents (Elt F) → (⟨S1700000, .i32⟩ : BufTy).Contents (Elt F) → (⟨S1700000, .i32⟩ : BufTy).Contents (Elt F)),
    StableHlo.ternary main_v76 main_v78 main_v55 main_v79 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v79 main_v80 (broadcastInDim S1700000x1 ![0] bcast_S1700000_S1700000x1_0 : (⟨S1700000, .i32⟩ : BufTy).Contents (Elt F) → (⟨S1700000x1, .i32⟩ : BufTy).Contents (Elt F)),
    StableHlo.binary main_v66 main_v80 main_v81 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v74 main_v81 main_v82 (mulf : (⟨S1700000, .f32⟩ : BufTy).Contents (Elt F) → (⟨S1700000, .f32⟩ : BufTy).Contents (Elt F) → (⟨S1700000, .f32⟩ : BufTy).Contents (Elt F)),
    StableHlo.unary main_v82 main_v83 (broadcastInDim S1700000x1 ![0] bcast_S1700000_S1700000x1_0 : (⟨S1700000, .f32⟩ : BufTy).Contents (Elt F) → (⟨S1700000x1, .f32⟩ : BufTy).Contents (Elt F)),
    StableHlo.nullary main_c_20 (constantI S_ 32 0#32),
    StableHlo.unary main_c_20 main_v84 (broadcastInDim S1700000 ![] bcast_S_S1700000 : (⟨S_, .i32⟩ : BufTy).Contents (Elt F) → (⟨S1700000, .i32⟩ : BufTy).Contents (Elt F)),
    StableHlo.binary main_v54 main_v84 main_v85 (cmpi .slt : (⟨S1700000, .i32⟩ : BufTy).Contents (Elt F) → (⟨S1700000, .i32⟩ : BufTy).Contents (Elt F) → (⟨S1700000, .i1⟩ : BufTy).Contents (Elt F)),
    StableHlo.nullary main_c_21 (constantI S_ 32 100000#32),
    StableHlo.unary main_c_21 main_v86 (broadcastInDim S1700000 ![] bcast_S_S1700000 : (⟨S_, .i32⟩ : BufTy).Contents (Elt F) → (⟨S1700000, .i32⟩ : BufTy).Contents (Elt F)),
    StableHlo.binary main_v54 main_v86 main_v87 (addi : (⟨S1700000, .i32⟩ : BufTy).Contents (Elt F) → (⟨S1700000, .i32⟩ : BufTy).Contents (Elt F) → (⟨S1700000, .i32⟩ : BufTy).Contents (Elt F)),
    StableHlo.ternary main_v85 main_v87 main_v54 main_v88 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v88 main_v89 (broadcastInDim S1700000x1 ![0] bcast_S1700000_S1700000x1_0 : (⟨S1700000, .i32⟩ : BufTy).Contents (Elt F) → (⟨S1700000x1, .i32⟩ : BufTy).Contents (Elt F)),
    StableHlo.binary main_v52 main_v89 main_v90 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v83 main_v91 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v91 main_v90 main_v92 (mulf : (⟨S1700000x64, .f32⟩ : BufTy).Contents (Elt F) → (⟨S1700000x64, .f32⟩ : BufTy).Contents (Elt F) → (⟨S1700000x64, .f32⟩ : BufTy).Contents (Elt F)),
    StableHlo.nullary main_cst_22 (constant S_ .f32 0x00000000#32),
    StableHlo.unary main_cst_22 main_v93 (broadcastInDim S100000x64 ![] bcast_S_S100000x64 : (⟨S_, .f32⟩ : BufTy).Contents (Elt F) → (⟨S100000x64, .f32⟩ : BufTy).Contents (Elt F)),
    StableHlo.unary main_v55 main_v94 (broadcastInDim S1700000x1 ![0] bcast_S1700000_S1700000x1_0 : (⟨S1700000, .i32⟩ : BufTy).Contents (Elt F) → (⟨S1700000x1, .i32⟩ : BufTy).Contents (Elt F)) ]

-- the two chains are compared link by link: the comparison recurses as deep as the list is long
set_option maxRecDepth 4096 in
/-- Running statements 61 to 120 is running `ops1` in order.  With the helper functions' definitions unfolded at
    their calls, both sides compute to the same chain of steps, link for link, so the equation holds by computation. -/
theorem part1_eq (c : Dev nD) : main_part1 (F := F) c = seq ops1 := rfl

/-- Every operation touches tensor-core buffers only: one instance of the builder's lemma per operation, in order. -/
theorem ops1_sub : (ops1 : List (HloOp τ sig (Elt F))).Forall fun op => op.bufs ⊆ tcRefs τ sig :=
  ⟨unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., binary_bufs_sub ..,
    nullary_bufs_sub .., binary_bufs_sub .., binary_bufs_sub .., nullary_bufs_sub .., unary_bufs_sub .., binary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., unary_bufs_sub .., nullary_bufs_sub ..,
    unary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., binary_bufs_sub .., nullary_bufs_sub ..,
    unary_bufs_sub .., unary_bufs_sub ..⟩

/-- No operation leaves a result to be chosen: each is a function of the buffers it reads. -/
theorem ops1_fresh : ∀ op ∈ (ops1 : List (HloOp τ sig (Elt F))), op.fresh = ∅ :=
  List.forall_iff_forall_mem.1 (show (ops1 : List (HloOp τ sig (Elt F))).Forall fun op => op.fresh = ∅ from
    ⟨rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl, rfl, rfl, rfl, rfl, rfl, rfl, rfl,
      rfl, rfl, rfl, rfl, rfl, rfl, rfl, rfl⟩)

/-- An operation whose one written buffer is in a list writes inside that list. -/
private theorem wr {W : List (Ref sig .tc)} {op : HloOp τ sig (Elt F)} (y : Ref sig .tc) (hy : y ∈ W)
    (hw : op.writes = {Proc.devRef .tc y} := by rfl) :
    op.writes ⊆ (W.map (Proc.devRef (τ := τ) .tc)).toFinset := by
  rw [hw]; exact Finset.singleton_subset_iff.2 (List.mem_toFinset.2 (List.mem_map.2 ⟨y, hy, rfl⟩))

/-- The buffers this stretch writes: the result buffer of each operation, in order. -/
abbrev written1 : List (Ref sig .tc) :=
  [ main_v48, main_v49, main_v50, main_cst_10, main_call1_cst, main_call1_v0, main_call1_v1, main_call1_v2,
    main_call1_v3, main_call1_v4, main_v51, main_v52, main_v53, main_v54, main_v55, main_cst_11,
    main_v56, main_v57, main_cst_12, main_v58, main_v59, main_v60, main_cst_13, main_v61,
    main_v62, main_cst_14, main_v63, main_v64, main_v65, main_cst_15, main_call2_v0, main_call2_v1,
    main_v66, main_c_16, main_v67, main_v68, main_c_17, main_v69, main_v70, main_v71,
    main_v72, main_v73, main_v74, main_c_18, main_v75, main_v76, main_c_19, main_v77,
    main_v78, main_v79, main_v80, main_v81, main_v82, main_v83, main_c_20, main_v84,
    main_v85, main_c_21, main_v86, main_v87, main_v88, main_v89, main_v90, main_v91,
    main_v92, main_cst_22, main_v93, main_v94 ]

/-- Each operation writes its one result buffer, which is in the list. -/
theorem ops1_writes : (ops1 : List (HloOp τ sig (Elt F))).Forall fun op =>
    op.writes ⊆ (written1.map (Proc.devRef (τ := τ) .tc)).toFinset :=
  ⟨wr main_v48 (by decide), wr main_v49 (by decide), wr main_v50 (by decide), wr main_cst_10 (by decide),
    wr main_call1_cst (by decide), wr main_call1_v0 (by decide), wr main_call1_v1 (by decide), wr main_call1_v2 (by decide),
    wr main_call1_v3 (by decide), wr main_call1_v4 (by decide), wr main_v51 (by decide), wr main_v52 (by decide),
    wr main_v53 (by decide), wr main_v54 (by decide), wr main_v55 (by decide), wr main_cst_11 (by decide),
    wr main_v56 (by decide), wr main_v57 (by decide), wr main_cst_12 (by decide), wr main_v58 (by decide),
    wr main_v59 (by decide), wr main_v60 (by decide), wr main_cst_13 (by decide), wr main_v61 (by decide),
    wr main_v62 (by decide), wr main_cst_14 (by decide), wr main_v63 (by decide), wr main_v64 (by decide),
    wr main_v65 (by decide), wr main_cst_15 (by decide), wr main_call2_v0 (by decide), wr main_call2_v1 (by decide),
    wr main_v66 (by decide), wr main_c_16 (by decide), wr main_v67 (by decide), wr main_v68 (by decide),
    wr main_c_17 (by decide), wr main_v69 (by decide), wr main_v70 (by decide), wr main_v71 (by decide),
    wr main_v72 (by decide), wr main_v73 (by decide), wr main_v74 (by decide), wr main_c_18 (by decide),
    wr main_v75 (by decide), wr main_v76 (by decide), wr main_c_19 (by decide), wr main_v77 (by decide),
    wr main_v78 (by decide), wr main_v79 (by decide), wr main_v80 (by decide), wr main_v81 (by decide),
    wr main_v82 (by decide), wr main_v83 (by decide), wr main_c_20 (by decide), wr main_v84 (by decide),
    wr main_v85 (by decide), wr main_c_21 (by decide), wr main_v86 (by decide), wr main_v87 (by decide),
    wr main_v88 (by decide), wr main_v89 (by decide), wr main_v90 (by decide), wr main_v91 (by decide),
    wr main_v92 (by decide), wr main_cst_22 (by decide), wr main_v93 (by decide), wr main_v94 (by decide)⟩

/-- A buffer the stretch does not write holds afterwards what it held before. -/
theorem ops1_keeps (V : Valuation τ sig (Elt F)) {r : Ref sig .tc} (hr : r ∉ written1) :
    after ops1 V (Proc.devRef .tc r) = V (Proc.devRef .tc r) :=
  after_of_writes_sub ops1 V ops1_writes hr

end Cert.ReferenceIdeal.RefRun

end
-- ==== Proof.RefOps2.lean ====
/-
  The reference network as a straight line of array operations: the third of four consecutive stretches
  (statements 121 to 180 of the 220 the program prints for its entry function).

  The reference has no kernel and no loop: its entry function is a sequence of whole-array operations — slices,
  broadcasts, comparisons, selects, gathers, scatter-adds, matrix products, elementwise arithmetic — together with
  calls of small helper functions (the three-way select `where`, the leaky rectifier, the log-softmax).  A call
  means its callee's body with the operands substituted and the call's own buffers for the callee's values, so
  each call is written out here in place: the callee's operations, in order, over the buffers of that call.
  The rectifier itself calls the select, so its select line is written out one level deeper, over the inner
  call's buffer.

  `ops2` is that list for this stretch (68 operations).  Three facts about it are all that the rest of the
  proof needs:
  * running the stretch is running the list in order (`part2_eq`): once the helper functions' definitions are
    unfolded, both sides compute to the same chain of steps;
  * every operation reads and writes only buffers of the tensor core (`ops2_sub`), and none of them leaves a
    result undetermined (`ops2_fresh`), which is what the general theorem about straight lines asks;
  * the list of buffers the stretch writes (`written2`): each operation writes exactly one buffer, its result,
    so a buffer outside this list still holds afterwards what it held before (`ops2_keeps`).

  The contraction, gather, scatter-add and reduction are never opened here: they are names.
-/
import proofs.«103955_j78099685311022_1_alg».proof.Proof.Gen.ReferenceIdeal
import Idealize.ShloMosaic.Lib.StableHlo.Run

noncomputable section

namespace Cert.ReferenceIdeal.RefRun

open Idealize.ShloMosaic Idealize.ShloMosaic.StableHlo Idealize.SL.Sem Cert.ReferenceIdeal Cert.ReferenceIdeal.Gen

variable {F : FTy → Type} [FloatOps F]

/-- The operations of statements 121 to 180, in order, every call written out at its place. -/
abbrev ops2 : List (HloOp τ sig (Elt F)) :=
  [ StableHlo.ternary main_v93 main_v94 main_v92 main_v95 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg8 main_v96 (broadcastInDim S1x64 ![1] bcast_S64_S1x64_1 : (⟨S64, .f32⟩ : BufTy).Contents (Elt F) → (⟨S1x64, .f32⟩ : BufTy).Contents (Elt F)),
    StableHlo.unary main_v96 main_v97 (broadcastInDim S100000x64 ![0, 1] bcast_S1x64_S100000x64_0_1 : (⟨S1x64, .f32⟩ : BufTy).Contents (Elt F) → (⟨S100000x64, .f32⟩ : BufTy).Contents (Elt F)),
    StableHlo.binary main_v95 main_v97 main_v98 (addf : (⟨S100000x64, .f32⟩ : BufTy).Contents (Elt F) → (⟨S100000x64, .f32⟩ : BufTy).Contents (Elt F) → (⟨S100000x64, .f32⟩ : BufTy).Contents (Elt F)),
    StableHlo.nullary main_cst_23 (constant S_ .f32 0x3C23D70A#32),
    StableHlo.TRef.nullary main_call3.cst (constant S_ .f32 0x00000000#32),
    StableHlo.TRef.unary main_call3.cst main_call3.v0 (broadcastInDim S100000x64 ![] bcast_S_S100000x64),
    StableHlo.TRef.binary (.of main_v98 : StableHlo.TRef sig ⟨S100000x64, .f32⟩) main_call3.v0 main_call3.v1 (cmpf .oge),
    StableHlo.TRef.unary (.of main_cst_23 : StableHlo.TRef sig ⟨S_, .f32⟩) main_call3.v2 id,
    StableHlo.TRef.unary main_call3.v2 main_call3.v3 (broadcastInDim S100000x64 ![] bcast_S_S100000x64),
    StableHlo.TRef.binary main_call3.v3 (.of main_v98 : StableHlo.TRef sig ⟨S100000x64, .f32⟩) main_call3.v4 mulf,
    StableHlo.TRef.ternary main_call3.v1 (.of main_v98 : StableHlo.TRef sig ⟨S100000x64, .f32⟩) main_call3.v4 main_call3.call0.v0 select,
    StableHlo.binary main_v99 main_arg9 main_v100 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_v101 (iotaInDim S100000 32 0),
    StableHlo.binary main_v1 main_v101 main_v102 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v101 main_v103 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst_24 (constant S_ .f32 0x3F800000#32),
    StableHlo.unary main_cst_24 main_v104 (broadcastInDim S100000 ![] bcast_S_S100000 : (⟨S_, .f32⟩ : BufTy).Contents (Elt F) → (⟨S100000, .f32⟩ : BufTy).Contents (Elt F)),
    StableHlo.binary main_arg1 main_v104 main_v105 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_25 (constant S_ .f32 0x00000000#32),
    StableHlo.unary main_cst_25 main_v106 (broadcastInDim S100000 ![] bcast_S_S100000 : (⟨S_, .f32⟩ : BufTy).Contents (Elt F) → (⟨S100000, .f32⟩ : BufTy).Contents (Elt F)),
    StableHlo.unary main_v103 main_v107 (broadcastInDim S1700000x1 ![0] bcast_S1700000_S1700000x1_0 : (⟨S1700000, .i32⟩ : BufTy).Contents (Elt F) → (⟨S1700000x1, .i32⟩ : BufTy).Contents (Elt F)),
    StableHlo.ternary main_v106 main_v107 main_v105 main_v108 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_26 (constant S_ .f32 0x00000000#32),
    StableHlo.unary main_cst_26 main_v109 (broadcastInDim S100000 ![] bcast_S_S100000 : (⟨S_, .f32⟩ : BufTy).Contents (Elt F) → (⟨S100000, .f32⟩ : BufTy).Contents (Elt F)),
    StableHlo.binary main_v108 main_v109 main_v110 (cmpf .ogt : (⟨S100000, .f32⟩ : BufTy).Contents (Elt F) → (⟨S100000, .f32⟩ : BufTy).Contents (Elt F) → (⟨S100000, .i1⟩ : BufTy).Contents (Elt F)),
    StableHlo.nullary main_cst_27 (constant S_ .f32 0x2B8CBCCC#32),
    StableHlo.unary main_cst_27 main_v111 (broadcastInDim S100000 ![] bcast_S_S100000 : (⟨S_, .f32⟩ : BufTy).Contents (Elt F) → (⟨S100000, .f32⟩ : BufTy).Contents (Elt F)),
    StableHlo.binary main_v108 main_v111 main_v112 (maximumf : (⟨S100000, .f32⟩ : BufTy).Contents (Elt F) → (⟨S100000, .f32⟩ : BufTy).Contents (Elt F) → (⟨S100000, .f32⟩ : BufTy).Contents (Elt F)),
    StableHlo.unary main_v112 main_v113 (Host.rsqrt : (⟨S100000, .f32⟩ : BufTy).Contents (Elt F) → (⟨S100000, .f32⟩ : BufTy).Contents (Elt F)),
    StableHlo.nullary main_cst_28 (constant S_ .f32 0x00000000#32),
    StableHlo.TRef.unary (.of main_cst_28 : StableHlo.TRef sig ⟨S_, .f32⟩) main_call4.v0 id,
    StableHlo.TRef.unary main_call4.v0 main_call4.v1 (broadcastInDim S100000 ![] bcast_S_S100000),
    StableHlo.TRef.ternary (.of main_v110 : StableHlo.TRef sig ⟨S100000, .i1⟩) (.of main_v113 : StableHlo.TRef sig ⟨S100000, .f32⟩) main_call4.v1 main_call4.v2 select,
    StableHlo.nullary main_c_29 (constantI S_ 32 0#32),
    StableHlo.unary main_c_29 main_v115 (broadcastInDim S1700000 ![] bcast_S_S1700000 : (⟨S_, .i32⟩ : BufTy).Contents (Elt F) → (⟨S1700000, .i32⟩ : BufTy).Contents (Elt F)),
    StableHlo.binary main_v102 main_v115 main_v116 (cmpi .slt : (⟨S1700000, .i32⟩ : BufTy).Contents (Elt F) → (⟨S1700000, .i32⟩ : BufTy).Contents (Elt F) → (⟨S1700000, .i1⟩ : BufTy).Contents (Elt F)),
    StableHlo.nullary main_c_30 (constantI S_ 32 100000#32),
    StableHlo.unary main_c_30 main_v117 (broadcastInDim S1700000 ![] bcast_S_S1700000 : (⟨S_, .i32⟩ : BufTy).Contents (Elt F) → (⟨S1700000, .i32⟩ : BufTy).Contents (Elt F)),
    StableHlo.binary main_v102 main_v117 main_v118 (addi : (⟨S1700000, .i32⟩ : BufTy).Contents (Elt F) → (⟨S1700000, .i32⟩ : BufTy).Contents (Elt F) → (⟨S1700000, .i32⟩ : BufTy).Contents (Elt F)),
    StableHlo.ternary main_v116 main_v118 main_v102 main_v119 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v119 main_v120 (broadcastInDim S1700000x1 ![0] bcast_S1700000_S1700000x1_0 : (⟨S1700000, .i32⟩ : BufTy).Contents (Elt F) → (⟨S1700000x1, .i32⟩ : BufTy).Contents (Elt F)),
    StableHlo.binary main_v114 main_v120 main_v121 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v121 main_v105 main_v122 (mulf : (⟨S1700000, .f32⟩ : BufTy).Contents (Elt F) → (⟨S1700000, .f32⟩ : BufTy).Contents (Elt F) → (⟨S1700000, .f32⟩ : BufTy).Contents (Elt F)),
    StableHlo.nullary main_c_31 (constantI S_ 32 0#32),
    StableHlo.unary main_c_31 main_v123 (broadcastInDim S1700000 ![] bcast_S_S1700000 : (⟨S_, .i32⟩ : BufTy).Contents (Elt F) → (⟨S1700000, .i32⟩ : BufTy).Contents (Elt F)),
    StableHlo.binary main_v103 main_v123 main_v124 (cmpi .slt : (⟨S1700000, .i32⟩ : BufTy).Contents (Elt F) → (⟨S1700000, .i32⟩ : BufTy).Contents (Elt F) → (⟨S1700000, .i1⟩ : BufTy).Contents (Elt F)),
    StableHlo.nullary main_c_32 (constantI S_ 32 100000#32),
    StableHlo.unary main_c_32 main_v125 (broadcastInDim S1700000 ![] bcast_S_S1700000 : (⟨S_, .i32⟩ : BufTy).Contents (Elt F) → (⟨S1700000, .i32⟩ : BufTy).Contents (Elt F)),
    StableHlo.binary main_v103 main_v125 main_v126 (addi : (⟨S1700000, .i32⟩ : BufTy).Contents (Elt F) → (⟨S1700000, .i32⟩ : BufTy).Contents (Elt F) → (⟨S1700000, .i32⟩ : BufTy).Contents (Elt F)),
    StableHlo.ternary main_v124 main_v126 main_v103 main_v127 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v127 main_v128 (broadcastInDim S1700000x1 ![0] bcast_S1700000_S1700000x1_0 : (⟨S1700000, .i32⟩ : BufTy).Contents (Elt F) → (⟨S1700000x1, .i32⟩ : BufTy).Contents (Elt F)),
    StableHlo.binary main_v114 main_v128 main_v129 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v122 main_v129 main_v130 (mulf : (⟨S1700000, .f32⟩ : BufTy).Contents (Elt F) → (⟨S1700000, .f32⟩ : BufTy).Contents (Elt F) → (⟨S1700000, .f32⟩ : BufTy).Contents (Elt F)),
    StableHlo.unary main_v130 main_v131 (broadcastInDim S1700000x1 ![0] bcast_S1700000_S1700000x1_0 : (⟨S1700000, .f32⟩ : BufTy).Contents (Elt F) → (⟨S1700000x1, .f32⟩ : BufTy).Contents (Elt F)),
    StableHlo.nullary main_c_33 (constantI S_ 32 0#32),
    StableHlo.unary main_c_33 main_v132 (broadcastInDim S1700000 ![] bcast_S_S1700000 : (⟨S_, .i32⟩ : BufTy).Contents (Elt F) → (⟨S1700000, .i32⟩ : BufTy).Contents (Elt F)),
    StableHlo.binary main_v102 main_v132 main_v133 (cmpi .slt : (⟨S1700000, .i32⟩ : BufTy).Contents (Elt F) → (⟨S1700000, .i32⟩ : BufTy).Contents (Elt F) → (⟨S1700000, .i1⟩ : BufTy).Contents (Elt F)),
    StableHlo.nullary main_c_34 (constantI S_ 32 100000#32),
    StableHlo.unary main_c_34 main_v134 (broadcastInDim S1700000 ![] bcast_S_S1700000 : (⟨S_, .i32⟩ : BufTy).Contents (Elt F) → (⟨S1700000, .i32⟩ : BufTy).Contents (Elt F)),
    StableHlo.binary main_v102 main_v134 main_v135 (addi : (⟨S1700000, .i32⟩ : BufTy).Contents (Elt F) → (⟨S1700000, .i32⟩ : BufTy).Contents (Elt F) → (⟨S1700000, .i32⟩ : BufTy).Contents (Elt F)),
    StableHlo.ternary main_v133 main_v135 main_v102 main_v136 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v136 main_v137 (broadcastInDim S1700000x1 ![0] bcast_S1700000_S1700000x1_0 : (⟨S1700000, .i32⟩ : BufTy).Contents (Elt F) → (⟨S1700000x1, .i32⟩ : BufTy).Contents (Elt F)),
    StableHlo.binary main_v100 main_v137 main_v138 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v131 main_v139 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v139 main_v138 main_v140 (mulf : (⟨S1700000x64, .f32⟩ : BufTy).Contents (Elt F) → (⟨S1700000x64, .f32⟩ : BufTy).Contents (Elt F) → (⟨S1700000x64, .f32⟩ : BufTy).Contents (Elt F)),
    StableHlo.nullary main_cst_35 (constant S_ .f32 0x00000000#32),
    StableHlo.unary main_cst_35 main_v141 (broadcastInDim S100000x64 ![] bcast_S_S100000x64 : (⟨S_, .f32⟩ : BufTy).Contents (Elt F) → (⟨S100000x64, .f32⟩ : BufTy).Contents (Elt F)) ]

-- the two chains are compared link by link: the comparison recurses as deep as the list is long
set_option maxRecDepth 4096 in
/-- Running statements 121 to 180 is running `ops2` in order.  With the helper functions' definitions unfolded at
    their calls, both sides compute to the same chain of steps, link for link, so the equation holds by computation. -/
theorem part2_eq (c : Dev nD) : main_part2 (F := F) c = seq ops2 := rfl

/-- Every operation touches tensor-core buffers only: one instance of the builder's lemma per operation, in order. -/
theorem ops2_sub : (ops2 : List (HloOp τ sig (Elt F))).Forall fun op => op.bufs ⊆ tcRefs τ sig :=
  ⟨ternary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., nullary_bufs_sub .., binary_bufs_sub .., binary_bufs_sub .., nullary_bufs_sub .., unary_bufs_sub ..,
    binary_bufs_sub .., nullary_bufs_sub .., unary_bufs_sub .., unary_bufs_sub .., ternary_bufs_sub .., nullary_bufs_sub ..,
    unary_bufs_sub .., binary_bufs_sub .., nullary_bufs_sub .., unary_bufs_sub .., binary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., binary_bufs_sub ..,
    nullary_bufs_sub .., unary_bufs_sub ..⟩

/-- No operation leaves a result to be chosen: each is a function of the buffers it reads. -/
theorem ops2_fresh : ∀ op ∈ (ops2 : List (HloOp τ sig (Elt F))), op.fresh = ∅ :=
  List.forall_iff_forall_mem.1 (show (ops2 : List (HloOp τ sig (Elt F))).Forall fun op => op.fresh = ∅ from
    ⟨rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl, rfl, rfl, rfl, rfl, rfl, rfl, rfl,
      rfl, rfl, rfl, rfl, rfl, rfl, rfl, rfl⟩)

/-- An operation whose one written buffer is in a list writes inside that list. -/
private theorem wr {W : List (Ref sig .tc)} {op : HloOp τ sig (Elt F)} (y : Ref sig .tc) (hy : y ∈ W)
    (hw : op.writes = {Proc.devRef .tc y} := by rfl) :
    op.writes ⊆ (W.map (Proc.devRef (τ := τ) .tc)).toFinset := by
  rw [hw]; exact Finset.singleton_subset_iff.2 (List.mem_toFinset.2 (List.mem_map.2 ⟨y, hy, rfl⟩))

/-- The buffers this stretch writes: the result buffer of each operation, in order. -/
abbrev written2 : List (Ref sig .tc) :=
  [ main_v95, main_v96, main_v97, main_v98, main_cst_23, main_call3_cst, main_call3_v0, main_call3_v1,
    main_call3_v2, main_call3_v3, main_call3_v4, main_v99, main_v100, main_v101, main_v102, main_v103,
    main_cst_24, main_v104, main_v105, main_cst_25, main_v106, main_v107, main_v108, main_cst_26,
    main_v109, main_v110, main_cst_27, main_v111, main_v112, main_v113, main_cst_28, main_call4_v0,
    main_call4_v1, main_v114, main_c_29, main_v115, main_v116, main_c_30, main_v117, main_v118,
    main_v119, main_v120, main_v121, main_v122, main_c_31, main_v123, main_v124, main_c_32,
    main_v125, main_v126, main_v127, main_v128, main_v129, main_v130, main_v131, main_c_33,
    main_v132, main_v133, main_c_34, main_v134, main_v135, main_v136, main_v137, main_v138,
    main_v139, main_v140, main_cst_35, main_v141 ]

/-- Each operation writes its one result buffer, which is in the list. -/
theorem ops2_writes : (ops2 : List (HloOp τ sig (Elt F))).Forall fun op =>
    op.writes ⊆ (written2.map (Proc.devRef (τ := τ) .tc)).toFinset :=
  ⟨wr main_v95 (by decide), wr main_v96 (by decide), wr main_v97 (by decide), wr main_v98 (by decide),
    wr main_cst_23 (by decide), wr main_call3_cst (by decide), wr main_call3_v0 (by decide), wr main_call3_v1 (by decide),
    wr main_call3_v2 (by decide), wr main_call3_v3 (by decide), wr main_call3_v4 (by decide), wr main_v99 (by decide),
    wr main_v100 (by decide), wr main_v101 (by decide), wr main_v102 (by decide), wr main_v103 (by decide),
    wr main_cst_24 (by decide), wr main_v104 (by decide), wr main_v105 (by decide), wr main_cst_25 (by decide),
    wr main_v106 (by decide), wr main_v107 (by decide), wr main_v108 (by decide), wr main_cst_26 (by decide),
    wr main_v109 (by decide), wr main_v110 (by decide), wr main_cst_27 (by decide), wr main_v111 (by decide),
    wr main_v112 (by decide), wr main_v113 (by decide), wr main_cst_28 (by decide), wr main_call4_v0 (by decide),
    wr main_call4_v1 (by decide), wr main_v114 (by decide), wr main_c_29 (by decide), wr main_v115 (by decide),
    wr main_v116 (by decide), wr main_c_30 (by decide), wr main_v117 (by decide), wr main_v118 (by decide),
    wr main_v119 (by decide), wr main_v120 (by decide), wr main_v121 (by decide), wr main_v122 (by decide),
    wr main_c_31 (by decide), wr main_v123 (by decide), wr main_v124 (by decide), wr main_c_32 (by decide),
    wr main_v125 (by decide), wr main_v126 (by decide), wr main_v127 (by decide), wr main_v128 (by decide),
    wr main_v129 (by decide), wr main_v130 (by decide), wr main_v131 (by decide), wr main_c_33 (by decide),
    wr main_v132 (by decide), wr main_v133 (by decide), wr main_c_34 (by decide), wr main_v134 (by decide),
    wr main_v135 (by decide), wr main_v136 (by decide), wr main_v137 (by decide), wr main_v138 (by decide),
    wr main_v139 (by decide), wr main_v140 (by decide), wr main_cst_35 (by decide), wr main_v141 (by decide)⟩

/-- A buffer the stretch does not write holds afterwards what it held before. -/
theorem ops2_keeps (V : Valuation τ sig (Elt F)) {r : Ref sig .tc} (hr : r ∉ written2) :
    after ops2 V (Proc.devRef .tc r) = V (Proc.devRef .tc r) :=
  after_of_writes_sub ops2 V ops2_writes hr

end Cert.ReferenceIdeal.RefRun

end
-- ==== Proof.RefOps3.lean ====
/-
  The reference network as a straight line of array operations: the fourth of four consecutive stretches
  (statements 181 to 220 of the 220 the program prints for its entry function).

  The reference has no kernel and no loop: its entry function is a sequence of whole-array operations — slices,
  broadcasts, comparisons, selects, gathers, scatter-adds, matrix products, elementwise arithmetic — together with
  calls of small helper functions (the three-way select `where`, the leaky rectifier, the log-softmax).  A call
  means its callee's body with the operands substituted and the call's own buffers for the callee's values, so
  each call is written out here in place: the callee's operations, in order, over the buffers of that call.
  The rectifier itself calls the select, so its select line is written out one level deeper, over the inner
  call's buffer.

  `ops3` is that list for this stretch (71 operations).  Three facts about it are all that the rest of the
  proof needs:
  * running the stretch is running the list in order (`part3_eq`): once the helper functions' definitions are
    unfolded, both sides compute to the same chain of steps;
  * every operation reads and writes only buffers of the tensor core (`ops3_sub`), and none of them leaves a
    result undetermined (`ops3_fresh`), which is what the general theorem about straight lines asks;
  * the list of buffers the stretch writes (`written3`): each operation writes exactly one buffer, its result,
    so a buffer outside this list still holds afterwards what it held before (`ops3_keeps`).

  The contraction, gather, scatter-add and reduction are never opened here: they are names.
-/
import proofs.«103955_j78099685311022_1_alg».proof.Proof.Gen.ReferenceIdeal
import Idealize.ShloMosaic.Lib.StableHlo.Run

noncomputable section

namespace Cert.ReferenceIdeal.RefRun

open Idealize.ShloMosaic Idealize.ShloMosaic.StableHlo Idealize.SL.Sem Cert.ReferenceIdeal Cert.ReferenceIdeal.Gen

variable {F : FTy → Type} [FloatOps F]

/-- The operations of statements 181 to 220, in order, every call written out at its place. -/
abbrev ops3 : List (HloOp τ sig (Elt F)) :=
  [ StableHlo.unary main_v103 main_v142 (broadcastInDim S1700000x1 ![0] bcast_S1700000_S1700000x1_0 : (⟨S1700000, .i32⟩ : BufTy).Contents (Elt F) → (⟨S1700000x1, .i32⟩ : BufTy).Contents (Elt F)),
    StableHlo.ternary main_v141 main_v142 main_v140 main_v143 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    StableHlo.unary main_arg10 main_v144 (broadcastInDim S1x64 ![1] bcast_S64_S1x64_1 : (⟨S64, .f32⟩ : BufTy).Contents (Elt F) → (⟨S1x64, .f32⟩ : BufTy).Contents (Elt F)),
    StableHlo.unary main_v144 main_v145 (broadcastInDim S100000x64 ![0, 1] bcast_S1x64_S100000x64_0_1 : (⟨S1x64, .f32⟩ : BufTy).Contents (Elt F) → (⟨S100000x64, .f32⟩ : BufTy).Contents (Elt F)),
    StableHlo.binary main_v143 main_v145 main_v146 (addf : (⟨S100000x64, .f32⟩ : BufTy).Contents (Elt F) → (⟨S100000x64, .f32⟩ : BufTy).Contents (Elt F) → (⟨S100000x64, .f32⟩ : BufTy).Contents (Elt F)),
    StableHlo.nullary main_cst_36 (constant S_ .f32 0x3C23D70A#32),
    StableHlo.TRef.nullary main_call5.cst (constant S_ .f32 0x00000000#32),
    StableHlo.TRef.unary main_call5.cst main_call5.v0 (broadcastInDim S100000x64 ![] bcast_S_S100000x64),
    StableHlo.TRef.binary (.of main_v146 : StableHlo.TRef sig ⟨S100000x64, .f32⟩) main_call5.v0 main_call5.v1 (cmpf .oge),
    StableHlo.TRef.unary (.of main_cst_36 : StableHlo.TRef sig ⟨S_, .f32⟩) main_call5.v2 id,
    StableHlo.TRef.unary main_call5.v2 main_call5.v3 (broadcastInDim S100000x64 ![] bcast_S_S100000x64),
    StableHlo.TRef.binary main_call5.v3 (.of main_v146 : StableHlo.TRef sig ⟨S100000x64, .f32⟩) main_call5.v4 mulf,
    StableHlo.TRef.ternary main_call5.v1 (.of main_v146 : StableHlo.TRef sig ⟨S100000x64, .f32⟩) main_call5.v4 main_call5.call0.v0 select,
    StableHlo.nullary main_c_37 (constantI S_ 32 0#32),
    StableHlo.unary main_c_37 main_v148 (broadcastInDim S16384 ![] bcast_S_S16384 : (⟨S_, .i32⟩ : BufTy).Contents (Elt F) → (⟨S16384, .i32⟩ : BufTy).Contents (Elt F)),
    StableHlo.binary main_arg2 main_v148 main_v149 (cmpi .slt : (⟨S16384, .i32⟩ : BufTy).Contents (Elt F) → (⟨S16384, .i32⟩ : BufTy).Contents (Elt F) → (⟨S16384, .i1⟩ : BufTy).Contents (Elt F)),
    StableHlo.nullary main_c_38 (constantI S_ 32 100000#32),
    StableHlo.unary main_c_38 main_v150 (broadcastInDim S16384 ![] bcast_S_S16384 : (⟨S_, .i32⟩ : BufTy).Contents (Elt F) → (⟨S16384, .i32⟩ : BufTy).Contents (Elt F)),
    StableHlo.binary main_arg2 main_v150 main_v151 (addi : (⟨S16384, .i32⟩ : BufTy).Contents (Elt F) → (⟨S16384, .i32⟩ : BufTy).Contents (Elt F) → (⟨S16384, .i32⟩ : BufTy).Contents (Elt F)),
    StableHlo.ternary main_v149 main_v151 main_arg2 main_v152 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v152 main_v153 (broadcastInDim S16384x1 ![0] bcast_S16384_S16384x1_0 : (⟨S16384, .i32⟩ : BufTy).Contents (Elt F) → (⟨S16384x1, .i32⟩ : BufTy).Contents (Elt F)),
    StableHlo.binary main_v147 main_v153 main_v154 ((fun x i => Host.gather gather_S100000x64_S16384x1_S16384x64_1_0_n_n_0_1_164 x i) : (⟨S100000x64, .f32⟩ : BufTy).Contents (Elt F) → (⟨S16384x1, .i32⟩ : BufTy).Contents (Elt F) → (⟨S16384x64, .f32⟩ : BufTy).Contents (Elt F)),
    StableHlo.nullary main_c_39 (constantI S_ 32 0#32),
    StableHlo.unary main_c_39 main_v155 (broadcastInDim S16384 ![] bcast_S_S16384 : (⟨S_, .i32⟩ : BufTy).Contents (Elt F) → (⟨S16384, .i32⟩ : BufTy).Contents (Elt F)),
    StableHlo.binary main_arg3 main_v155 main_v156 (cmpi .slt : (⟨S16384, .i32⟩ : BufTy).Contents (Elt F) → (⟨S16384, .i32⟩ : BufTy).Contents (Elt F) → (⟨S16384, .i1⟩ : BufTy).Contents (Elt F)),
    StableHlo.nullary main_c_40 (constantI S_ 32 100000#32),
    StableHlo.unary main_c_40 main_v157 (broadcastInDim S16384 ![] bcast_S_S16384 : (⟨S_, .i32⟩ : BufTy).Contents (Elt F) → (⟨S16384, .i32⟩ : BufTy).Contents (Elt F)),
    StableHlo.binary main_arg3 main_v157 main_v158 (addi : (⟨S16384, .i32⟩ : BufTy).Contents (Elt F) → (⟨S16384, .i32⟩ : BufTy).Contents (Elt F) → (⟨S16384, .i32⟩ : BufTy).Contents (Elt F)),
    StableHlo.ternary main_v156 main_v158 main_arg3 main_v159 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v159 main_v160 (broadcastInDim S16384x1 ![0] bcast_S16384_S16384x1_0 : (⟨S16384, .i32⟩ : BufTy).Contents (Elt F) → (⟨S16384x1, .i32⟩ : BufTy).Contents (Elt F)),
    StableHlo.binary main_v147 main_v160 main_v161 ((fun x i => Host.gather gather_S100000x64_S16384x1_S16384x64_1_0_n_n_0_1_164 x i) : (⟨S100000x64, .f32⟩ : BufTy).Contents (Elt F) → (⟨S16384x1, .i32⟩ : BufTy).Contents (Elt F) → (⟨S16384x64, .f32⟩ : BufTy).Contents (Elt F)),
    StableHlo.binary main_v154 main_v161 main_v162 ((fun a b => concatenate S16384x128 1 [⟨S16384x64, a⟩, ⟨S16384x64, b⟩] concatenates_S16384x64_S16384x64_S16384x128_d1) : (⟨S16384x64, .f32⟩ : BufTy).Contents (Elt F) → (⟨S16384x64, .f32⟩ : BufTy).Contents (Elt F) → (⟨S16384x128, .f32⟩ : BufTy).Contents (Elt F)),
    StableHlo.binary main_v162 main_arg11 main_v163 ((fun l r => Host.dotGeneral dot_S16384x128_S128x6_S16384x6_1_0_0_1_n_n none l r) : (⟨S16384x128, .f32⟩ : BufTy).Contents (Elt F) → (⟨S128x6, .f32⟩ : BufTy).Contents (Elt F) → (⟨S16384x6, .f32⟩ : BufTy).Contents (Elt F)),
    StableHlo.unary main_arg12 main_v164 (broadcastInDim S1x6 ![1] bcast_S6_S1x6_1 : (⟨S6, .f32⟩ : BufTy).Contents (Elt F) → (⟨S1x6, .f32⟩ : BufTy).Contents (Elt F)),
    StableHlo.unary main_v164 main_v165 (broadcastInDim S16384x6 ![0, 1] bcast_S1x6_S16384x6_0_1 : (⟨S1x6, .f32⟩ : BufTy).Contents (Elt F) → (⟨S16384x6, .f32⟩ : BufTy).Contents (Elt F)),
    StableHlo.binary main_v163 main_v165 main_v166 (addf : (⟨S16384x6, .f32⟩ : BufTy).Contents (Elt F) → (⟨S16384x6, .f32⟩ : BufTy).Contents (Elt F) → (⟨S16384x6, .f32⟩ : BufTy).Contents (Elt F)),
    StableHlo.nullary main_cst_41 (constant S_ .f32 0x3C23D70A#32),
    StableHlo.TRef.nullary main_call6.cst (constant S_ .f32 0x00000000#32),
    StableHlo.TRef.unary main_call6.cst main_call6.v0 (broadcastInDim S16384x6 ![] bcast_S_S16384x6),
    StableHlo.TRef.binary (.of main_v166 : StableHlo.TRef sig ⟨S16384x6, .f32⟩) main_call6.v0 main_call6.v1 (cmpf .oge),
    StableHlo.TRef.unary (.of main_cst_41 : StableHlo.TRef sig ⟨S_, .f32⟩) main_call6.v2 id,
    StableHlo.TRef.unary main_call6.v2 main_call6.v3 (broadcastInDim S16384x6 ![] bcast_S_S16384x6),
    StableHlo.TRef.binary main_call6.v3 (.of main_v166 : StableHlo.TRef sig ⟨S16384x6, .f32⟩) main_call6.v4 mulf,
    StableHlo.TRef.ternary main_call6.v1 (.of main_v166 : StableHlo.TRef sig ⟨S16384x6, .f32⟩) main_call6.v4 main_call6.call0.v0 select,
    StableHlo.binary main_v167 main_arg13 main_v168 ((fun l r => Host.dotGeneral dot_S16384x6_S6x3_S16384x3_1_0_0_1_n_n none l r) : (⟨S16384x6, .f32⟩ : BufTy).Contents (Elt F) → (⟨S6x3, .f32⟩ : BufTy).Contents (Elt F) → (⟨S16384x3, .f32⟩ : BufTy).Contents (Elt F)),
    StableHlo.unary main_arg14 main_v169 (broadcastInDim S1x3 ![1] bcast_S3_S1x3_1 : (⟨S3, .f32⟩ : BufTy).Contents (Elt F) → (⟨S1x3, .f32⟩ : BufTy).Contents (Elt F)),
    StableHlo.unary main_v169 main_v170 (broadcastInDim S16384x3 ![0, 1] bcast_S1x3_S16384x3_0_1 : (⟨S1x3, .f32⟩ : BufTy).Contents (Elt F) → (⟨S16384x3, .f32⟩ : BufTy).Contents (Elt F)),
    StableHlo.binary main_v168 main_v170 main_v171 (addf : (⟨S16384x3, .f32⟩ : BufTy).Contents (Elt F) → (⟨S16384x3, .f32⟩ : BufTy).Contents (Elt F) → (⟨S16384x3, .f32⟩ : BufTy).Contents (Elt F)),
    StableHlo.nullary main_cst_42 (constant S_ .f32 0x3C23D70A#32),
    StableHlo.TRef.nullary main_call7.cst (constant S_ .f32 0x00000000#32),
    StableHlo.TRef.unary main_call7.cst main_call7.v0 (broadcastInDim S16384x3 ![] bcast_S_S16384x3),
    StableHlo.TRef.binary (.of main_v171 : StableHlo.TRef sig ⟨S16384x3, .f32⟩) main_call7.v0 main_call7.v1 (cmpf .oge),
    StableHlo.TRef.unary (.of main_cst_42 : StableHlo.TRef sig ⟨S_, .f32⟩) main_call7.v2 id,
    StableHlo.TRef.unary main_call7.v2 main_call7.v3 (broadcastInDim S16384x3 ![] bcast_S_S16384x3),
    StableHlo.TRef.binary main_call7.v3 (.of main_v171 : StableHlo.TRef sig ⟨S16384x3, .f32⟩) main_call7.v4 mulf,
    StableHlo.TRef.ternary main_call7.v1 (.of main_v171 : StableHlo.TRef sig ⟨S16384x3, .f32⟩) main_call7.v4 main_call7.call0.v0 select,
    StableHlo.TRef.nullary main_call8.cst (constant S_ .f32 0xFF800000#32),
    StableHlo.TRef.binary (.of main_v172 : StableHlo.TRef sig ⟨S16384x3, .f32⟩) main_call8.cst main_call8.v0 (fun x v => Host.reduce FloatOps.maximumf x v reducesTo_S16384x3_S3_d0 h_S_),
    StableHlo.TRef.nullary main_call8.cst_0 (constant S_ .f32 0xFF800000#32),
    StableHlo.TRef.unary main_call8.cst_0 main_call8.v1 (broadcastInDim S3 ![] bcast_S_S3),
    StableHlo.TRef.binary main_call8.v1 main_call8.v0 main_call8.v2 maximumf,
    StableHlo.TRef.unary main_call8.v2 main_call8.v3 (broadcastInDim S1x3 ![1] bcast_S3_S1x3_1),
    StableHlo.TRef.unary main_call8.v3 main_call8.v4 (broadcastInDim S16384x3 ![0, 1] bcast_S1x3_S16384x3_0_1),
    StableHlo.TRef.binary (.of main_v172 : StableHlo.TRef sig ⟨S16384x3, .f32⟩) main_call8.v4 main_call8.v5 subf,
    StableHlo.TRef.unary main_call8.v5 main_call8.v6 Host.exp,
    StableHlo.TRef.nullary main_call8.cst_1 (constant S_ .f32 0x00000000#32),
    StableHlo.TRef.binary main_call8.v6 main_call8.cst_1 main_call8.v7 (fun x v => Host.reduceAdd x v reducesTo_S16384x3_S3_d0 h_S_),
    StableHlo.TRef.unary main_call8.v7 main_call8.v8 (broadcastInDim S1x3 ![1] bcast_S3_S1x3_1),
    StableHlo.TRef.unary main_call8.v8 main_call8.v9 Host.log,
    StableHlo.TRef.unary main_call8.v9 main_call8.v10 (broadcastInDim S16384x3 ![0, 1] bcast_S1x3_S16384x3_0_1),
    StableHlo.TRef.binary main_call8.v5 main_call8.v10 main_call8.v11 subf ]

-- the two chains are compared link by link: the comparison recurses as deep as the list is long
set_option maxRecDepth 4096 in
/-- Running statements 181 to 220 is running `ops3` in order.  With the helper functions' definitions unfolded at
    their calls, both sides compute to the same chain of steps, link for link, so the equation holds by computation. -/
theorem part3_eq (c : Dev nD) : main_part3 (F := F) c = seq ops3 := rfl

/-- Every operation touches tensor-core buffers only: one instance of the builder's lemma per operation, in order. -/
theorem ops3_sub : (ops3 : List (HloOp τ sig (Elt F))).Forall fun op => op.bufs ⊆ tcRefs τ sig :=
  ⟨unary_bufs_sub .., ternary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., nullary_bufs_sub .., binary_bufs_sub .., nullary_bufs_sub .., unary_bufs_sub ..,
    binary_bufs_sub .., unary_bufs_sub .., unary_bufs_sub .., binary_bufs_sub .., unary_bufs_sub .., nullary_bufs_sub ..,
    binary_bufs_sub .., unary_bufs_sub .., unary_bufs_sub .., unary_bufs_sub .., binary_bufs_sub ..⟩

/-- No operation leaves a result to be chosen: each is a function of the buffers it reads. -/
theorem ops3_fresh : ∀ op ∈ (ops3 : List (HloOp τ sig (Elt F))), op.fresh = ∅ :=
  List.forall_iff_forall_mem.1 (show (ops3 : List (HloOp τ sig (Elt F))).Forall fun op => op.fresh = ∅ from
    ⟨rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl, rfl, rfl, rfl, rfl, rfl, rfl, rfl, rfl, rfl,
      rfl, rfl, rfl, rfl, rfl, rfl, rfl, rfl, rfl, rfl, rfl⟩)

/-- An operation whose one written buffer is in a list writes inside that list. -/
private theorem wr {W : List (Ref sig .tc)} {op : HloOp τ sig (Elt F)} (y : Ref sig .tc) (hy : y ∈ W)
    (hw : op.writes = {Proc.devRef .tc y} := by rfl) :
    op.writes ⊆ (W.map (Proc.devRef (τ := τ) .tc)).toFinset := by
  rw [hw]; exact Finset.singleton_subset_iff.2 (List.mem_toFinset.2 (List.mem_map.2 ⟨y, hy, rfl⟩))

/-- The buffers this stretch writes: the result buffer of each operation, in order. -/
abbrev written3 : List (Ref sig .tc) :=
  [ main_v142, main_v143, main_v144, main_v145, main_v146, main_cst_36, main_call5_cst, main_call5_v0,
    main_call5_v1, main_call5_v2, main_call5_v3, main_call5_v4, main_v147, main_c_37, main_v148, main_v149,
    main_c_38, main_v150, main_v151, main_v152, main_v153, main_v154, main_c_39, main_v155,
    main_v156, main_c_40, main_v157, main_v158, main_v159, main_v160, main_v161, main_v162,
    main_v163, main_v164, main_v165, main_v166, main_cst_41, main_call6_cst, main_call6_v0, main_call6_v1,
    main_call6_v2, main_call6_v3, main_call6_v4, main_v167, main_v168, main_v169, main_v170, main_v171,
    main_cst_42, main_call7_cst, main_call7_v0, main_call7_v1, main_call7_v2, main_call7_v3, main_call7_v4, main_v172,
    main_call8_cst, main_call8_v0, main_call8_cst_0, main_call8_v1, main_call8_v2, main_call8_v3, main_call8_v4, main_call8_v5,
    main_call8_v6, main_call8_cst_1, main_call8_v7, main_call8_v8, main_call8_v9, main_call8_v10, main_v173 ]

/-- Each operation writes its one result buffer, which is in the list. -/
theorem ops3_writes : (ops3 : List (HloOp τ sig (Elt F))).Forall fun op =>
    op.writes ⊆ (written3.map (Proc.devRef (τ := τ) .tc)).toFinset :=
  ⟨wr main_v142 (by decide), wr main_v143 (by decide), wr main_v144 (by decide), wr main_v145 (by decide),
    wr main_v146 (by decide), wr main_cst_36 (by decide), wr main_call5_cst (by decide), wr main_call5_v0 (by decide),
    wr main_call5_v1 (by decide), wr main_call5_v2 (by decide), wr main_call5_v3 (by decide), wr main_call5_v4 (by decide),
    wr main_v147 (by decide), wr main_c_37 (by decide), wr main_v148 (by decide), wr main_v149 (by decide),
    wr main_c_38 (by decide), wr main_v150 (by decide), wr main_v151 (by decide), wr main_v152 (by decide),
    wr main_v153 (by decide), wr main_v154 (by decide), wr main_c_39 (by decide), wr main_v155 (by decide),
    wr main_v156 (by decide), wr main_c_40 (by decide), wr main_v157 (by decide), wr main_v158 (by decide),
    wr main_v159 (by decide), wr main_v160 (by decide), wr main_v161 (by decide), wr main_v162 (by decide),
    wr main_v163 (by decide), wr main_v164 (by decide), wr main_v165 (by decide), wr main_v166 (by decide),
    wr main_cst_41 (by decide), wr main_call6_cst (by decide), wr main_call6_v0 (by decide), wr main_call6_v1 (by decide),
    wr main_call6_v2 (by decide), wr main_call6_v3 (by decide), wr main_call6_v4 (by decide), wr main_v167 (by decide),
    wr main_v168 (by decide), wr main_v169 (by decide), wr main_v170 (by decide), wr main_v171 (by decide),
    wr main_cst_42 (by decide), wr main_call7_cst (by decide), wr main_call7_v0 (by decide), wr main_call7_v1 (by decide),
    wr main_call7_v2 (by decide), wr main_call7_v3 (by decide), wr main_call7_v4 (by decide), wr main_v172 (by decide),
    wr main_call8_cst (by decide), wr main_call8_v0 (by decide), wr main_call8_cst_0 (by decide), wr main_call8_v1 (by decide),
    wr main_call8_v2 (by decide), wr main_call8_v3 (by decide), wr main_call8_v4 (by decide), wr main_call8_v5 (by decide),
    wr main_call8_v6 (by decide), wr main_call8_cst_1 (by decide), wr main_call8_v7 (by decide), wr main_call8_v8 (by decide),
    wr main_call8_v9 (by decide), wr main_call8_v10 (by decide), wr main_v173 (by decide)⟩

/-- A buffer the stretch does not write holds afterwards what it held before. -/
theorem ops3_keeps (V : Valuation τ sig (Elt F)) {r : Ref sig .tc} (hr : r ∉ written3) :
    after ops3 V (Proc.devRef .tc r) = V (Proc.devRef .tc r) :=
  after_of_writes_sub ops3 V ops3_writes hr

end Cert.ReferenceIdeal.RefRun

end
-- ==== Proof.RefRun.lean ====
/-
  The reference network's run, assembled from its four stretches.

  The entry function runs its four stretches one after the other, and each stretch is a straight line of array
  operations (the four lists `ops0` … `ops3`).  Two straight lines run in succession are their concatenation run as
  one, so the whole function is the straight line `ops0 ++ (ops1 ++ (ops2 ++ ops3))` (`main_eq`).  For a straight
  line the general theorem says: from any memory whose semaphore counters are zero, every weakly fair execution
  terminates, and each tensor-core buffer ends holding what folding the operations, in order, over the launch contents
  leaves in it.  Folding a concatenation is folding the first list and then the second from where the first ended
  (`after_append`), so the final contents are the four folds nested, innermost first (`run`).

  The fifteen argument buffers are written by no operation at all — every operation writes its own result buffer,
  and the results are all distinct from the arguments — so each of them still holds its launch contents at the end
  (`kept_arg0` … `kept_arg14`).
-/
import proofs.«103955_j78099685311022_1_alg».proof.Proof.RefOps0
import proofs.«103955_j78099685311022_1_alg».proof.Proof.RefOps1
import proofs.«103955_j78099685311022_1_alg».proof.Proof.RefOps2
import proofs.«103955_j78099685311022_1_alg».proof.Proof.RefOps3

noncomputable section

namespace Cert.ReferenceIdeal.RefRun

open Idealize.ShloMosaic Idealize.ShloMosaic.StableHlo Idealize.SL.Sem Cert.ReferenceIdeal Cert.ReferenceIdeal.Gen

variable {F : FTy → Type} [FloatOps F]

/-- Folding a concatenation: fold the first list, then the second from where the first ended. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The entry function is the four stretches' operations run as one straight line. -/
theorem main_eq (c : Dev nD) : main (F := F) c = seq (ops0 ++ (ops1 ++ (ops2 ++ ops3))) := by
  rw [seq_append, seq_append, seq_append, ← part0_eq c, ← part1_eq c, ← part2_eq c, ← part3_eq c]
  rfl

/-- Membership in a concatenation, for the two side conditions below. -/
private theorem forall_append {p : HloOp τ sig (Elt F) → Prop} {l₁ l₂ : List (HloOp τ sig (Elt F))}
    (h₁ : ∀ op ∈ l₁, p op) (h₂ : ∀ op ∈ l₂, p op) : ∀ op ∈ l₁ ++ l₂, p op :=
  fun op h => (List.mem_append.1 h).elim (h₁ op) (h₂ op)

/-- Every operation of the whole line touches tensor-core buffers only. -/
theorem ops_sub : (ops0 ++ (ops1 ++ (ops2 ++ ops3)) : List (HloOp τ sig (Elt F))).Forall fun op => op.bufs ⊆ tcRefs τ sig :=
  List.forall_iff_forall_mem.2 (forall_append (List.forall_iff_forall_mem.1 ops0_sub)
    (forall_append (List.forall_iff_forall_mem.1 ops1_sub)
      (forall_append (List.forall_iff_forall_mem.1 ops2_sub) (List.forall_iff_forall_mem.1 ops3_sub))))

/-- No operation of the whole line leaves a result to be chosen. -/
theorem ops_fresh : ∀ op ∈ (ops0 ++ (ops1 ++ (ops2 ++ ops3)) : List (HloOp τ sig (Elt F))), op.fresh = ∅ :=
  forall_append ops0_fresh (forall_append ops1_fresh (forall_append ops2_fresh ops3_fresh))

-- the two enumerations below run over all 284 buffers of the signature
set_option maxRecDepth 8192 in
/-- The signature scopes no buffer: every tensor value lives across the whole run. -/
theorem scopedRefs_eq : (Finset.univ.filter fun b : Ref sig .tc => b.isScoped) = ∅ := by decide
/-- The signature has no semaphore, hence no scoped one. -/
theorem scopedSems_eq : (Finset.univ.filter fun sm : SemLoc sig => sm.isScoped .tc) = ∅ := by decide

/-- On every device, for any float values, from any memory with zero counters: every weakly fair execution of the
    entry function terminates, and each tensor-core buffer ends at the four stretches' folds, nested in order, over
    the launch contents. -/
theorem run (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b)
        = after ops3 (after ops2 (after ops1 (after ops0 (launchContents m d)))) (Proc.devRef .tc b) :=
  (θ_run defs _ _).mono (fun _ h d b => (h d b).trans (by rw [after_append, after_append, after_append]))
    (run_seq scopedRefs_eq scopedSems_eq defs main (fun _ => ops0 ++ (ops1 ++ (ops2 ++ ops3))) main_eq (fun _ => ops_sub) m ρ
      (fun _ => ops_fresh))

/-- A buffer none of the four stretches writes holds at the end what it held at the start. -/
theorem kept (W : Valuation τ sig (Elt F)) {r : Ref sig .tc} (h0 : r ∉ written0) (h1 : r ∉ written1) (h2 : r ∉ written2)
    (h3 : r ∉ written3) :
    after ops3 (after ops2 (after ops1 (after ops0 W))) (Proc.devRef .tc r) = W (Proc.devRef .tc r) := by
  rw [ops3_keeps _ h3, ops2_keeps _ h2, ops1_keeps _ h1, ops0_keeps _ h0]

/-! The fifteen arguments: none is any operation's result buffer. -/

theorem kept_arg0 (W : Valuation τ sig (Elt F)) :
    after ops3 (after ops2 (after ops1 (after ops0 W))) (Proc.devRef .tc main_arg0) = W (Proc.devRef .tc main_arg0) :=
  kept W (by decide) (by decide) (by decide) (by decide)
theorem kept_arg1 (W : Valuation τ sig (Elt F)) :
    after ops3 (after ops2 (after ops1 (after ops0 W))) (Proc.devRef .tc main_arg1) = W (Proc.devRef .tc main_arg1) :=
  kept W (by decide) (by decide) (by decide) (by decide)
theorem kept_arg2 (W : Valuation τ sig (Elt F)) :
    after ops3 (after ops2 (after ops1 (after ops0 W))) (Proc.devRef .tc main_arg2) = W (Proc.devRef .tc main_arg2) :=
  kept W (by decide) (by decide) (by decide) (by decide)
theorem kept_arg3 (W : Valuation τ sig (Elt F)) :
    after ops3 (after ops2 (after ops1 (after ops0 W))) (Proc.devRef .tc main_arg3) = W (Proc.devRef .tc main_arg3) :=
  kept W (by decide) (by decide) (by decide) (by decide)
theorem kept_arg4 (W : Valuation τ sig (Elt F)) :
    after ops3 (after ops2 (after ops1 (after ops0 W))) (Proc.devRef .tc main_arg4) = W (Proc.devRef .tc main_arg4) :=
  kept W (by decide) (by decide) (by decide) (by decide)
theorem kept_arg5 (W : Valuation τ sig (Elt F)) :
    after ops3 (after ops2 (after ops1 (after ops0 W))) (Proc.devRef .tc main_arg5) = W (Proc.devRef .tc main_arg5) :=
  kept W (by decide) (by decide) (by decide) (by decide)
theorem kept_arg6 (W : Valuation τ sig (Elt F)) :
    after ops3 (after ops2 (after ops1 (after ops0 W))) (Proc.devRef .tc main_arg6) = W (Proc.devRef .tc main_arg6) :=
  kept W (by decide) (by decide) (by decide) (by decide)
theorem kept_arg7 (W : Valuation τ sig (Elt F)) :
    after ops3 (after ops2 (after ops1 (after ops0 W))) (Proc.devRef .tc main_arg7) = W (Proc.devRef .tc main_arg7) :=
  kept W (by decide) (by decide) (by decide) (by decide)
theorem kept_arg8 (W : Valuation τ sig (Elt F)) :
    after ops3 (after ops2 (after ops1 (after ops0 W))) (Proc.devRef .tc main_arg8) = W (Proc.devRef .tc main_arg8) :=
  kept W (by decide) (by decide) (by decide) (by decide)
theorem kept_arg9 (W : Valuation τ sig (Elt F)) :
    after ops3 (after ops2 (after ops1 (after ops0 W))) (Proc.devRef .tc main_arg9) = W (Proc.devRef .tc main_arg9) :=
  kept W (by decide) (by decide) (by decide) (by decide)
theorem kept_arg10 (W : Valuation τ sig (Elt F)) :
    after ops3 (after ops2 (after ops1 (after ops0 W))) (Proc.devRef .tc main_arg10) = W (Proc.devRef .tc main_arg10) :=
  kept W (by decide) (by decide) (by decide) (by decide)
theorem kept_arg11 (W : Valuation τ sig (Elt F)) :
    after ops3 (after ops2 (after ops1 (after ops0 W))) (Proc.devRef .tc main_arg11) = W (Proc.devRef .tc main_arg11) :=
  kept W (by decide) (by decide) (by decide) (by decide)
theorem kept_arg12 (W : Valuation τ sig (Elt F)) :
    after ops3 (after ops2 (after ops1 (after ops0 W))) (Proc.devRef .tc main_arg12) = W (Proc.devRef .tc main_arg12) :=
  kept W (by decide) (by decide) (by decide) (by decide)
theorem kept_arg13 (W : Valuation τ sig (Elt F)) :
    after ops3 (after ops2 (after ops1 (after ops0 W))) (Proc.devRef .tc main_arg13) = W (Proc.devRef .tc main_arg13) :=
  kept W (by decide) (by decide) (by decide) (by decide)
theorem kept_arg14 (W : Valuation τ sig (Elt F)) :
    after ops3 (after ops2 (after ops1 (after ops0 W))) (Proc.devRef .tc main_arg14) = W (Proc.devRef .tc main_arg14) :=
  kept W (by decide) (by decide) (by decide) (by decide)

end Cert.ReferenceIdeal.RefRun

end
-- ==== Proof.RefDefs.lean ====
/-
  The dense parts of the network in the reference program's own spelling.

  The reference computes a layer's dense part with whole-array host operations: a contraction of the feature
  array with the weight matrix over their shared axis; the bias vector laid out as a row and repeated down the
  rows, then added; and the leaky rectifier as a selection between an entry and its multiple by the slope,
  decided by whether the entry is at least 0.  Three sizes occur: the node features (100000 × 64 with 64 × 64
  weights) and the two layers of the head (16384 × 128 into 6, then into 3).
-/
import proofs.«103955_j78099685311022_1_alg».proof.Proof.Gen.ReferenceIdeal
import Idealize.ShloMosaic.PureOps.Ideal

noncomputable section

namespace Cert.RefDense

open Idealize.ShloMosaic Cert.ReferenceIdeal Cert.ReferenceIdeal.Gen

/-- An array of extended reals over a shape. -/
abbrev F32 (s : Shape) : Type := FVec Ideal s .f32

/-- The contraction of node features with a weight matrix. -/
def dot64 (x : F32 S100000x64) (w : F32 S64x64) : F32 S100000x64 :=
  Host.dotGeneral dot_S100000x64_S64x64_S100000x64_1_0_0_1_n_n none x w
/-- The head's first contraction, over the 128 paired features. -/
def dot128 (x : F32 S16384x128) (w : F32 S128x6) : F32 S16384x6 :=
  Host.dotGeneral dot_S16384x128_S128x6_S16384x6_1_0_0_1_n_n none x w
/-- The head's second contraction, over the 6 hidden features. -/
def dot6 (x : F32 S16384x6) (w : F32 S6x3) : F32 S16384x3 :=
  Host.dotGeneral dot_S16384x6_S6x3_S16384x3_1_0_0_1_n_n none x w

/-- A bias vector added to every row of a S100000x64 array, as the reference spells it: the vector laid out as one row,
    the row repeated down the rows. -/
def bias64 (a : F32 S100000x64) (b : F32 S64) : F32 S100000x64 :=
  addf a (broadcastInDim S100000x64 ![0, 1] bcast_S1x64_S100000x64_0_1 (broadcastInDim S1x64 ![1] bcast_S64_S1x64_1 b))
/-- The leaky rectifier on a S100000x64 array, as the reference spells it: keep the entries that are at least 0,
    scale the rest by the slope. -/
def relu64 (y : F32 S100000x64) : F32 S100000x64 :=
  select (cmpf .oge y (broadcastInDim S100000x64 ![] bcast_S_S100000x64 (constant S_ .f32 0x00000000#32))) y
    (mulf (broadcastInDim S100000x64 ![] bcast_S_S100000x64 (id (constant (F := Ideal) S_ .f32 0x3C23D70A#32))) y)

/-- A bias vector added to every row of a S16384x6 array, as the reference spells it: the vector laid out as one row,
    the row repeated down the rows. -/
def bias6 (a : F32 S16384x6) (b : F32 S6) : F32 S16384x6 :=
  addf a (broadcastInDim S16384x6 ![0, 1] bcast_S1x6_S16384x6_0_1 (broadcastInDim S1x6 ![1] bcast_S6_S1x6_1 b))
/-- The leaky rectifier on a S16384x6 array, as the reference spells it: keep the entries that are at least 0,
    scale the rest by the slope. -/
def relu6 (y : F32 S16384x6) : F32 S16384x6 :=
  select (cmpf .oge y (broadcastInDim S16384x6 ![] bcast_S_S16384x6 (constant S_ .f32 0x00000000#32))) y
    (mulf (broadcastInDim S16384x6 ![] bcast_S_S16384x6 (id (constant (F := Ideal) S_ .f32 0x3C23D70A#32))) y)

/-- A bias vector added to every row of a S16384x3 array, as the reference spells it: the vector laid out as one row,
    the row repeated down the rows. -/
def bias3 (a : F32 S16384x3) (b : F32 S3) : F32 S16384x3 :=
  addf a (broadcastInDim S16384x3 ![0, 1] bcast_S1x3_S16384x3_0_1 (broadcastInDim S1x3 ![1] bcast_S3_S1x3_1 b))
/-- The leaky rectifier on a S16384x3 array, as the reference spells it: keep the entries that are at least 0,
    scale the rest by the slope. -/
def relu3 (y : F32 S16384x3) : F32 S16384x3 :=
  select (cmpf .oge y (broadcastInDim S16384x3 ![] bcast_S_S16384x3 (constant S_ .f32 0x00000000#32))) y
    (mulf (broadcastInDim S16384x3 ![] bcast_S_S16384x3 (id (constant (F := Ideal) S_ .f32 0x3C23D70A#32))) y)

end Cert.RefDense

end
-- ==== Proof.RefHost0.lean ====
/-
  What the reference's first stretch of operations leaves: the two rows of the edge list, and the first layer's
  aggregation of the contracted node features.

  The stretch is a straight line of 62 whole-array operations.  What it leaves in a buffer is found by walking the
  line backwards from the operation that writes the buffer, reading each operand the same way.  A walk over the whole
  line would revisit the early operations once per later use — an arc's coefficient uses the inverse-root degree
  twice, which uses the degree twice — so the line is cut into four consecutive pieces.  Each piece is walked on its
  own, from ANY contents, with the buffers earlier pieces wrote as plain inputs; a piece leaves alone every buffer it
  does not write; and the four reads compose to the shared chain of Chain.lean applied to the stretch's inputs.  The
  reference's dimension records and shape names are the same literals as the kernel program's under another
  namespace, so the closing comparison is by unfolding.
-/
import proofs.«103955_j78099685311022_1_alg».proof.Proof.RefOps0
import proofs.«103955_j78099685311022_1_alg».proof.Proof.Chain
import proofs.«103955_j78099685311022_1_alg».proof.Proof.RefDefs
import Idealize.ShloMosaic.Lib.StableHlo.Run

set_option maxRecDepth 16384
-- the walks are checked one after the other
set_option Elab.async false

noncomputable section

namespace Cert.ReferenceIdeal.HostRead

open Idealize.ShloMosaic Idealize.ShloMosaic.TcCoe Idealize.ShloMosaic.StableHlo Idealize.SL.Sem
open Cert.ReferenceIdeal Cert.ReferenceIdeal.Gen Cert.ReferenceIdeal.RefRun Cert.RefDense

/-! ## The pieces and their reads (the names of this part live in a namespace of their own) -/

namespace W0

variable {F : FTy → Type} [FloatOps F]

/-- Folding a concatenation: fold the first list, then the second from where the first ended. -/
theorem after_app {F : FTy → Type} [FloatOps F] (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- An operation whose one written buffer is in a list writes inside that list. -/
private theorem wr {F : FTy → Type} [FloatOps F] {L : List (Ref sig .tc)} {op : HloOp τ sig (Elt F)} (y : Ref sig .tc) (hy : y ∈ L)
    (hw : op.writes = {Proc.devRef .tc y} := by rfl) :
    op.writes ⊆ (L.map (Proc.devRef (τ := τ) .tc)).toFinset := by
  rw [hw]; exact Finset.singleton_subset_iff.2 (List.mem_toFinset.2 (List.mem_map.2 ⟨y, hy, rfl⟩))

/-- The first fifteen operations: the two rows of the edge list, the first contraction, the arcs' ends and weights, the degree. -/
abbrev p1 : List (HloOp τ sig (Elt F)) :=
  [ StableHlo.unary main_arg0 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg0 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg4 main_arg5 main_v4 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.nullary main_v5 (iotaInDim S100000 32 0),
    StableHlo.binary main_v1 main_v5 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v5 main_v7 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst (constant S_ .f32 0x3F800000#32),
    StableHlo.unary main_cst main_v8 (broadcastInDim S100000 ![] bcast_S_S100000 : (⟨S_, .f32⟩ : BufTy).Contents (Elt F) → (⟨S100000, .f32⟩ : BufTy).Contents (Elt F)),
    StableHlo.binary main_arg1 main_v8 main_v9 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_0 (constant S_ .f32 0x00000000#32),
    StableHlo.unary main_cst_0 main_v10 (broadcastInDim S100000 ![] bcast_S_S100000 : (⟨S_, .f32⟩ : BufTy).Contents (Elt F) → (⟨S100000, .f32⟩ : BufTy).Contents (Elt F)),
    StableHlo.unary main_v7 main_v11 (broadcastInDim S1700000x1 ![0] bcast_S1700000_S1700000x1_0 : (⟨S1700000, .i32⟩ : BufTy).Contents (Elt F) → (⟨S1700000x1, .i32⟩ : BufTy).Contents (Elt F)),
    StableHlo.ternary main_v10 main_v11 main_v9 main_v12 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ]

/-- The buffers those operations write, in order. -/
abbrev p1w : List (Ref sig .tc) :=
  [ main_v0, main_v1, main_v2, main_v3, main_v4, main_v5, main_v6, main_v7, main_cst, main_v8, main_v9, main_cst_0, main_v10, main_v11, main_v12 ]

theorem p1_writes : (p1 : List (HloOp τ sig (Elt F))).Forall fun op =>
    op.writes ⊆ (p1w.map (Proc.devRef (τ := τ) .tc)).toFinset :=
  ⟨wr main_v0 (by decide), wr main_v1 (by decide), wr main_v2 (by decide), wr main_v3 (by decide), wr main_v4 (by decide), wr main_v5 (by decide), wr main_v6 (by decide), wr main_v7 (by decide), wr main_cst (by decide), wr main_v8 (by decide), wr main_v9 (by decide), wr main_cst_0 (by decide), wr main_v10 (by decide), wr main_v11 (by decide), wr main_v12 (by decide)⟩

/-- A buffer they do not write holds afterwards what it held before. -/
theorem p1_keeps (V : Valuation τ sig (Elt F)) {r : Ref sig .tc} (hr : r ∉ p1w) :
    after p1 V (Proc.devRef .tc r) = V (Proc.devRef .tc r) :=
  after_of_writes_sub p1 V p1_writes hr

/-- The next eleven: the inverse square root of the degree, selected to 0 where the degree is not positive. -/
abbrev p2 : List (HloOp τ sig (Elt F)) :=
  [ StableHlo.nullary main_cst_1 (constant S_ .f32 0x00000000#32),
    StableHlo.unary main_cst_1 main_v13 (broadcastInDim S100000 ![] bcast_S_S100000 : (⟨S_, .f32⟩ : BufTy).Contents (Elt F) → (⟨S100000, .f32⟩ : BufTy).Contents (Elt F)),
    StableHlo.binary main_v12 main_v13 main_v14 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x2B8CBCCC#32),
    StableHlo.unary main_cst_2 main_v15 (broadcastInDim S100000 ![] bcast_S_S100000 : (⟨S_, .f32⟩ : BufTy).Contents (Elt F) → (⟨S100000, .f32⟩ : BufTy).Contents (Elt F)),
    StableHlo.binary main_v12 main_v15 main_v16 (maximumf : (⟨S100000, .f32⟩ : BufTy).Contents (Elt F) → (⟨S100000, .f32⟩ : BufTy).Contents (Elt F) → (⟨S100000, .f32⟩ : BufTy).Contents (Elt F)),
    StableHlo.unary main_v16 main_v17 (Host.rsqrt : (⟨S100000, .f32⟩ : BufTy).Contents (Elt F) → (⟨S100000, .f32⟩ : BufTy).Contents (Elt F)),
    StableHlo.nullary main_cst_3 (constant S_ .f32 0x00000000#32),
    StableHlo.TRef.unary (.of main_cst_3 : StableHlo.TRef sig ⟨S_, .f32⟩) main_call0.v0 id,
    StableHlo.TRef.unary main_call0.v0 main_call0.v1 (broadcastInDim S100000 ![] bcast_S_S100000),
    StableHlo.TRef.ternary (.of main_v14 : StableHlo.TRef sig ⟨S100000, .i1⟩) (.of main_v17 : StableHlo.TRef sig ⟨S100000, .f32⟩) main_call0.v1 main_call0.v2 select ]

/-- The buffers those operations write, in order. -/
abbrev p2w : List (Ref sig .tc) :=
  [ main_cst_1, main_v13, main_v14, main_cst_2, main_v15, main_v16, main_v17, main_cst_3, main_call0_v0, main_call0_v1, main_v18 ]

theorem p2_writes : (p2 : List (HloOp τ sig (Elt F))).Forall fun op =>
    op.writes ⊆ (p2w.map (Proc.devRef (τ := τ) .tc)).toFinset :=
  ⟨wr main_cst_1 (by decide), wr main_v13 (by decide), wr main_v14 (by decide), wr main_cst_2 (by decide), wr main_v15 (by decide), wr main_v16 (by decide), wr main_v17 (by decide), wr main_cst_3 (by decide), wr main_call0_v0 (by decide), wr main_call0_v1 (by decide), wr main_v18 (by decide)⟩

/-- A buffer they do not write holds afterwards what it held before. -/
theorem p2_keeps (V : Valuation τ sig (Elt F)) {r : Ref sig .tc} (hr : r ∉ p2w) :
    after p2 V (Proc.devRef .tc r) = V (Proc.devRef .tc r) :=
  after_of_writes_sub p2 V p2_writes hr

/-- The next twenty: the positions of the arcs' two ends, the values gathered there, the arcs' coefficients. -/
abbrev p3 : List (HloOp τ sig (Elt F)) :=
  [ StableHlo.nullary main_c (constantI S_ 32 0#32),
    StableHlo.unary main_c main_v19 (broadcastInDim S1700000 ![] bcast_S_S1700000 : (⟨S_, .i32⟩ : BufTy).Contents (Elt F) → (⟨S1700000, .i32⟩ : BufTy).Contents (Elt F)),
    StableHlo.binary main_v6 main_v19 main_v20 (cmpi .slt : (⟨S1700000, .i32⟩ : BufTy).Contents (Elt F) → (⟨S1700000, .i32⟩ : BufTy).Contents (Elt F) → (⟨S1700000, .i1⟩ : BufTy).Contents (Elt F)),
    StableHlo.nullary main_c_4 (constantI S_ 32 100000#32),
    StableHlo.unary main_c_4 main_v21 (broadcastInDim S1700000 ![] bcast_S_S1700000 : (⟨S_, .i32⟩ : BufTy).Contents (Elt F) → (⟨S1700000, .i32⟩ : BufTy).Contents (Elt F)),
    StableHlo.binary main_v6 main_v21 main_v22 (addi : (⟨S1700000, .i32⟩ : BufTy).Contents (Elt F) → (⟨S1700000, .i32⟩ : BufTy).Contents (Elt F) → (⟨S1700000, .i32⟩ : BufTy).Contents (Elt F)),
    StableHlo.ternary main_v20 main_v22 main_v6 main_v23 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v23 main_v24 (broadcastInDim S1700000x1 ![0] bcast_S1700000_S1700000x1_0 : (⟨S1700000, .i32⟩ : BufTy).Contents (Elt F) → (⟨S1700000x1, .i32⟩ : BufTy).Contents (Elt F)),
    StableHlo.binary main_v18 main_v24 main_v25 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v25 main_v9 main_v26 (mulf : (⟨S1700000, .f32⟩ : BufTy).Contents (Elt F) → (⟨S1700000, .f32⟩ : BufTy).Contents (Elt F) → (⟨S1700000, .f32⟩ : BufTy).Contents (Elt F)),
    StableHlo.nullary main_c_5 (constantI S_ 32 0#32),
    StableHlo.unary main_c_5 main_v27 (broadcastInDim S1700000 ![] bcast_S_S1700000 : (⟨S_, .i32⟩ : BufTy).Contents (Elt F) → (⟨S1700000, .i32⟩ : BufTy).Contents (Elt F)),
    StableHlo.binary main_v7 main_v27 main_v28 (cmpi .slt : (⟨S1700000, .i32⟩ : BufTy).Contents (Elt F) → (⟨S1700000, .i32⟩ : BufTy).Contents (Elt F) → (⟨S1700000, .i1⟩ : BufTy).Contents (Elt F)),
    StableHlo.nullary main_c_6 (constantI S_ 32 100000#32),
    StableHlo.unary main_c_6 main_v29 (broadcastInDim S1700000 ![] bcast_S_S1700000 : (⟨S_, .i32⟩ : BufTy).Contents (Elt F) → (⟨S1700000, .i32⟩ : BufTy).Contents (Elt F)),
    StableHlo.binary main_v7 main_v29 main_v30 (addi : (⟨S1700000, .i32⟩ : BufTy).Contents (Elt F) → (⟨S1700000, .i32⟩ : BufTy).Contents (Elt F) → (⟨S1700000, .i32⟩ : BufTy).Contents (Elt F)),
    StableHlo.ternary main_v28 main_v30 main_v7 main_v31 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v31 main_v32 (broadcastInDim S1700000x1 ![0] bcast_S1700000_S1700000x1_0 : (⟨S1700000, .i32⟩ : BufTy).Contents (Elt F) → (⟨S1700000x1, .i32⟩ : BufTy).Contents (Elt F)),
    StableHlo.binary main_v18 main_v32 main_v33 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v26 main_v33 main_v34 (mulf : (⟨S1700000, .f32⟩ : BufTy).Contents (Elt F) → (⟨S1700000, .f32⟩ : BufTy).Contents (Elt F) → (⟨S1700000, .f32⟩ : BufTy).Contents (Elt F)) ]

/-- The buffers those operations write, in order. -/
abbrev p3w : List (Ref sig .tc) :=
  [ main_c, main_v19, main_v20, main_c_4, main_v21, main_v22, main_v23, main_v24, main_v25, main_v26, main_c_5, main_v27, main_v28, main_c_6, main_v29, main_v30, main_v31, main_v32, main_v33, main_v34 ]

theorem p3_writes : (p3 : List (HloOp τ sig (Elt F))).Forall fun op =>
    op.writes ⊆ (p3w.map (Proc.devRef (τ := τ) .tc)).toFinset :=
  ⟨wr main_c (by decide), wr main_v19 (by decide), wr main_v20 (by decide), wr main_c_4 (by decide), wr main_v21 (by decide), wr main_v22 (by decide), wr main_v23 (by decide), wr main_v24 (by decide), wr main_v25 (by decide), wr main_v26 (by decide), wr main_c_5 (by decide), wr main_v27 (by decide), wr main_v28 (by decide), wr main_c_6 (by decide), wr main_v29 (by decide), wr main_v30 (by decide), wr main_v31 (by decide), wr main_v32 (by decide), wr main_v33 (by decide), wr main_v34 (by decide)⟩

/-- A buffer they do not write holds afterwards what it held before. -/
theorem p3_keeps (V : Valuation τ sig (Elt F)) {r : Ref sig .tc} (hr : r ∉ p3w) :
    after p3 V (Proc.devRef .tc r) = V (Proc.devRef .tc r) :=
  after_of_writes_sub p3 V p3_writes hr

/-- The last sixteen: the feature rows gathered at the arcs' sources, scaled, and added up at the arcs' destinations. -/
abbrev p4 : List (HloOp τ sig (Elt F)) :=
  [ StableHlo.unary main_v34 main_v35 (broadcastInDim S1700000x1 ![0] bcast_S1700000_S1700000x1_0 : (⟨S1700000, .f32⟩ : BufTy).Contents (Elt F) → (⟨S1700000x1, .f32⟩ : BufTy).Contents (Elt F)),
    StableHlo.nullary main_c_7 (constantI S_ 32 0#32),
    StableHlo.unary main_c_7 main_v36 (broadcastInDim S1700000 ![] bcast_S_S1700000 : (⟨S_, .i32⟩ : BufTy).Contents (Elt F) → (⟨S1700000, .i32⟩ : BufTy).Contents (Elt F)),
    StableHlo.binary main_v6 main_v36 main_v37 (cmpi .slt : (⟨S1700000, .i32⟩ : BufTy).Contents (Elt F) → (⟨S1700000, .i32⟩ : BufTy).Contents (Elt F) → (⟨S1700000, .i1⟩ : BufTy).Contents (Elt F)),
    StableHlo.nullary main_c_8 (constantI S_ 32 100000#32),
    StableHlo.unary main_c_8 main_v38 (broadcastInDim S1700000 ![] bcast_S_S1700000 : (⟨S_, .i32⟩ : BufTy).Contents (Elt F) → (⟨S1700000, .i32⟩ : BufTy).Contents (Elt F)),
    StableHlo.binary main_v6 main_v38 main_v39 (addi : (⟨S1700000, .i32⟩ : BufTy).Contents (Elt F) → (⟨S1700000, .i32⟩ : BufTy).Contents (Elt F) → (⟨S1700000, .i32⟩ : BufTy).Contents (Elt F)),
    StableHlo.ternary main_v37 main_v39 main_v6 main_v40 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v40 main_v41 (broadcastInDim S1700000x1 ![0] bcast_S1700000_S1700000x1_0 : (⟨S1700000, .i32⟩ : BufTy).Contents (Elt F) → (⟨S1700000x1, .i32⟩ : BufTy).Contents (Elt F)),
    StableHlo.binary main_v4 main_v41 main_v42 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v35 main_v43 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v43 main_v42 main_v44 (mulf : (⟨S1700000x64, .f32⟩ : BufTy).Contents (Elt F) → (⟨S1700000x64, .f32⟩ : BufTy).Contents (Elt F) → (⟨S1700000x64, .f32⟩ : BufTy).Contents (Elt F)),
    StableHlo.nullary main_cst_9 (constant S_ .f32 0x00000000#32),
    StableHlo.unary main_cst_9 main_v45 (broadcastInDim S100000x64 ![] bcast_S_S100000x64 : (⟨S_, .f32⟩ : BufTy).Contents (Elt F) → (⟨S100000x64, .f32⟩ : BufTy).Contents (Elt F)),
    StableHlo.unary main_v7 main_v46 (broadcastInDim S1700000x1 ![0] bcast_S1700000_S1700000x1_0 : (⟨S1700000, .i32⟩ : BufTy).Contents (Elt F) → (⟨S1700000x1, .i32⟩ : BufTy).Contents (Elt F)),
    StableHlo.ternary main_v45 main_v46 main_v44 main_v47 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- The buffers those operations write, in order. -/
abbrev p4w : List (Ref sig .tc) :=
  [ main_v35, main_c_7, main_v36, main_v37, main_c_8, main_v38, main_v39, main_v40, main_v41, main_v42, main_v43, main_v44, main_cst_9, main_v45, main_v46, main_v47 ]

theorem p4_writes : (p4 : List (HloOp τ sig (Elt F))).Forall fun op =>
    op.writes ⊆ (p4w.map (Proc.devRef (τ := τ) .tc)).toFinset :=
  ⟨wr main_v35 (by decide), wr main_c_7 (by decide), wr main_v36 (by decide), wr main_v37 (by decide), wr main_c_8 (by decide), wr main_v38 (by decide), wr main_v39 (by decide), wr main_v40 (by decide), wr main_v41 (by decide), wr main_v42 (by decide), wr main_v43 (by decide), wr main_v44 (by decide), wr main_cst_9 (by decide), wr main_v45 (by decide), wr main_v46 (by decide), wr main_v47 (by decide)⟩

/-- A buffer they do not write holds afterwards what it held before. -/
theorem p4_keeps (V : Valuation τ sig (Elt F)) {r : Ref sig .tc} (hr : r ∉ p4w) :
    after p4 V (Proc.devRef .tc r) = V (Proc.devRef .tc r) :=
  after_of_writes_sub p4 V p4_writes hr

/-- The stretch is its four pieces, one after the other. -/
theorem ops0_cut : (ops0 : List (HloOp τ sig (Elt F))) = p1 ++ (p2 ++ (p3 ++ p4)) := rfl

/-- An array of extended reals, of 32-bit integers, over a shape. -/
abbrev R32 (s : Shape) : Type := FVec Ideal s .f32
abbrev N32 (s : Shape) : Type := IVec s 32

/-- The inverse square root of an array of degrees, 0 where the degree is not positive. -/
def dinvOf (g : R32 S100000) : R32 S100000 :=
  select (cmpf .ogt g (broadcastInDim S100000 ![] bcast_S_S100000 (constant S_ .f32 0x00000000#32)))
    (Host.rsqrt (maximumf g (broadcastInDim S100000 ![] bcast_S_S100000 (constant S_ .f32 0x2B8CBCCC#32))))
    (broadcastInDim S100000 ![] bcast_S_S100000 (id (constant (F := Ideal) S_ .f32 0x00000000#32)))

/-- The arcs' coefficients from the inverse-root degrees `v`, the arcs' two ends and their weights: the value at the
    source, times the weight, times the value at the destination. -/
def normOf (v : R32 S100000) (s d : N32 S1700000) (w : R32 S1700000) : R32 S1700000 :=
  mulf (mulf (Host.gather gather_S100000_S1700000x1_S1700000_n_0_n_n_0_1_1 v (Cert.Chain.wrap s)) w)
    (Host.gather gather_S100000_S1700000x1_S1700000_n_0_n_n_0_1_1 v (Cert.Chain.wrap d))

variable (W : Valuation τ sig (Elt Ideal))

-- the gathers, scatter-adds, reductions and concatenations are names here: no walk looks inside one
attribute [local irreducible] Host.scatterAdd Host.gather Host.reduce Host.reduceAdd concatenate

/-! ## The first piece, from the stretch's inputs -/

/-- The sources' row of the edge list, -/
theorem p1_src : after (p1 (F := Ideal)) W (Proc.devRef .tc main_v1) = Cert.Chain.srcRow (W (Proc.devRef .tc main_arg0)) := by
  simp only [after_cons, after_nil]
  rfl

/-- the destinations' row, -/
theorem p1_dst : after (p1 (F := Ideal)) W (Proc.devRef .tc main_v3) = Cert.Chain.dstRow (W (Proc.devRef .tc main_arg0)) := by
  simp only [after_cons, after_nil]
  rfl

/-- the contraction of the node features with the first weight matrix, -/
theorem p1_xw : after (p1 (F := Ideal)) W (Proc.devRef .tc main_v4) = dot64 (W (Proc.devRef .tc main_arg4)) (W (Proc.devRef .tc main_arg5)) := by
  simp only [after_cons, after_nil]
  rfl

/-- the arcs' sources, -/
theorem p1_as : after (p1 (F := Ideal)) W (Proc.devRef .tc main_v6) = Cert.Chain.arcs (Cert.Chain.srcRow (W (Proc.devRef .tc main_arg0))) := by
  simp only [after_cons, after_nil]
  rfl

/-- their destinations, -/
theorem p1_ad : after (p1 (F := Ideal)) W (Proc.devRef .tc main_v7) = Cert.Chain.arcs (Cert.Chain.dstRow (W (Proc.devRef .tc main_arg0))) := by
  simp only [after_cons, after_nil]
  rfl

/-- their weights, -/
theorem p1_w2 : after (p1 (F := Ideal)) W (Proc.devRef .tc main_v9) = Cert.Chain.w2 (W (Proc.devRef .tc main_arg1)) := by
  simp only [after_cons, after_nil]
  rfl

/-- and the weighted in-degree of every node. -/
theorem p1_deg : after (p1 (F := Ideal)) W (Proc.devRef .tc main_v12)
    = Cert.Chain.deg (Cert.Chain.dstRow (W (Proc.devRef .tc main_arg0))) (W (Proc.devRef .tc main_arg1)) := by
  simp only [after_cons, after_nil]
  rfl

/-! ## The later pieces, each from any contents -/

/-- The second piece turns the degrees it finds into their inverse square roots. -/
theorem p2_dinv : after (p2 (F := Ideal)) W (Proc.devRef .tc main_v18) = dinvOf (W (Proc.devRef .tc main_v12)) := by
  simp only [after_cons, after_nil]
  rfl

/-- The third piece multiplies each arc's weight by the value it finds at each of the arc's two ends. -/
theorem p3_norm : after (p3 (F := Ideal)) W (Proc.devRef .tc main_v34)
    = normOf (W (Proc.devRef .tc main_v18)) (W (Proc.devRef .tc main_v6)) (W (Proc.devRef .tc main_v7)) (W (Proc.devRef .tc main_v9)) := by
  simp only [after_cons, after_nil]
  rfl

/-- The fourth piece aggregates the features it finds over the arcs it finds, with the coefficients it finds. -/
theorem p4_agg : after (p4 (F := Ideal)) W (Proc.devRef .tc main_v47)
    = Cert.Chain.aggOf (W (Proc.devRef .tc main_v7)) (W (Proc.devRef .tc main_v6)) (W (Proc.devRef .tc main_v34)) (W (Proc.devRef .tc main_v4)) := by
  simp only [after_cons, after_nil]
  rfl

end W0

/-! ## The whole stretch -/

open W0

variable (W : Valuation τ sig (Elt Ideal))

-- as above: the closing comparisons never look inside these
attribute [local irreducible] Host.scatterAdd Host.gather Host.reduce Host.reduceAdd concatenate

/-- After the stretch, buffer 1 holds the sources' row of the edge list, -/
theorem w0_src : after (ops0 (F := Ideal)) W (Proc.devRef .tc main_v1) = Cert.Chain.srcRow (W (Proc.devRef .tc main_arg0)) := by
  rw [ops0_cut, after_app, after_app, after_app, p4_keeps (r := main_v1) _ (by decide), p3_keeps (r := main_v1) _ (by decide),
    p2_keeps (r := main_v1) _ (by decide)]
  exact p1_src W

/-- buffer 3 the destinations' row, -/
theorem w0_dst : after (ops0 (F := Ideal)) W (Proc.devRef .tc main_v3) = Cert.Chain.dstRow (W (Proc.devRef .tc main_arg0)) := by
  rw [ops0_cut, after_app, after_app, after_app, p4_keeps (r := main_v3) _ (by decide), p3_keeps (r := main_v3) _ (by decide),
    p2_keeps (r := main_v3) _ (by decide)]
  exact p1_dst W

/-- and buffer 47 the graph's aggregation of the contracted node features. -/
theorem w0_agg : after (ops0 (F := Ideal)) W (Proc.devRef .tc main_v47)
    = Cert.Chain.aggR (Cert.Chain.srcRow (W (Proc.devRef .tc main_arg0))) (Cert.Chain.dstRow (W (Proc.devRef .tc main_arg0))) (W (Proc.devRef .tc main_arg1))
        (dot64 (W (Proc.devRef .tc main_arg4)) (W (Proc.devRef .tc main_arg5))) := by
  rw [ops0_cut, after_app, after_app, after_app, p4_agg, p3_norm, p2_dinv,
    p3_keeps (r := main_v7) _ (by decide), p2_keeps (r := main_v7) _ (by decide), p1_ad,
    p3_keeps (r := main_v6) _ (by decide), p2_keeps (r := main_v6) _ (by decide), p1_as,
    p3_keeps (r := main_v4) _ (by decide), p2_keeps (r := main_v4) _ (by decide), p1_xw,
    p2_keeps (r := main_v9) _ (by decide), p1_w2, p1_deg]
  rfl

end Cert.ReferenceIdeal.HostRead

end
-- ==== Proof.RefHost1.lean ====
/-
  What the reference's second graph-convolution layer leaves in its aggregation buffer.

  The reference is a straight line of whole-array operations, cut into stretches of sixty printed statements each,
  so a layer does not end where a stretch ends: the second layer's operations are the whole second stretch and the
  first operation of the third, the scatter-add that completes the aggregation.  A layer is: the bias added to every
  row of the previous layer's aggregate, the rectifier, the product with the weight; then the graph's aggregation of
  that array — the arcs (every edge and a self-loop per node) and their weights, the nodes' degrees, the value at a
  node (the inverse square root of its degree), an arc's coefficient (its weight times the values at its two ends),
  the rows at the arcs' sources gathered and scaled, and their sum into the rows at the arcs' destinations.

  The contents of a buffer after a list of operations are found by walking the list backwards from the operation
  that writes the buffer, reading each operand the same way, down to buffers the list does not write, which hold
  what they held before.  The stretch is cut into five consecutive pieces, each ending where one of the quantities
  above is complete (the product, the degrees, the value at a node, the coefficients, the scaled rows); each piece is
  walked on its own from arbitrary contents, its few results stated with the names of the shared chain, and the
  results are then substituted into one another, last piece first.  The gathers, scatter-adds and concatenations are
  never opened: they are names to every walk.
-/
import proofs.«103955_j78099685311022_1_alg».proof.Proof.RefOps1
import proofs.«103955_j78099685311022_1_alg».proof.Proof.RefOps2
import proofs.«103955_j78099685311022_1_alg».proof.Proof.Chain
import proofs.«103955_j78099685311022_1_alg».proof.Proof.RefDefs
import Idealize.ShloMosaic.Lib.StableHlo.Run

set_option maxRecDepth 16384
-- the walks are checked one after the other
set_option Elab.async false

noncomputable section

namespace Cert.ReferenceIdeal.HostRead

open Idealize.ShloMosaic Idealize.ShloMosaic.TcCoe Idealize.ShloMosaic.StableHlo Idealize.SL.Sem
open Cert.ReferenceIdeal Cert.ReferenceIdeal.Gen Cert.ReferenceIdeal.RefRun Cert.RefDense

-- the gathers, scatter-adds, reductions and concatenations are names here: no walk looks inside one
attribute [local irreducible] Host.scatterAdd Host.gather Host.reduce Host.reduceAdd concatenate

namespace W1

variable {F : FTy → Type} [FloatOps F]

/-- Running a list and then another is running the two as one list. -/
theorem after_pieces (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The dense part of the layer: bias, rectifier, product with the weight. -/
abbrev w1A : List (HloOp τ sig (Elt F)) :=
  [ StableHlo.unary main_arg6 main_v48 (broadcastInDim S1x64 ![1] bcast_S64_S1x64_1 : (⟨S64, .f32⟩ : BufTy).Contents (Elt F) → (⟨S1x64, .f32⟩ : BufTy).Contents (Elt F)),
    StableHlo.unary main_v48 main_v49 (broadcastInDim S100000x64 ![0, 1] bcast_S1x64_S100000x64_0_1 : (⟨S1x64, .f32⟩ : BufTy).Contents (Elt F) → (⟨S100000x64, .f32⟩ : BufTy).Contents (Elt F)),
    StableHlo.binary main_v47 main_v49 main_v50 (addf : (⟨S100000x64, .f32⟩ : BufTy).Contents (Elt F) → (⟨S100000x64, .f32⟩ : BufTy).Contents (Elt F) → (⟨S100000x64, .f32⟩ : BufTy).Contents (Elt F)),
    StableHlo.nullary main_cst_10 (constant S_ .f32 0x3C23D70A#32),
    StableHlo.TRef.nullary main_call1.cst (constant S_ .f32 0x00000000#32),
    StableHlo.TRef.unary main_call1.cst main_call1.v0 (broadcastInDim S100000x64 ![] bcast_S_S100000x64),
    StableHlo.TRef.binary (.of main_v50 : StableHlo.TRef sig ⟨S100000x64, .f32⟩) main_call1.v0 main_call1.v1 (cmpf .oge),
    StableHlo.TRef.unary (.of main_cst_10 : StableHlo.TRef sig ⟨S_, .f32⟩) main_call1.v2 id,
    StableHlo.TRef.unary main_call1.v2 main_call1.v3 (broadcastInDim S100000x64 ![] bcast_S_S100000x64),
    StableHlo.TRef.binary main_call1.v3 (.of main_v50 : StableHlo.TRef sig ⟨S100000x64, .f32⟩) main_call1.v4 mulf,
    StableHlo.TRef.ternary main_call1.v1 (.of main_v50 : StableHlo.TRef sig ⟨S100000x64, .f32⟩) main_call1.v4 main_call1.call0.v0 select,
    StableHlo.binary main_v51 main_arg7 main_v52 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- The arcs, their weights and the nodes' degrees. -/
abbrev w1B1 : List (HloOp τ sig (Elt F)) :=
  [ StableHlo.nullary main_v53 (iotaInDim S100000 32 0),
    StableHlo.binary main_v1 main_v53 main_v54 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v53 main_v55 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst_11 (constant S_ .f32 0x3F800000#32),
    StableHlo.unary main_cst_11 main_v56 (broadcastInDim S100000 ![] bcast_S_S100000 : (⟨S_, .f32⟩ : BufTy).Contents (Elt F) → (⟨S100000, .f32⟩ : BufTy).Contents (Elt F)),
    StableHlo.binary main_arg1 main_v56 main_v57 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_12 (constant S_ .f32 0x00000000#32),
    StableHlo.unary main_cst_12 main_v58 (broadcastInDim S100000 ![] bcast_S_S100000 : (⟨S_, .f32⟩ : BufTy).Contents (Elt F) → (⟨S100000, .f32⟩ : BufTy).Contents (Elt F)),
    StableHlo.unary main_v55 main_v59 (broadcastInDim S1700000x1 ![0] bcast_S1700000_S1700000x1_0 : (⟨S1700000, .i32⟩ : BufTy).Contents (Elt F) → (⟨S1700000x1, .i32⟩ : BufTy).Contents (Elt F)),
    StableHlo.ternary main_v58 main_v59 main_v57 main_v60 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ]

/-- From the degree to the value at a node: the comparison, the inverse root, the choice. -/
abbrev w1B2 : List (HloOp τ sig (Elt F)) :=
  [ StableHlo.nullary main_cst_13 (constant S_ .f32 0x00000000#32),
    StableHlo.unary main_cst_13 main_v61 (broadcastInDim S100000 ![] bcast_S_S100000 : (⟨S_, .f32⟩ : BufTy).Contents (Elt F) → (⟨S100000, .f32⟩ : BufTy).Contents (Elt F)),
    StableHlo.binary main_v60 main_v61 main_v62 (cmpf .ogt : (⟨S100000, .f32⟩ : BufTy).Contents (Elt F) → (⟨S100000, .f32⟩ : BufTy).Contents (Elt F) → (⟨S100000, .i1⟩ : BufTy).Contents (Elt F)),
    StableHlo.nullary main_cst_14 (constant S_ .f32 0x2B8CBCCC#32),
    StableHlo.unary main_cst_14 main_v63 (broadcastInDim S100000 ![] bcast_S_S100000 : (⟨S_, .f32⟩ : BufTy).Contents (Elt F) → (⟨S100000, .f32⟩ : BufTy).Contents (Elt F)),
    StableHlo.binary main_v60 main_v63 main_v64 (maximumf : (⟨S100000, .f32⟩ : BufTy).Contents (Elt F) → (⟨S100000, .f32⟩ : BufTy).Contents (Elt F) → (⟨S100000, .f32⟩ : BufTy).Contents (Elt F)),
    StableHlo.unary main_v64 main_v65 (Host.rsqrt : (⟨S100000, .f32⟩ : BufTy).Contents (Elt F) → (⟨S100000, .f32⟩ : BufTy).Contents (Elt F)),
    StableHlo.nullary main_cst_15 (constant S_ .f32 0x00000000#32),
    StableHlo.TRef.unary (.of main_cst_15 : StableHlo.TRef sig ⟨S_, .f32⟩) main_call2.v0 id,
    StableHlo.TRef.unary main_call2.v0 main_call2.v1 (broadcastInDim S100000 ![] bcast_S_S100000),
    StableHlo.TRef.ternary (.of main_v62 : StableHlo.TRef sig ⟨S100000, .i1⟩) (.of main_v65 : StableHlo.TRef sig ⟨S100000, .f32⟩) main_call2.v1 main_call2.v2 select ]

/-- The arcs' coefficients. -/
abbrev w1C : List (HloOp τ sig (Elt F)) :=
  [ StableHlo.nullary main_c_16 (constantI S_ 32 0#32),
    StableHlo.unary main_c_16 main_v67 (broadcastInDim S1700000 ![] bcast_S_S1700000 : (⟨S_, .i32⟩ : BufTy).Contents (Elt F) → (⟨S1700000, .i32⟩ : BufTy).Contents (Elt F)),
    StableHlo.binary main_v54 main_v67 main_v68 (cmpi .slt : (⟨S1700000, .i32⟩ : BufTy).Contents (Elt F) → (⟨S1700000, .i32⟩ : BufTy).Contents (Elt F) → (⟨S1700000, .i1⟩ : BufTy).Contents (Elt F)),
    StableHlo.nullary main_c_17 (constantI S_ 32 100000#32),
    StableHlo.unary main_c_17 main_v69 (broadcastInDim S1700000 ![] bcast_S_S1700000 : (⟨S_, .i32⟩ : BufTy).Contents (Elt F) → (⟨S1700000, .i32⟩ : BufTy).Contents (Elt F)),
    StableHlo.binary main_v54 main_v69 main_v70 (addi : (⟨S1700000, .i32⟩ : BufTy).Contents (Elt F) → (⟨S1700000, .i32⟩ : BufTy).Contents (Elt F) → (⟨S1700000, .i32⟩ : BufTy).Contents (Elt F)),
    StableHlo.ternary main_v68 main_v70 main_v54 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v71 main_v72 (broadcastInDim S1700000x1 ![0] bcast_S1700000_S1700000x1_0 : (⟨S1700000, .i32⟩ : BufTy).Contents (Elt F) → (⟨S1700000x1, .i32⟩ : BufTy).Contents (Elt F)),
    StableHlo.binary main_v66 main_v72 main_v73 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v73 main_v57 main_v74 (mulf : (⟨S1700000, .f32⟩ : BufTy).Contents (Elt F) → (⟨S1700000, .f32⟩ : BufTy).Contents (Elt F) → (⟨S1700000, .f32⟩ : BufTy).Contents (Elt F)),
    StableHlo.nullary main_c_18 (constantI S_ 32 0#32),
    StableHlo.unary main_c_18 main_v75 (broadcastInDim S1700000 ![] bcast_S_S1700000 : (⟨S_, .i32⟩ : BufTy).Contents (Elt F) → (⟨S1700000, .i32⟩ : BufTy).Contents (Elt F)),
    StableHlo.binary main_v55 main_v75 main_v76 (cmpi .slt : (⟨S1700000, .i32⟩ : BufTy).Contents (Elt F) → (⟨S1700000, .i32⟩ : BufTy).Contents (Elt F) → (⟨S1700000, .i1⟩ : BufTy).Contents (Elt F)),
    StableHlo.nullary main_c_19 (constantI S_ 32 100000#32),
    StableHlo.unary main_c_19 main_v77 (broadcastInDim S1700000 ![] bcast_S_S1700000 : (⟨S_, .i32⟩ : BufTy).Contents (Elt F) → (⟨S1700000, .i32⟩ : BufTy).Contents (Elt F)),
    StableHlo.binary main_v55 main_v77 main_v78 (addi : (⟨S1700000, .i32⟩ : BufTy).Contents (Elt F) → (⟨S1700000, .i32⟩ : BufTy).Contents (Elt F) → (⟨S1700000, .i32⟩ : BufTy).Contents (Elt F)),
    StableHlo.ternary main_v76 main_v78 main_v55 main_v79 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v79 main_v80 (broadcastInDim S1700000x1 ![0] bcast_S1700000_S1700000x1_0 : (⟨S1700000, .i32⟩ : BufTy).Contents (Elt F) → (⟨S1700000x1, .i32⟩ : BufTy).Contents (Elt F)),
    StableHlo.binary main_v66 main_v80 main_v81 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v74 main_v81 main_v82 (mulf : (⟨S1700000, .f32⟩ : BufTy).Contents (Elt F) → (⟨S1700000, .f32⟩ : BufTy).Contents (Elt F) → (⟨S1700000, .f32⟩ : BufTy).Contents (Elt F)) ]

/-- The rows gathered and scaled, the zeros, the destinations' column. -/
abbrev w1D : List (HloOp τ sig (Elt F)) :=
  [ StableHlo.unary main_v82 main_v83 (broadcastInDim S1700000x1 ![0] bcast_S1700000_S1700000x1_0 : (⟨S1700000, .f32⟩ : BufTy).Contents (Elt F) → (⟨S1700000x1, .f32⟩ : BufTy).Contents (Elt F)),
    StableHlo.nullary main_c_20 (constantI S_ 32 0#32),
    StableHlo.unary main_c_20 main_v84 (broadcastInDim S1700000 ![] bcast_S_S1700000 : (⟨S_, .i32⟩ : BufTy).Contents (Elt F) → (⟨S1700000, .i32⟩ : BufTy).Contents (Elt F)),
    StableHlo.binary main_v54 main_v84 main_v85 (cmpi .slt : (⟨S1700000, .i32⟩ : BufTy).Contents (Elt F) → (⟨S1700000, .i32⟩ : BufTy).Contents (Elt F) → (⟨S1700000, .i1⟩ : BufTy).Contents (Elt F)),
    StableHlo.nullary main_c_21 (constantI S_ 32 100000#32),
    StableHlo.unary main_c_21 main_v86 (broadcastInDim S1700000 ![] bcast_S_S1700000 : (⟨S_, .i32⟩ : BufTy).Contents (Elt F) → (⟨S1700000, .i32⟩ : BufTy).Contents (Elt F)),
    StableHlo.binary main_v54 main_v86 main_v87 (addi : (⟨S1700000, .i32⟩ : BufTy).Contents (Elt F) → (⟨S1700000, .i32⟩ : BufTy).Contents (Elt F) → (⟨S1700000, .i32⟩ : BufTy).Contents (Elt F)),
    StableHlo.ternary main_v85 main_v87 main_v54 main_v88 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v88 main_v89 (broadcastInDim S1700000x1 ![0] bcast_S1700000_S1700000x1_0 : (⟨S1700000, .i32⟩ : BufTy).Contents (Elt F) → (⟨S1700000x1, .i32⟩ : BufTy).Contents (Elt F)),
    StableHlo.binary main_v52 main_v89 main_v90 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v83 main_v91 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v91 main_v90 main_v92 (mulf : (⟨S1700000x64, .f32⟩ : BufTy).Contents (Elt F) → (⟨S1700000x64, .f32⟩ : BufTy).Contents (Elt F) → (⟨S1700000x64, .f32⟩ : BufTy).Contents (Elt F)),
    StableHlo.nullary main_cst_22 (constant S_ .f32 0x00000000#32),
    StableHlo.unary main_cst_22 main_v93 (broadcastInDim S100000x64 ![] bcast_S_S100000x64 : (⟨S_, .f32⟩ : BufTy).Contents (Elt F) → (⟨S100000x64, .f32⟩ : BufTy).Contents (Elt F)),
    StableHlo.unary main_v55 main_v94 (broadcastInDim S1700000x1 ![0] bcast_S1700000_S1700000x1_0 : (⟨S1700000, .i32⟩ : BufTy).Contents (Elt F) → (⟨S1700000x1, .i32⟩ : BufTy).Contents (Elt F)) ]

/-- The stretch is its pieces in order. -/
theorem w1_cut : (ops1 : List (HloOp τ sig (Elt F))) = w1A ++ (w1B1 ++ (w1B2 ++ (w1C ++ (w1D)))) := rfl

section
variable (W : Valuation τ sig (Elt Ideal))

/-- The last piece: every arc's source row, scaled by the arc's coefficient, -/
theorem w1D_u : after (w1D (F := Ideal)) W (Proc.devRef .tc main_v92)
    = (mulf (broadcastInDim S1700000x64 ![0, 1] bcast_S1700000x1_S1700000x64_0_1 (broadcastInDim S1700000x1 ![0] bcast_S1700000_S1700000x1_0 (W (Proc.devRef .tc main_v82))))
        (Host.gather gather_S100000x64_S1700000x1_S1700000x64_1_0_n_n_0_1_164 (W (Proc.devRef .tc main_v52)) (Cert.Chain.wrap (W (Proc.devRef .tc main_v54)))) : F32 S1700000x64) := by
  simp only [after_cons, after_nil]
  rfl
/-- the zeros the sums start from, -/
theorem w1D_z : after (w1D (F := Ideal)) W (Proc.devRef .tc main_v93)
    = (broadcastInDim S100000x64 ![] bcast_S_S100000x64 (constant (F := Ideal) S_ .f32 0x00000000#32) : F32 S100000x64) := by
  simp only [after_cons, after_nil]
  rfl
/-- and the arcs' destinations as a column. -/
theorem w1D_i : after (w1D (F := Ideal)) W (Proc.devRef .tc main_v94)
    = (broadcastInDim S1700000x1 ![0] bcast_S1700000_S1700000x1_0 (W (Proc.devRef .tc main_v55)) : IVec S1700000x1 32) := by
  simp only [after_cons, after_nil]
  rfl

/-- The coefficients: an arc's weight times the value at each of its two ends. -/
theorem w1C_n : after (w1C (F := Ideal)) W (Proc.devRef .tc main_v82)
    = (mulf (mulf (Host.gather gather_S100000_S1700000x1_S1700000_n_0_n_n_0_1_1 (W (Proc.devRef .tc main_v66)) (Cert.Chain.wrap (W (Proc.devRef .tc main_v54)))) (W (Proc.devRef .tc main_v57)))
        (Host.gather gather_S100000_S1700000x1_S1700000_n_0_n_n_0_1_1 (W (Proc.devRef .tc main_v66)) (Cert.Chain.wrap (W (Proc.devRef .tc main_v55)))) : F32 S1700000) := by
  simp only [after_cons, after_nil]
  rfl
theorem w1C_kx : after (w1C (F := Ideal)) W (Proc.devRef .tc main_v52) = W (Proc.devRef .tc main_v52) := by
  simp only [after_cons, after_nil]
  rfl
theorem w1C_ks : after (w1C (F := Ideal)) W (Proc.devRef .tc main_v54) = W (Proc.devRef .tc main_v54) := by
  simp only [after_cons, after_nil]
  rfl
theorem w1C_kd : after (w1C (F := Ideal)) W (Proc.devRef .tc main_v55) = W (Proc.devRef .tc main_v55) := by
  simp only [after_cons, after_nil]
  rfl

/-- The value at a node: the inverse square root of its degree (kept away from 0) where the degree is positive, zero elsewhere. -/
theorem w1B2_v : after (w1B2 (F := Ideal)) W (Proc.devRef .tc main_v66)
    = (select (cmpf .ogt (W (Proc.devRef .tc main_v60)) (broadcastInDim S100000 ![] bcast_S_S100000 (constant (F := Ideal) S_ .f32 0x00000000#32)))
        (Host.rsqrt (maximumf (W (Proc.devRef .tc main_v60)) (broadcastInDim S100000 ![] bcast_S_S100000 (constant (F := Ideal) S_ .f32 0x2B8CBCCC#32))))
        (broadcastInDim S100000 ![] bcast_S_S100000 (id (constant (F := Ideal) S_ .f32 0x00000000#32))) : F32 S100000) := by
  simp only [after_cons, after_nil]
  rfl
theorem w1B2_kx : after (w1B2 (F := Ideal)) W (Proc.devRef .tc main_v52) = W (Proc.devRef .tc main_v52) := by
  simp only [after_cons, after_nil]
  rfl
theorem w1B2_ks : after (w1B2 (F := Ideal)) W (Proc.devRef .tc main_v54) = W (Proc.devRef .tc main_v54) := by
  simp only [after_cons, after_nil]
  rfl
theorem w1B2_kd : after (w1B2 (F := Ideal)) W (Proc.devRef .tc main_v55) = W (Proc.devRef .tc main_v55) := by
  simp only [after_cons, after_nil]
  rfl
theorem w1B2_kw : after (w1B2 (F := Ideal)) W (Proc.devRef .tc main_v57) = W (Proc.devRef .tc main_v57) := by
  simp only [after_cons, after_nil]
  rfl

/-- The arcs: their sources, -/
theorem w1B1_s : after (w1B1 (F := Ideal)) W (Proc.devRef .tc main_v54)
    = Cert.Chain.arcs (W (Proc.devRef .tc main_v1)) := by
  simp only [after_cons, after_nil]
  rfl
/-- their destinations, -/
theorem w1B1_d : after (w1B1 (F := Ideal)) W (Proc.devRef .tc main_v55)
    = Cert.Chain.arcs (W (Proc.devRef .tc main_v3)) := by
  simp only [after_cons, after_nil]
  rfl
/-- their weights, -/
theorem w1B1_w : after (w1B1 (F := Ideal)) W (Proc.devRef .tc main_v57)
    = Cert.Chain.w2 (W (Proc.devRef .tc main_arg1)) := by
  simp only [after_cons, after_nil]
  rfl
/-- and the weighted in-degree of every node. -/
theorem w1B1_deg : after (w1B1 (F := Ideal)) W (Proc.devRef .tc main_v60)
    = Cert.Chain.deg (W (Proc.devRef .tc main_v3)) (W (Proc.devRef .tc main_arg1)) := by
  simp only [after_cons, after_nil]
  rfl
theorem w1B1_kx : after (w1B1 (F := Ideal)) W (Proc.devRef .tc main_v52) = W (Proc.devRef .tc main_v52) := by
  simp only [after_cons, after_nil]
  rfl

/-- The dense part: the bias added to every row, the rectifier, the product with the weight. -/
theorem w1A_x : after (w1A (F := Ideal)) W (Proc.devRef .tc main_v52)
    = dot64 (relu64 (bias64 (W (Proc.devRef .tc main_v47)) (W (Proc.devRef .tc main_arg6)))) (W (Proc.devRef .tc main_arg7)) := by
  simp only [after_cons, after_nil]
  rfl
theorem w1A_k1 : after (w1A (F := Ideal)) W (Proc.devRef .tc main_v1) = W (Proc.devRef .tc main_v1) := by
  simp only [after_cons, after_nil]
  rfl
theorem w1A_k3 : after (w1A (F := Ideal)) W (Proc.devRef .tc main_v3) = W (Proc.devRef .tc main_v3) := by
  simp only [after_cons, after_nil]
  rfl
theorem w1A_ke : after (w1A (F := Ideal)) W (Proc.devRef .tc main_arg1) = W (Proc.devRef .tc main_arg1) := by
  simp only [after_cons, after_nil]
  rfl

/-- The next stretch opens with the scatter-add that finishes the layer, and nothing after it writes that buffer again. -/
theorem ops2_head (Y : Valuation τ sig (Elt Ideal)) : after (ops2 (F := Ideal)) Y (Proc.devRef .tc main_v95)
    = (Host.scatterAdd scatter_S100000x64_S1700000x1_S1700000x64_1_0_0_1 (Y (Proc.devRef .tc main_v93)) (Y (Proc.devRef .tc main_v94)) (Y (Proc.devRef .tc main_v92)) : F32 S100000x64) := by
  simp only [after_cons, after_nil]
  rfl

end

end W1

open W1 in
/-- The second layer's aggregation buffer: the graph's aggregation of the first layer's output passed through the
    dense part.  The pieces' results are substituted one after the other, last piece first; what is left differs from
    the right-hand side only in the names of the shared chain, which unfold to the same operations. -/
theorem w1_agg (W : Valuation τ sig (Elt Ideal)) : after (ops2 (F := Ideal)) (after (ops1 (F := Ideal)) W) (Proc.devRef .tc main_v95)
    = Cert.Chain.aggR (W (Proc.devRef .tc main_v1)) (W (Proc.devRef .tc main_v3)) (W (Proc.devRef .tc main_arg1))
        (dot64 (relu64 (bias64 (W (Proc.devRef .tc main_v47)) (W (Proc.devRef .tc main_arg6)))) (W (Proc.devRef .tc main_arg7))) := by
  rw [ops2_head, w1_cut, after_pieces, after_pieces, after_pieces, after_pieces]
  rw [w1D_u,
    w1D_z,
    w1D_i,
    w1C_n,
    w1C_kx,
    w1C_ks,
    w1C_kd,
    w1B2_v,
    w1B2_kx,
    w1B2_ks,
    w1B2_kd,
    w1B2_kw,
    w1B1_s,
    w1B1_d,
    w1B1_w,
    w1B1_deg,
    w1B1_kx,
    w1A_x,
    w1A_k1,
    w1A_k3,
    w1A_ke]
  rfl

end Cert.ReferenceIdeal.HostRead

end
-- ==== Proof.RefHost3.lean ====
/-
  What the reference's last stretch of operations leaves in the result buffer.

  The stretch is a straight line of 71 whole-array operations: it finishes the third aggregation, adds the third
  bias and applies the rectifier, pairs the final feature rows of each match's two nodes, runs the two dense layers
  of the head, and normalizes by a log-softmax.  As for the first stretch, the line is cut into consecutive pieces,
  each walked on its own from ANY contents with the buffers earlier pieces wrote as plain inputs; a piece leaves
  alone every buffer it does not write, the arguments among them; and the reads compose.  The feature array the
  bias is added to is whatever the stretch itself leaves in the aggregation's buffer, so the result is stated over
  that buffer's final contents.
-/
import proofs.«103955_j78099685311022_1_alg».proof.Proof.RefOps3
import proofs.«103955_j78099685311022_1_alg».proof.Proof.Chain
import proofs.«103955_j78099685311022_1_alg».proof.Proof.RefDefs
import Idealize.ShloMosaic.Lib.StableHlo.Run

set_option maxRecDepth 16384
-- the walks are checked one after the other
set_option Elab.async false

noncomputable section

namespace Cert.ReferenceIdeal.HostRead

open Idealize.ShloMosaic Idealize.ShloMosaic.TcCoe Idealize.ShloMosaic.StableHlo Idealize.SL.Sem
open Cert.ReferenceIdeal Cert.ReferenceIdeal.Gen Cert.ReferenceIdeal.RefRun Cert.RefDense

/-! ## The pieces and their reads (the names of this part live in a namespace of their own) -/

namespace W3

variable {F : FTy → Type} [FloatOps F]

/-- Folding a concatenation: fold the first list, then the second from where the first ended. -/
theorem after_app {F : FTy → Type} [FloatOps F] (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- An operation whose one written buffer is in a list writes inside that list. -/
private theorem wr {F : FTy → Type} [FloatOps F] {L : List (Ref sig .tc)} {op : HloOp τ sig (Elt F)} (y : Ref sig .tc) (hy : y ∈ L)
    (hw : op.writes = {Proc.devRef .tc y} := by rfl) :
    op.writes ⊆ (L.map (Proc.devRef (τ := τ) .tc)).toFinset := by
  rw [hw]; exact Finset.singleton_subset_iff.2 (List.mem_toFinset.2 (List.mem_map.2 ⟨y, hy, rfl⟩))

/-- The first two operations: the last scatter-add of the third aggregation. -/
abbrev q1 : List (HloOp τ sig (Elt F)) :=
  [ StableHlo.unary main_v103 main_v142 (broadcastInDim S1700000x1 ![0] bcast_S1700000_S1700000x1_0 : (⟨S1700000, .i32⟩ : BufTy).Contents (Elt F) → (⟨S1700000x1, .i32⟩ : BufTy).Contents (Elt F)),
    StableHlo.ternary main_v141 main_v142 main_v140 main_v143 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- The buffers those operations write, in order. -/
abbrev q1w : List (Ref sig .tc) :=
  [ main_v142, main_v143 ]

theorem q1_writes : (q1 : List (HloOp τ sig (Elt F))).Forall fun op =>
    op.writes ⊆ (q1w.map (Proc.devRef (τ := τ) .tc)).toFinset :=
  ⟨wr main_v142 (by decide), wr main_v143 (by decide)⟩

/-- A buffer they do not write holds afterwards what it held before. -/
theorem q1_keeps (V : Valuation τ sig (Elt F)) {r : Ref sig .tc} (hr : r ∉ q1w) :
    after q1 V (Proc.devRef .tc r) = V (Proc.devRef .tc r) :=
  after_of_writes_sub q1 V q1_writes hr

/-- The next eleven: the third bias row added to every row, and the rectifier. -/
abbrev q2 : List (HloOp τ sig (Elt F)) :=
  [ StableHlo.unary main_arg10 main_v144 (broadcastInDim S1x64 ![1] bcast_S64_S1x64_1 : (⟨S64, .f32⟩ : BufTy).Contents (Elt F) → (⟨S1x64, .f32⟩ : BufTy).Contents (Elt F)),
    StableHlo.unary main_v144 main_v145 (broadcastInDim S100000x64 ![0, 1] bcast_S1x64_S100000x64_0_1 : (⟨S1x64, .f32⟩ : BufTy).Contents (Elt F) → (⟨S100000x64, .f32⟩ : BufTy).Contents (Elt F)),
    StableHlo.binary main_v143 main_v145 main_v146 (addf : (⟨S100000x64, .f32⟩ : BufTy).Contents (Elt F) → (⟨S100000x64, .f32⟩ : BufTy).Contents (Elt F) → (⟨S100000x64, .f32⟩ : BufTy).Contents (Elt F)),
    StableHlo.nullary main_cst_36 (constant S_ .f32 0x3C23D70A#32),
    StableHlo.TRef.nullary main_call5.cst (constant S_ .f32 0x00000000#32),
    StableHlo.TRef.unary main_call5.cst main_call5.v0 (broadcastInDim S100000x64 ![] bcast_S_S100000x64),
    StableHlo.TRef.binary (.of main_v146 : StableHlo.TRef sig ⟨S100000x64, .f32⟩) main_call5.v0 main_call5.v1 (cmpf .oge),
    StableHlo.TRef.unary (.of main_cst_36 : StableHlo.TRef sig ⟨S_, .f32⟩) main_call5.v2 id,
    StableHlo.TRef.unary main_call5.v2 main_call5.v3 (broadcastInDim S100000x64 ![] bcast_S_S100000x64),
    StableHlo.TRef.binary main_call5.v3 (.of main_v146 : StableHlo.TRef sig ⟨S100000x64, .f32⟩) main_call5.v4 mulf,
    StableHlo.TRef.ternary main_call5.v1 (.of main_v146 : StableHlo.TRef sig ⟨S100000x64, .f32⟩) main_call5.v4 main_call5.call0.v0 select ]

/-- The buffers those operations write, in order. -/
abbrev q2w : List (Ref sig .tc) :=
  [ main_v144, main_v145, main_v146, main_cst_36, main_call5_cst, main_call5_v0, main_call5_v1, main_call5_v2, main_call5_v3, main_call5_v4, main_v147 ]

theorem q2_writes : (q2 : List (HloOp τ sig (Elt F))).Forall fun op =>
    op.writes ⊆ (q2w.map (Proc.devRef (τ := τ) .tc)).toFinset :=
  ⟨wr main_v144 (by decide), wr main_v145 (by decide), wr main_v146 (by decide), wr main_cst_36 (by decide), wr main_call5_cst (by decide), wr main_call5_v0 (by decide), wr main_call5_v1 (by decide), wr main_call5_v2 (by decide), wr main_call5_v3 (by decide), wr main_call5_v4 (by decide), wr main_v147 (by decide)⟩

/-- A buffer they do not write holds afterwards what it held before. -/
theorem q2_keeps (V : Valuation τ sig (Elt F)) {r : Ref sig .tc} (hr : r ∉ q2w) :
    after q2 V (Proc.devRef .tc r) = V (Proc.devRef .tc r) :=
  after_of_writes_sub q2 V q2_writes hr

/-- The next nineteen: for each match the positions of its two nodes, their feature rows gathered, side by side. -/
abbrev q3 : List (HloOp τ sig (Elt F)) :=
  [ StableHlo.nullary main_c_37 (constantI S_ 32 0#32),
    StableHlo.unary main_c_37 main_v148 (broadcastInDim S16384 ![] bcast_S_S16384 : (⟨S_, .i32⟩ : BufTy).Contents (Elt F) → (⟨S16384, .i32⟩ : BufTy).Contents (Elt F)),
    StableHlo.binary main_arg2 main_v148 main_v149 (cmpi .slt : (⟨S16384, .i32⟩ : BufTy).Contents (Elt F) → (⟨S16384, .i32⟩ : BufTy).Contents (Elt F) → (⟨S16384, .i1⟩ : BufTy).Contents (Elt F)),
    StableHlo.nullary main_c_38 (constantI S_ 32 100000#32),
    StableHlo.unary main_c_38 main_v150 (broadcastInDim S16384 ![] bcast_S_S16384 : (⟨S_, .i32⟩ : BufTy).Contents (Elt F) → (⟨S16384, .i32⟩ : BufTy).Contents (Elt F)),
    StableHlo.binary main_arg2 main_v150 main_v151 (addi : (⟨S16384, .i32⟩ : BufTy).Contents (Elt F) → (⟨S16384, .i32⟩ : BufTy).Contents (Elt F) → (⟨S16384, .i32⟩ : BufTy).Contents (Elt F)),
    StableHlo.ternary main_v149 main_v151 main_arg2 main_v152 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v152 main_v153 (broadcastInDim S16384x1 ![0] bcast_S16384_S16384x1_0 : (⟨S16384, .i32⟩ : BufTy).Contents (Elt F) → (⟨S16384x1, .i32⟩ : BufTy).Contents (Elt F)),
    StableHlo.binary main_v147 main_v153 main_v154 ((fun x i => Host.gather gather_S100000x64_S16384x1_S16384x64_1_0_n_n_0_1_164 x i) : (⟨S100000x64, .f32⟩ : BufTy).Contents (Elt F) → (⟨S16384x1, .i32⟩ : BufTy).Contents (Elt F) → (⟨S16384x64, .f32⟩ : BufTy).Contents (Elt F)),
    StableHlo.nullary main_c_39 (constantI S_ 32 0#32),
    StableHlo.unary main_c_39 main_v155 (broadcastInDim S16384 ![] bcast_S_S16384 : (⟨S_, .i32⟩ : BufTy).Contents (Elt F) → (⟨S16384, .i32⟩ : BufTy).Contents (Elt F)),
    StableHlo.binary main_arg3 main_v155 main_v156 (cmpi .slt : (⟨S16384, .i32⟩ : BufTy).Contents (Elt F) → (⟨S16384, .i32⟩ : BufTy).Contents (Elt F) → (⟨S16384, .i1⟩ : BufTy).Contents (Elt F)),
    StableHlo.nullary main_c_40 (constantI S_ 32 100000#32),
    StableHlo.unary main_c_40 main_v157 (broadcastInDim S16384 ![] bcast_S_S16384 : (⟨S_, .i32⟩ : BufTy).Contents (Elt F) → (⟨S16384, .i32⟩ : BufTy).Contents (Elt F)),
    StableHlo.binary main_arg3 main_v157 main_v158 (addi : (⟨S16384, .i32⟩ : BufTy).Contents (Elt F) → (⟨S16384, .i32⟩ : BufTy).Contents (Elt F) → (⟨S16384, .i32⟩ : BufTy).Contents (Elt F)),
    StableHlo.ternary main_v156 main_v158 main_arg3 main_v159 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v159 main_v160 (broadcastInDim S16384x1 ![0] bcast_S16384_S16384x1_0 : (⟨S16384, .i32⟩ : BufTy).Contents (Elt F) → (⟨S16384x1, .i32⟩ : BufTy).Contents (Elt F)),
    StableHlo.binary main_v147 main_v160 main_v161 ((fun x i => Host.gather gather_S100000x64_S16384x1_S16384x64_1_0_n_n_0_1_164 x i) : (⟨S100000x64, .f32⟩ : BufTy).Contents (Elt F) → (⟨S16384x1, .i32⟩ : BufTy).Contents (Elt F) → (⟨S16384x64, .f32⟩ : BufTy).Contents (Elt F)),
    StableHlo.binary main_v154 main_v161 main_v162 ((fun a b => concatenate S16384x128 1 [⟨S16384x64, a⟩, ⟨S16384x64, b⟩] concatenates_S16384x64_S16384x64_S16384x128_d1) : (⟨S16384x64, .f32⟩ : BufTy).Contents (Elt F) → (⟨S16384x64, .f32⟩ : BufTy).Contents (Elt F) → (⟨S16384x128, .f32⟩ : BufTy).Contents (Elt F)) ]

/-- The buffers those operations write, in order. -/
abbrev q3w : List (Ref sig .tc) :=
  [ main_c_37, main_v148, main_v149, main_c_38, main_v150, main_v151, main_v152, main_v153, main_v154, main_c_39, main_v155, main_v156, main_c_40, main_v157, main_v158, main_v159, main_v160, main_v161, main_v162 ]

theorem q3_writes : (q3 : List (HloOp τ sig (Elt F))).Forall fun op =>
    op.writes ⊆ (q3w.map (Proc.devRef (τ := τ) .tc)).toFinset :=
  ⟨wr main_c_37 (by decide), wr main_v148 (by decide), wr main_v149 (by decide), wr main_c_38 (by decide), wr main_v150 (by decide), wr main_v151 (by decide), wr main_v152 (by decide), wr main_v153 (by decide), wr main_v154 (by decide), wr main_c_39 (by decide), wr main_v155 (by decide), wr main_v156 (by decide), wr main_c_40 (by decide), wr main_v157 (by decide), wr main_v158 (by decide), wr main_v159 (by decide), wr main_v160 (by decide), wr main_v161 (by decide), wr main_v162 (by decide)⟩

/-- A buffer they do not write holds afterwards what it held before. -/
theorem q3_keeps (V : Valuation τ sig (Elt F)) {r : Ref sig .tc} (hr : r ∉ q3w) :
    after q3 V (Proc.devRef .tc r) = V (Proc.devRef .tc r) :=
  after_of_writes_sub q3 V q3_writes hr

/-- The next twelve: the head's first dense layer and its rectifier. -/
abbrev q4 : List (HloOp τ sig (Elt F)) :=
  [ StableHlo.binary main_v162 main_arg11 main_v163 ((fun l r => Host.dotGeneral dot_S16384x128_S128x6_S16384x6_1_0_0_1_n_n none l r) : (⟨S16384x128, .f32⟩ : BufTy).Contents (Elt F) → (⟨S128x6, .f32⟩ : BufTy).Contents (Elt F) → (⟨S16384x6, .f32⟩ : BufTy).Contents (Elt F)),
    StableHlo.unary main_arg12 main_v164 (broadcastInDim S1x6 ![1] bcast_S6_S1x6_1 : (⟨S6, .f32⟩ : BufTy).Contents (Elt F) → (⟨S1x6, .f32⟩ : BufTy).Contents (Elt F)),
    StableHlo.unary main_v164 main_v165 (broadcastInDim S16384x6 ![0, 1] bcast_S1x6_S16384x6_0_1 : (⟨S1x6, .f32⟩ : BufTy).Contents (Elt F) → (⟨S16384x6, .f32⟩ : BufTy).Contents (Elt F)),
    StableHlo.binary main_v163 main_v165 main_v166 (addf : (⟨S16384x6, .f32⟩ : BufTy).Contents (Elt F) → (⟨S16384x6, .f32⟩ : BufTy).Contents (Elt F) → (⟨S16384x6, .f32⟩ : BufTy).Contents (Elt F)),
    StableHlo.nullary main_cst_41 (constant S_ .f32 0x3C23D70A#32),
    StableHlo.TRef.nullary main_call6.cst (constant S_ .f32 0x00000000#32),
    StableHlo.TRef.unary main_call6.cst main_call6.v0 (broadcastInDim S16384x6 ![] bcast_S_S16384x6),
    StableHlo.TRef.binary (.of main_v166 : StableHlo.TRef sig ⟨S16384x6, .f32⟩) main_call6.v0 main_call6.v1 (cmpf .oge),
    StableHlo.TRef.unary (.of main_cst_41 : StableHlo.TRef sig ⟨S_, .f32⟩) main_call6.v2 id,
    StableHlo.TRef.unary main_call6.v2 main_call6.v3 (broadcastInDim S16384x6 ![] bcast_S_S16384x6),
    StableHlo.TRef.binary main_call6.v3 (.of main_v166 : StableHlo.TRef sig ⟨S16384x6, .f32⟩) main_call6.v4 mulf,
    StableHlo.TRef.ternary main_call6.v1 (.of main_v166 : StableHlo.TRef sig ⟨S16384x6, .f32⟩) main_call6.v4 main_call6.call0.v0 select ]

/-- The buffers those operations write, in order. -/
abbrev q4w : List (Ref sig .tc) :=
  [ main_v163, main_v164, main_v165, main_v166, main_cst_41, main_call6_cst, main_call6_v0, main_call6_v1, main_call6_v2, main_call6_v3, main_call6_v4, main_v167 ]

theorem q4_writes : (q4 : List (HloOp τ sig (Elt F))).Forall fun op =>
    op.writes ⊆ (q4w.map (Proc.devRef (τ := τ) .tc)).toFinset :=
  ⟨wr main_v163 (by decide), wr main_v164 (by decide), wr main_v165 (by decide), wr main_v166 (by decide), wr main_cst_41 (by decide), wr main_call6_cst (by decide), wr main_call6_v0 (by decide), wr main_call6_v1 (by decide), wr main_call6_v2 (by decide), wr main_call6_v3 (by decide), wr main_call6_v4 (by decide), wr main_v167 (by decide)⟩

/-- A buffer they do not write holds afterwards what it held before. -/
theorem q4_keeps (V : Valuation τ sig (Elt F)) {r : Ref sig .tc} (hr : r ∉ q4w) :
    after q4 V (Proc.devRef .tc r) = V (Proc.devRef .tc r) :=
  after_of_writes_sub q4 V q4_writes hr

/-- The next twelve: the head's second dense layer and its rectifier. -/
abbrev q5 : List (HloOp τ sig (Elt F)) :=
  [ StableHlo.binary main_v167 main_arg13 main_v168 ((fun l r => Host.dotGeneral dot_S16384x6_S6x3_S16384x3_1_0_0_1_n_n none l r) : (⟨S16384x6, .f32⟩ : BufTy).Contents (Elt F) → (⟨S6x3, .f32⟩ : BufTy).Contents (Elt F) → (⟨S16384x3, .f32⟩ : BufTy).Contents (Elt F)),
    StableHlo.unary main_arg14 main_v169 (broadcastInDim S1x3 ![1] bcast_S3_S1x3_1 : (⟨S3, .f32⟩ : BufTy).Contents (Elt F) → (⟨S1x3, .f32⟩ : BufTy).Contents (Elt F)),
    StableHlo.unary main_v169 main_v170 (broadcastInDim S16384x3 ![0, 1] bcast_S1x3_S16384x3_0_1 : (⟨S1x3, .f32⟩ : BufTy).Contents (Elt F) → (⟨S16384x3, .f32⟩ : BufTy).Contents (Elt F)),
    StableHlo.binary main_v168 main_v170 main_v171 (addf : (⟨S16384x3, .f32⟩ : BufTy).Contents (Elt F) → (⟨S16384x3, .f32⟩ : BufTy).Contents (Elt F) → (⟨S16384x3, .f32⟩ : BufTy).Contents (Elt F)),
    StableHlo.nullary main_cst_42 (constant S_ .f32 0x3C23D70A#32),
    StableHlo.TRef.nullary main_call7.cst (constant S_ .f32 0x00000000#32),
    StableHlo.TRef.unary main_call7.cst main_call7.v0 (broadcastInDim S16384x3 ![] bcast_S_S16384x3),
    StableHlo.TRef.binary (.of main_v171 : StableHlo.TRef sig ⟨S16384x3, .f32⟩) main_call7.v0 main_call7.v1 (cmpf .oge),
    StableHlo.TRef.unary (.of main_cst_42 : StableHlo.TRef sig ⟨S_, .f32⟩) main_call7.v2 id,
    StableHlo.TRef.unary main_call7.v2 main_call7.v3 (broadcastInDim S16384x3 ![] bcast_S_S16384x3),
    StableHlo.TRef.binary main_call7.v3 (.of main_v171 : StableHlo.TRef sig ⟨S16384x3, .f32⟩) main_call7.v4 mulf,
    StableHlo.TRef.ternary main_call7.v1 (.of main_v171 : StableHlo.TRef sig ⟨S16384x3, .f32⟩) main_call7.v4 main_call7.call0.v0 select ]

/-- The buffers those operations write, in order. -/
abbrev q5w : List (Ref sig .tc) :=
  [ main_v168, main_v169, main_v170, main_v171, main_cst_42, main_call7_cst, main_call7_v0, main_call7_v1, main_call7_v2, main_call7_v3, main_call7_v4, main_v172 ]

theorem q5_writes : (q5 : List (HloOp τ sig (Elt F))).Forall fun op =>
    op.writes ⊆ (q5w.map (Proc.devRef (τ := τ) .tc)).toFinset :=
  ⟨wr main_v168 (by decide), wr main_v169 (by decide), wr main_v170 (by decide), wr main_v171 (by decide), wr main_cst_42 (by decide), wr main_call7_cst (by decide), wr main_call7_v0 (by decide), wr main_call7_v1 (by decide), wr main_call7_v2 (by decide), wr main_call7_v3 (by decide), wr main_call7_v4 (by decide), wr main_v172 (by decide)⟩

/-- A buffer they do not write holds afterwards what it held before. -/
theorem q5_keeps (V : Valuation τ sig (Elt F)) {r : Ref sig .tc} (hr : r ∉ q5w) :
    after q5 V (Proc.devRef .tc r) = V (Proc.devRef .tc r) :=
  after_of_writes_sub q5 V q5_writes hr

/-- The last fifteen: the log-softmax down each column. -/
abbrev q6 : List (HloOp τ sig (Elt F)) :=
  [ StableHlo.TRef.nullary main_call8.cst (constant S_ .f32 0xFF800000#32),
    StableHlo.TRef.binary (.of main_v172 : StableHlo.TRef sig ⟨S16384x3, .f32⟩) main_call8.cst main_call8.v0 (fun x v => Host.reduce FloatOps.maximumf x v reducesTo_S16384x3_S3_d0 h_S_),
    StableHlo.TRef.nullary main_call8.cst_0 (constant S_ .f32 0xFF800000#32),
    StableHlo.TRef.unary main_call8.cst_0 main_call8.v1 (broadcastInDim S3 ![] bcast_S_S3),
    StableHlo.TRef.binary main_call8.v1 main_call8.v0 main_call8.v2 maximumf,
    StableHlo.TRef.unary main_call8.v2 main_call8.v3 (broadcastInDim S1x3 ![1] bcast_S3_S1x3_1),
    StableHlo.TRef.unary main_call8.v3 main_call8.v4 (broadcastInDim S16384x3 ![0, 1] bcast_S1x3_S16384x3_0_1),
    StableHlo.TRef.binary (.of main_v172 : StableHlo.TRef sig ⟨S16384x3, .f32⟩) main_call8.v4 main_call8.v5 subf,
    StableHlo.TRef.unary main_call8.v5 main_call8.v6 Host.exp,
    StableHlo.TRef.nullary main_call8.cst_1 (constant S_ .f32 0x00000000#32),
    StableHlo.TRef.binary main_call8.v6 main_call8.cst_1 main_call8.v7 (fun x v => Host.reduceAdd x v reducesTo_S16384x3_S3_d0 h_S_),
    StableHlo.TRef.unary main_call8.v7 main_call8.v8 (broadcastInDim S1x3 ![1] bcast_S3_S1x3_1),
    StableHlo.TRef.unary main_call8.v8 main_call8.v9 Host.log,
    StableHlo.TRef.unary main_call8.v9 main_call8.v10 (broadcastInDim S16384x3 ![0, 1] bcast_S1x3_S16384x3_0_1),
    StableHlo.TRef.binary main_call8.v5 main_call8.v10 main_call8.v11 subf ]

/-- The buffers those operations write, in order. -/
abbrev q6w : List (Ref sig .tc) :=
  [ main_call8_cst, main_call8_v0, main_call8_cst_0, main_call8_v1, main_call8_v2, main_call8_v3, main_call8_v4, main_call8_v5, main_call8_v6, main_call8_cst_1, main_call8_v7, main_call8_v8, main_call8_v9, main_call8_v10, main_v173 ]

theorem q6_writes : (q6 : List (HloOp τ sig (Elt F))).Forall fun op =>
    op.writes ⊆ (q6w.map (Proc.devRef (τ := τ) .tc)).toFinset :=
  ⟨wr main_call8_cst (by decide), wr main_call8_v0 (by decide), wr main_call8_cst_0 (by decide), wr main_call8_v1 (by decide), wr main_call8_v2 (by decide), wr main_call8_v3 (by decide), wr main_call8_v4 (by decide), wr main_call8_v5 (by decide), wr main_call8_v6 (by decide), wr main_call8_cst_1 (by decide), wr main_call8_v7 (by decide), wr main_call8_v8 (by decide), wr main_call8_v9 (by decide), wr main_call8_v10 (by decide), wr main_v173 (by decide)⟩

/-- A buffer they do not write holds afterwards what it held before. -/
theorem q6_keeps (V : Valuation τ sig (Elt F)) {r : Ref sig .tc} (hr : r ∉ q6w) :
    after q6 V (Proc.devRef .tc r) = V (Proc.devRef .tc r) :=
  after_of_writes_sub q6 V q6_writes hr

/-- The stretch is its six pieces, one after the other. -/
theorem ops3_cut : (ops3 : List (HloOp τ sig (Elt F))) = q1 ++ (q2 ++ (q3 ++ (q4 ++ (q5 ++ q6)))) := rfl

variable (W : Valuation τ sig (Elt Ideal))

-- the gathers, scatter-adds, reductions and concatenations are names here: no walk looks inside one
attribute [local irreducible] Host.scatterAdd Host.gather Host.reduce Host.reduceAdd concatenate

/-! ## Each piece, from any contents -/

/-- The second piece adds the bias it finds to every row of the aggregate it finds, and rectifies. -/
theorem q2_act : after (q2 (F := Ideal)) W (Proc.devRef .tc main_v147)
    = relu64 (bias64 (W (Proc.devRef .tc main_v143)) (W (Proc.devRef .tc main_arg10))) := by
  simp only [after_cons, after_nil]
  rfl

/-- The third piece pairs the feature rows of each match's two nodes. -/
theorem q3_pairs : after (q3 (F := Ideal)) W (Proc.devRef .tc main_v162)
    = Cert.Chain.pairs (W (Proc.devRef .tc main_v147)) (W (Proc.devRef .tc main_arg2)) (W (Proc.devRef .tc main_arg3)) := by
  simp only [after_cons, after_nil]
  rfl

/-- The fourth piece is the head's first dense layer. -/
theorem q4_h1 : after (q4 (F := Ideal)) W (Proc.devRef .tc main_v167)
    = relu6 (bias6 (dot128 (W (Proc.devRef .tc main_v162)) (W (Proc.devRef .tc main_arg11))) (W (Proc.devRef .tc main_arg12))) := by
  simp only [after_cons, after_nil]
  rfl

/-- The fifth piece is the head's second dense layer. -/
theorem q5_h2 : after (q5 (F := Ideal)) W (Proc.devRef .tc main_v172)
    = relu3 (bias3 (dot6 (W (Proc.devRef .tc main_v167)) (W (Proc.devRef .tc main_arg13))) (W (Proc.devRef .tc main_arg14))) := by
  simp only [after_cons, after_nil]
  rfl

/-- The sixth piece is the log-softmax of what it finds. -/
theorem q6_ls : after (q6 (F := Ideal)) W (Proc.devRef .tc main_v173) = Cert.Chain.logSoftmax (W (Proc.devRef .tc main_v172)) := by
  simp only [after_cons, after_nil]
  rfl

end W3

/-! ## The whole stretch -/

open W3

variable (W : Valuation τ sig (Elt Ideal))

-- as above: the closing comparisons never look inside these
attribute [local irreducible] Host.scatterAdd Host.gather Host.reduce Host.reduceAdd concatenate

/-- The aggregation's buffer is written by the first piece and by no later one. -/
theorem w3_agg_buf : after (ops3 (F := Ideal)) W (Proc.devRef .tc main_v143)
    = after (q1 (F := Ideal)) W (Proc.devRef .tc main_v143) := by
  rw [ops3_cut, after_app, after_app, after_app, after_app, after_app, q6_keeps (r := main_v143) _ (by decide), q5_keeps (r := main_v143) _ (by decide), q4_keeps (r := main_v143) _ (by decide), q3_keeps (r := main_v143) _ (by decide), q2_keeps (r := main_v143) _ (by decide)]

/-- After the stretch the result buffer holds the log-softmax of the head applied to the paired, rectified, biased
    rows of the feature array the stretch leaves in the aggregation's buffer. -/
theorem w3_out : after (ops3 (F := Ideal)) W (Proc.devRef .tc main_v173)
    = Cert.Chain.logSoftmax (relu3 (bias3 (dot6 (relu6 (bias6 (dot128
        (Cert.Chain.pairs (relu64 (bias64 (after (ops3 (F := Ideal)) W (Proc.devRef .tc main_v143)) (W (Proc.devRef .tc main_arg10))))
          (W (Proc.devRef .tc main_arg2)) (W (Proc.devRef .tc main_arg3)))
        (W (Proc.devRef .tc main_arg11))) (W (Proc.devRef .tc main_arg12)))) (W (Proc.devRef .tc main_arg13))) (W (Proc.devRef .tc main_arg14)))) := by
  rw [w3_agg_buf, ops3_cut, after_app, after_app, after_app, after_app, after_app, q6_ls, q5_h2, q4_h1, q3_pairs, q2_act,
    q4_keeps (r := main_arg13) _ (by decide), q3_keeps (r := main_arg13) _ (by decide), q2_keeps (r := main_arg13) _ (by decide), q1_keeps (r := main_arg13) _ (by decide),
    q4_keeps (r := main_arg14) _ (by decide), q3_keeps (r := main_arg14) _ (by decide), q2_keeps (r := main_arg14) _ (by decide), q1_keeps (r := main_arg14) _ (by decide),
    q3_keeps (r := main_arg11) _ (by decide), q2_keeps (r := main_arg11) _ (by decide), q1_keeps (r := main_arg11) _ (by decide),
    q3_keeps (r := main_arg12) _ (by decide), q2_keeps (r := main_arg12) _ (by decide), q1_keeps (r := main_arg12) _ (by decide),
    q2_keeps (r := main_arg2) _ (by decide), q1_keeps (r := main_arg2) _ (by decide),
    q2_keeps (r := main_arg3) _ (by decide), q1_keeps (r := main_arg3) _ (by decide),
    q1_keeps (r := main_arg10) _ (by decide)]

end Cert.ReferenceIdeal.HostRead

end
-- ==== Proof.RefHost2.lean ====
/-
  What the reference's third and fourth stretches leave in the third aggregation's buffer.

  The third stretch (68 whole-array operations) completes the second aggregation, applies the second bias and the
  rectifier, contracts with the third weight matrix, rebuilds the arcs and their coefficients from the rows of the
  edge list, and gathers and scales the feature rows; the fourth stretch begins with the scatter-add that sums them
  into the buffer read here, which nothing after writes.  The third stretch is cut into six consecutive pieces, each
  walked on its own from ANY contents with the buffers earlier pieces wrote as plain inputs; a piece leaves alone
  every buffer it does not write; and the reads compose to the shared aggregation of Chain.lean applied to the rows,
  the weights, and the contracted features.  The feature array the bias is added to is whatever the third stretch
  itself leaves in the second aggregation's buffer, so the result is stated over that buffer's contents.
-/
import proofs.«103955_j78099685311022_1_alg».proof.Proof.RefOps2
import proofs.«103955_j78099685311022_1_alg».proof.Proof.RefHost3
import proofs.«103955_j78099685311022_1_alg».proof.Proof.Chain
import proofs.«103955_j78099685311022_1_alg».proof.Proof.RefDefs
import Idealize.ShloMosaic.Lib.StableHlo.Run

set_option maxRecDepth 16384
-- the walks are checked one after the other
set_option Elab.async false

noncomputable section

namespace Cert.ReferenceIdeal.HostRead

open Idealize.ShloMosaic Idealize.ShloMosaic.TcCoe Idealize.ShloMosaic.StableHlo Idealize.SL.Sem
open Cert.ReferenceIdeal Cert.ReferenceIdeal.Gen Cert.ReferenceIdeal.RefRun Cert.RefDense

/-! ## The pieces and their reads (the names of this part live in a namespace of their own) -/

namespace W2

variable {F : FTy → Type} [FloatOps F]

/-- Folding a concatenation: fold the first list, then the second from where the first ended. -/
theorem after_app {F : FTy → Type} [FloatOps F] (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- An operation whose one written buffer is in a list writes inside that list. -/
private theorem wr {F : FTy → Type} [FloatOps F] {L : List (Ref sig .tc)} {op : HloOp τ sig (Elt F)} (y : Ref sig .tc) (hy : y ∈ L)
    (hw : op.writes = {Proc.devRef .tc y} := by rfl) :
    op.writes ⊆ (L.map (Proc.devRef (τ := τ) .tc)).toFinset := by
  rw [hw]; exact Finset.singleton_subset_iff.2 (List.mem_toFinset.2 (List.mem_map.2 ⟨y, hy, rfl⟩))

/-- The first operation: the scatter-add that completes the second aggregation. -/
abbrev r1 : List (HloOp τ sig (Elt F)) :=
  [ StableHlo.ternary main_v93 main_v94 main_v92 main_v95 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)) ]

/-- The buffers those operations write, in order. -/
abbrev r1w : List (Ref sig .tc) :=
  [ main_v95 ]

theorem r1_writes : (r1 : List (HloOp τ sig (Elt F))).Forall fun op =>
    op.writes ⊆ (r1w.map (Proc.devRef (τ := τ) .tc)).toFinset :=
  wr main_v95 (by decide)

/-- A buffer they do not write holds afterwards what it held before. -/
theorem r1_keeps (V : Valuation τ sig (Elt F)) {r : Ref sig .tc} (hr : r ∉ r1w) :
    after r1 V (Proc.devRef .tc r) = V (Proc.devRef .tc r) :=
  after_of_writes_sub r1 V r1_writes hr

/-- The next twelve: the second bias row added to every row, the rectifier, the contraction with the third weight matrix. -/
abbrev r2 : List (HloOp τ sig (Elt F)) :=
  [ StableHlo.unary main_arg8 main_v96 (broadcastInDim S1x64 ![1] bcast_S64_S1x64_1 : (⟨S64, .f32⟩ : BufTy).Contents (Elt F) → (⟨S1x64, .f32⟩ : BufTy).Contents (Elt F)),
    StableHlo.unary main_v96 main_v97 (broadcastInDim S100000x64 ![0, 1] bcast_S1x64_S100000x64_0_1 : (⟨S1x64, .f32⟩ : BufTy).Contents (Elt F) → (⟨S100000x64, .f32⟩ : BufTy).Contents (Elt F)),
    StableHlo.binary main_v95 main_v97 main_v98 (addf : (⟨S100000x64, .f32⟩ : BufTy).Contents (Elt F) → (⟨S100000x64, .f32⟩ : BufTy).Contents (Elt F) → (⟨S100000x64, .f32⟩ : BufTy).Contents (Elt F)),
    StableHlo.nullary main_cst_23 (constant S_ .f32 0x3C23D70A#32),
    StableHlo.TRef.nullary main_call3.cst (constant S_ .f32 0x00000000#32),
    StableHlo.TRef.unary main_call3.cst main_call3.v0 (broadcastInDim S100000x64 ![] bcast_S_S100000x64),
    StableHlo.TRef.binary (.of main_v98 : StableHlo.TRef sig ⟨S100000x64, .f32⟩) main_call3.v0 main_call3.v1 (cmpf .oge),
    StableHlo.TRef.unary (.of main_cst_23 : StableHlo.TRef sig ⟨S_, .f32⟩) main_call3.v2 id,
    StableHlo.TRef.unary main_call3.v2 main_call3.v3 (broadcastInDim S100000x64 ![] bcast_S_S100000x64),
    StableHlo.TRef.binary main_call3.v3 (.of main_v98 : StableHlo.TRef sig ⟨S100000x64, .f32⟩) main_call3.v4 mulf,
    StableHlo.TRef.ternary main_call3.v1 (.of main_v98 : StableHlo.TRef sig ⟨S100000x64, .f32⟩) main_call3.v4 main_call3.call0.v0 select,
    StableHlo.binary main_v99 main_arg9 main_v100 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- The buffers those operations write, in order. -/
abbrev r2w : List (Ref sig .tc) :=
  [ main_v96, main_v97, main_v98, main_cst_23, main_call3_cst, main_call3_v0, main_call3_v1, main_call3_v2, main_call3_v3, main_call3_v4, main_v99, main_v100 ]

theorem r2_writes : (r2 : List (HloOp τ sig (Elt F))).Forall fun op =>
    op.writes ⊆ (r2w.map (Proc.devRef (τ := τ) .tc)).toFinset :=
  ⟨wr main_v96 (by decide), wr main_v97 (by decide), wr main_v98 (by decide), wr main_cst_23 (by decide), wr main_call3_cst (by decide), wr main_call3_v0 (by decide), wr main_call3_v1 (by decide), wr main_call3_v2 (by decide), wr main_call3_v3 (by decide), wr main_call3_v4 (by decide), wr main_v99 (by decide), wr main_v100 (by decide)⟩

/-- A buffer they do not write holds afterwards what it held before. -/
theorem r2_keeps (V : Valuation τ sig (Elt F)) {r : Ref sig .tc} (hr : r ∉ r2w) :
    after r2 V (Proc.devRef .tc r) = V (Proc.devRef .tc r) :=
  after_of_writes_sub r2 V r2_writes hr

/-- The next ten: the arcs' ends and weights, and the degree, once more from the rows of the edge list. -/
abbrev r3 : List (HloOp τ sig (Elt F)) :=
  [ StableHlo.nullary main_v101 (iotaInDim S100000 32 0),
    StableHlo.binary main_v1 main_v101 main_v102 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.binary main_v3 main_v101 main_v103 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.nullary main_cst_24 (constant S_ .f32 0x3F800000#32),
    StableHlo.unary main_cst_24 main_v104 (broadcastInDim S100000 ![] bcast_S_S100000 : (⟨S_, .f32⟩ : BufTy).Contents (Elt F) → (⟨S100000, .f32⟩ : BufTy).Contents (Elt F)),
    StableHlo.binary main_arg1 main_v104 main_v105 ((fun a b => concatenate S1700000 0 [⟨S1600000, a⟩, ⟨S100000, b⟩] concatenates_S1600000_S100000_S1700000_d0) : (⟨S1600000, .f32⟩ : BufTy).Contents (Elt F) → (⟨S100000, .f32⟩ : BufTy).Contents (Elt F) → (⟨S1700000, .f32⟩ : BufTy).Contents (Elt F)),
    StableHlo.nullary main_cst_25 (constant S_ .f32 0x00000000#32),
    StableHlo.unary main_cst_25 main_v106 (broadcastInDim S100000 ![] bcast_S_S100000 : (⟨S_, .f32⟩ : BufTy).Contents (Elt F) → (⟨S100000, .f32⟩ : BufTy).Contents (Elt F)),
    StableHlo.unary main_v103 main_v107 (broadcastInDim S1700000x1 ![0] bcast_S1700000_S1700000x1_0 : (⟨S1700000, .i32⟩ : BufTy).Contents (Elt F) → (⟨S1700000x1, .i32⟩ : BufTy).Contents (Elt F)),
    StableHlo.ternary main_v106 main_v107 main_v105 main_v108 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)) ]

/-- The buffers those operations write, in order. -/
abbrev r3w : List (Ref sig .tc) :=
  [ main_v101, main_v102, main_v103, main_cst_24, main_v104, main_v105, main_cst_25, main_v106, main_v107, main_v108 ]

theorem r3_writes : (r3 : List (HloOp τ sig (Elt F))).Forall fun op =>
    op.writes ⊆ (r3w.map (Proc.devRef (τ := τ) .tc)).toFinset :=
  ⟨wr main_v101 (by decide), wr main_v102 (by decide), wr main_v103 (by decide), wr main_cst_24 (by decide), wr main_v104 (by decide), wr main_v105 (by decide), wr main_cst_25 (by decide), wr main_v106 (by decide), wr main_v107 (by decide), wr main_v108 (by decide)⟩

/-- A buffer they do not write holds afterwards what it held before. -/
theorem r3_keeps (V : Valuation τ sig (Elt F)) {r : Ref sig .tc} (hr : r ∉ r3w) :
    after r3 V (Proc.devRef .tc r) = V (Proc.devRef .tc r) :=
  after_of_writes_sub r3 V r3_writes hr

/-- The next eleven: the inverse square root of the degree, selected to 0 where the degree is not positive. -/
abbrev r4 : List (HloOp τ sig (Elt F)) :=
  [ StableHlo.nullary main_cst_26 (constant S_ .f32 0x00000000#32),
    StableHlo.unary main_cst_26 main_v109 (broadcastInDim S100000 ![] bcast_S_S100000 : (⟨S_, .f32⟩ : BufTy).Contents (Elt F) → (⟨S100000, .f32⟩ : BufTy).Contents (Elt F)),
    StableHlo.binary main_v108 main_v109 main_v110 (cmpf .ogt : (⟨S100000, .f32⟩ : BufTy).Contents (Elt F) → (⟨S100000, .f32⟩ : BufTy).Contents (Elt F) → (⟨S100000, .i1⟩ : BufTy).Contents (Elt F)),
    StableHlo.nullary main_cst_27 (constant S_ .f32 0x2B8CBCCC#32),
    StableHlo.unary main_cst_27 main_v111 (broadcastInDim S100000 ![] bcast_S_S100000 : (⟨S_, .f32⟩ : BufTy).Contents (Elt F) → (⟨S100000, .f32⟩ : BufTy).Contents (Elt F)),
    StableHlo.binary main_v108 main_v111 main_v112 (maximumf : (⟨S100000, .f32⟩ : BufTy).Contents (Elt F) → (⟨S100000, .f32⟩ : BufTy).Contents (Elt F) → (⟨S100000, .f32⟩ : BufTy).Contents (Elt F)),
    StableHlo.unary main_v112 main_v113 (Host.rsqrt : (⟨S100000, .f32⟩ : BufTy).Contents (Elt F) → (⟨S100000, .f32⟩ : BufTy).Contents (Elt F)),
    StableHlo.nullary main_cst_28 (constant S_ .f32 0x00000000#32),
    StableHlo.TRef.unary (.of main_cst_28 : StableHlo.TRef sig ⟨S_, .f32⟩) main_call4.v0 id,
    StableHlo.TRef.unary main_call4.v0 main_call4.v1 (broadcastInDim S100000 ![] bcast_S_S100000),
    StableHlo.TRef.ternary (.of main_v110 : StableHlo.TRef sig ⟨S100000, .i1⟩) (.of main_v113 : StableHlo.TRef sig ⟨S100000, .f32⟩) main_call4.v1 main_call4.v2 select ]

/-- The buffers those operations write, in order. -/
abbrev r4w : List (Ref sig .tc) :=
  [ main_cst_26, main_v109, main_v110, main_cst_27, main_v111, main_v112, main_v113, main_cst_28, main_call4_v0, main_call4_v1, main_v114 ]

theorem r4_writes : (r4 : List (HloOp τ sig (Elt F))).Forall fun op =>
    op.writes ⊆ (r4w.map (Proc.devRef (τ := τ) .tc)).toFinset :=
  ⟨wr main_cst_26 (by decide), wr main_v109 (by decide), wr main_v110 (by decide), wr main_cst_27 (by decide), wr main_v111 (by decide), wr main_v112 (by decide), wr main_v113 (by decide), wr main_cst_28 (by decide), wr main_call4_v0 (by decide), wr main_call4_v1 (by decide), wr main_v114 (by decide)⟩

/-- A buffer they do not write holds afterwards what it held before. -/
theorem r4_keeps (V : Valuation τ sig (Elt F)) {r : Ref sig .tc} (hr : r ∉ r4w) :
    after r4 V (Proc.devRef .tc r) = V (Proc.devRef .tc r) :=
  after_of_writes_sub r4 V r4_writes hr

/-- The next twenty: the positions of the arcs' two ends, the values gathered there, the arcs' coefficients. -/
abbrev r5 : List (HloOp τ sig (Elt F)) :=
  [ StableHlo.nullary main_c_29 (constantI S_ 32 0#32),
    StableHlo.unary main_c_29 main_v115 (broadcastInDim S1700000 ![] bcast_S_S1700000 : (⟨S_, .i32⟩ : BufTy).Contents (Elt F) → (⟨S1700000, .i32⟩ : BufTy).Contents (Elt F)),
    StableHlo.binary main_v102 main_v115 main_v116 (cmpi .slt : (⟨S1700000, .i32⟩ : BufTy).Contents (Elt F) → (⟨S1700000, .i32⟩ : BufTy).Contents (Elt F) → (⟨S1700000, .i1⟩ : BufTy).Contents (Elt F)),
    StableHlo.nullary main_c_30 (constantI S_ 32 100000#32),
    StableHlo.unary main_c_30 main_v117 (broadcastInDim S1700000 ![] bcast_S_S1700000 : (⟨S_, .i32⟩ : BufTy).Contents (Elt F) → (⟨S1700000, .i32⟩ : BufTy).Contents (Elt F)),
    StableHlo.binary main_v102 main_v117 main_v118 (addi : (⟨S1700000, .i32⟩ : BufTy).Contents (Elt F) → (⟨S1700000, .i32⟩ : BufTy).Contents (Elt F) → (⟨S1700000, .i32⟩ : BufTy).Contents (Elt F)),
    StableHlo.ternary main_v116 main_v118 main_v102 main_v119 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v119 main_v120 (broadcastInDim S1700000x1 ![0] bcast_S1700000_S1700000x1_0 : (⟨S1700000, .i32⟩ : BufTy).Contents (Elt F) → (⟨S1700000x1, .i32⟩ : BufTy).Contents (Elt F)),
    StableHlo.binary main_v114 main_v120 main_v121 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v121 main_v105 main_v122 (mulf : (⟨S1700000, .f32⟩ : BufTy).Contents (Elt F) → (⟨S1700000, .f32⟩ : BufTy).Contents (Elt F) → (⟨S1700000, .f32⟩ : BufTy).Contents (Elt F)),
    StableHlo.nullary main_c_31 (constantI S_ 32 0#32),
    StableHlo.unary main_c_31 main_v123 (broadcastInDim S1700000 ![] bcast_S_S1700000 : (⟨S_, .i32⟩ : BufTy).Contents (Elt F) → (⟨S1700000, .i32⟩ : BufTy).Contents (Elt F)),
    StableHlo.binary main_v103 main_v123 main_v124 (cmpi .slt : (⟨S1700000, .i32⟩ : BufTy).Contents (Elt F) → (⟨S1700000, .i32⟩ : BufTy).Contents (Elt F) → (⟨S1700000, .i1⟩ : BufTy).Contents (Elt F)),
    StableHlo.nullary main_c_32 (constantI S_ 32 100000#32),
    StableHlo.unary main_c_32 main_v125 (broadcastInDim S1700000 ![] bcast_S_S1700000 : (⟨S_, .i32⟩ : BufTy).Contents (Elt F) → (⟨S1700000, .i32⟩ : BufTy).Contents (Elt F)),
    StableHlo.binary main_v103 main_v125 main_v126 (addi : (⟨S1700000, .i32⟩ : BufTy).Contents (Elt F) → (⟨S1700000, .i32⟩ : BufTy).Contents (Elt F) → (⟨S1700000, .i32⟩ : BufTy).Contents (Elt F)),
    StableHlo.ternary main_v124 main_v126 main_v103 main_v127 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v127 main_v128 (broadcastInDim S1700000x1 ![0] bcast_S1700000_S1700000x1_0 : (⟨S1700000, .i32⟩ : BufTy).Contents (Elt F) → (⟨S1700000x1, .i32⟩ : BufTy).Contents (Elt F)),
    StableHlo.binary main_v114 main_v128 main_v129 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v122 main_v129 main_v130 (mulf : (⟨S1700000, .f32⟩ : BufTy).Contents (Elt F) → (⟨S1700000, .f32⟩ : BufTy).Contents (Elt F) → (⟨S1700000, .f32⟩ : BufTy).Contents (Elt F)) ]

/-- The buffers those operations write, in order. -/
abbrev r5w : List (Ref sig .tc) :=
  [ main_c_29, main_v115, main_v116, main_c_30, main_v117, main_v118, main_v119, main_v120, main_v121, main_v122, main_c_31, main_v123, main_v124, main_c_32, main_v125, main_v126, main_v127, main_v128, main_v129, main_v130 ]

theorem r5_writes : (r5 : List (HloOp τ sig (Elt F))).Forall fun op =>
    op.writes ⊆ (r5w.map (Proc.devRef (τ := τ) .tc)).toFinset :=
  ⟨wr main_c_29 (by decide), wr main_v115 (by decide), wr main_v116 (by decide), wr main_c_30 (by decide), wr main_v117 (by decide), wr main_v118 (by decide), wr main_v119 (by decide), wr main_v120 (by decide), wr main_v121 (by decide), wr main_v122 (by decide), wr main_c_31 (by decide), wr main_v123 (by decide), wr main_v124 (by decide), wr main_c_32 (by decide), wr main_v125 (by decide), wr main_v126 (by decide), wr main_v127 (by decide), wr main_v128 (by decide), wr main_v129 (by decide), wr main_v130 (by decide)⟩

/-- A buffer they do not write holds afterwards what it held before. -/
theorem r5_keeps (V : Valuation τ sig (Elt F)) {r : Ref sig .tc} (hr : r ∉ r5w) :
    after r5 V (Proc.devRef .tc r) = V (Proc.devRef .tc r) :=
  after_of_writes_sub r5 V r5_writes hr

/-- The last fourteen: the feature rows gathered at the arcs' sources and scaled, and the zeros they will be added into. -/
abbrev r6 : List (HloOp τ sig (Elt F)) :=
  [ StableHlo.unary main_v130 main_v131 (broadcastInDim S1700000x1 ![0] bcast_S1700000_S1700000x1_0 : (⟨S1700000, .f32⟩ : BufTy).Contents (Elt F) → (⟨S1700000x1, .f32⟩ : BufTy).Contents (Elt F)),
    StableHlo.nullary main_c_33 (constantI S_ 32 0#32),
    StableHlo.unary main_c_33 main_v132 (broadcastInDim S1700000 ![] bcast_S_S1700000 : (⟨S_, .i32⟩ : BufTy).Contents (Elt F) → (⟨S1700000, .i32⟩ : BufTy).Contents (Elt F)),
    StableHlo.binary main_v102 main_v132 main_v133 (cmpi .slt : (⟨S1700000, .i32⟩ : BufTy).Contents (Elt F) → (⟨S1700000, .i32⟩ : BufTy).Contents (Elt F) → (⟨S1700000, .i1⟩ : BufTy).Contents (Elt F)),
    StableHlo.nullary main_c_34 (constantI S_ 32 100000#32),
    StableHlo.unary main_c_34 main_v134 (broadcastInDim S1700000 ![] bcast_S_S1700000 : (⟨S_, .i32⟩ : BufTy).Contents (Elt F) → (⟨S1700000, .i32⟩ : BufTy).Contents (Elt F)),
    StableHlo.binary main_v102 main_v134 main_v135 (addi : (⟨S1700000, .i32⟩ : BufTy).Contents (Elt F) → (⟨S1700000, .i32⟩ : BufTy).Contents (Elt F) → (⟨S1700000, .i32⟩ : BufTy).Contents (Elt F)),
    StableHlo.ternary main_v133 main_v135 main_v102 main_v136 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v136 main_v137 (broadcastInDim S1700000x1 ![0] bcast_S1700000_S1700000x1_0 : (⟨S1700000, .i32⟩ : BufTy).Contents (Elt F) → (⟨S1700000x1, .i32⟩ : BufTy).Contents (Elt F)),
    StableHlo.binary main_v100 main_v137 main_v138 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    StableHlo.unary main_v131 main_v139 (broadcastInDim S1700000x64 ![0, 1] bcast_S1700000x1_S1700000x64_0_1 : (⟨S1700000x1, .f32⟩ : BufTy).Contents (Elt F) → (⟨S1700000x64, .f32⟩ : BufTy).Contents (Elt F)),
    StableHlo.binary main_v139 main_v138 main_v140 (mulf : (⟨S1700000x64, .f32⟩ : BufTy).Contents (Elt F) → (⟨S1700000x64, .f32⟩ : BufTy).Contents (Elt F) → (⟨S1700000x64, .f32⟩ : BufTy).Contents (Elt F)),
    StableHlo.nullary main_cst_35 (constant S_ .f32 0x00000000#32),
    StableHlo.unary main_cst_35 main_v141 (broadcastInDim S100000x64 ![] bcast_S_S100000x64 : (⟨S_, .f32⟩ : BufTy).Contents (Elt F) → (⟨S100000x64, .f32⟩ : BufTy).Contents (Elt F)) ]

/-- The buffers those operations write, in order. -/
abbrev r6w : List (Ref sig .tc) :=
  [ main_v131, main_c_33, main_v132, main_v133, main_c_34, main_v134, main_v135, main_v136, main_v137, main_v138, main_v139, main_v140, main_cst_35, main_v141 ]

theorem r6_writes : (r6 : List (HloOp τ sig (Elt F))).Forall fun op =>
    op.writes ⊆ (r6w.map (Proc.devRef (τ := τ) .tc)).toFinset :=
  ⟨wr main_v131 (by decide), wr main_c_33 (by decide), wr main_v132 (by decide), wr main_v133 (by decide), wr main_c_34 (by decide), wr main_v134 (by decide), wr main_v135 (by decide), wr main_v136 (by decide), wr main_v137 (by decide), wr main_v138 (by decide), wr main_v139 (by decide), wr main_v140 (by decide), wr main_cst_35 (by decide), wr main_v141 (by decide)⟩

/-- A buffer they do not write holds afterwards what it held before. -/
theorem r6_keeps (V : Valuation τ sig (Elt F)) {r : Ref sig .tc} (hr : r ∉ r6w) :
    after r6 V (Proc.devRef .tc r) = V (Proc.devRef .tc r) :=
  after_of_writes_sub r6 V r6_writes hr

/-- The third stretch is its six pieces, one after the other. -/
theorem ops2_cut : (ops2 : List (HloOp τ sig (Elt F))) = r1 ++ (r2 ++ (r3 ++ (r4 ++ (r5 ++ r6)))) := rfl

/-- An array of extended reals, of 32-bit integers, over a shape. -/
abbrev R32 (s : Shape) : Type := FVec Ideal s .f32
abbrev N32 (s : Shape) : Type := IVec s 32

/-- The inverse square root of an array of degrees, 0 where the degree is not positive. -/
def dinvOf (g : R32 S100000) : R32 S100000 :=
  select (cmpf .ogt g (broadcastInDim S100000 ![] bcast_S_S100000 (constant S_ .f32 0x00000000#32)))
    (Host.rsqrt (maximumf g (broadcastInDim S100000 ![] bcast_S_S100000 (constant S_ .f32 0x2B8CBCCC#32))))
    (broadcastInDim S100000 ![] bcast_S_S100000 (id (constant (F := Ideal) S_ .f32 0x00000000#32)))

/-- The arcs' coefficients from the inverse-root degrees `v`, the arcs' two ends and their weights: the value at the
    source, times the weight, times the value at the destination. -/
def normOf (v : R32 S100000) (s d : N32 S1700000) (w : R32 S1700000) : R32 S1700000 :=
  mulf (mulf (Host.gather gather_S100000_S1700000x1_S1700000_n_0_n_n_0_1_1 v (Cert.Chain.wrap s)) w)
    (Host.gather gather_S100000_S1700000x1_S1700000_n_0_n_n_0_1_1 v (Cert.Chain.wrap d))

/-- The feature rows at the arcs' sources `s`, each scaled by its arc's coefficient. -/
def scaleOf (n : R32 S1700000) (xw : R32 S100000x64) (s : N32 S1700000) : R32 S1700000x64 :=
  mulf
    (broadcastInDim S1700000x64 ![0, 1] bcast_S1700000x1_S1700000x64_0_1
      (broadcastInDim S1700000x1 ![0] bcast_S1700000_S1700000x1_0 n))
    (Host.gather gather_S100000x64_S1700000x1_S1700000x64_1_0_n_n_0_1_164 xw (Cert.Chain.wrap s))

/-- Rows `u` added into `z` at the arcs' destinations `d`. -/
def sumOf (z : R32 S100000x64) (d : N32 S1700000) (u : R32 S1700000x64) : R32 S100000x64 :=
  Host.scatterAdd scatter_S100000x64_S1700000x1_S1700000x64_1_0_0_1 z
    (broadcastInDim S1700000x1 ![0] bcast_S1700000_S1700000x1_0 d) u

/-- The array of zeros the rows are added into. -/
def zeros64 : R32 S100000x64 :=
  broadcastInDim S100000x64 ![] bcast_S_S100000x64 (constant S_ .f32 0x00000000#32)

variable (W : Valuation τ sig (Elt Ideal))

-- the gathers, scatter-adds, reductions and concatenations are names here: no walk looks inside one
attribute [local irreducible] Host.scatterAdd Host.gather Host.reduce Host.reduceAdd concatenate

/-- The second piece: the bias it finds added to the aggregate it finds, rectified, contracted with the weights it finds. -/
theorem r2_xw : after (r2 (F := Ideal)) W (Proc.devRef .tc main_v100)
    = dot64 (relu64 (bias64 (W (Proc.devRef .tc main_v95)) (W (Proc.devRef .tc main_arg8)))) (W (Proc.devRef .tc main_arg9)) := by
  simp only [after_cons, after_nil]
  rfl

/-- The third piece, from the rows of the edge list it finds: the arcs' sources, -/
theorem r3_as : after (r3 (F := Ideal)) W (Proc.devRef .tc main_v102) = Cert.Chain.arcs (W (Proc.devRef .tc main_v1)) := by
  simp only [after_cons, after_nil]
  rfl

/-- their destinations, -/
theorem r3_ad : after (r3 (F := Ideal)) W (Proc.devRef .tc main_v103) = Cert.Chain.arcs (W (Proc.devRef .tc main_v3)) := by
  simp only [after_cons, after_nil]
  rfl

/-- their weights, -/
theorem r3_w2 : after (r3 (F := Ideal)) W (Proc.devRef .tc main_v105) = Cert.Chain.w2 (W (Proc.devRef .tc main_arg1)) := by
  simp only [after_cons, after_nil]
  rfl

/-- and the weighted in-degree of every node. -/
theorem r3_deg : after (r3 (F := Ideal)) W (Proc.devRef .tc main_v108) = Cert.Chain.deg (W (Proc.devRef .tc main_v3)) (W (Proc.devRef .tc main_arg1)) := by
  simp only [after_cons, after_nil]
  rfl

/-- The fourth piece turns the degrees it finds into their inverse square roots. -/
theorem r4_dinv : after (r4 (F := Ideal)) W (Proc.devRef .tc main_v114) = dinvOf (W (Proc.devRef .tc main_v108)) := by
  simp only [after_cons, after_nil]
  rfl

/-- The fifth piece multiplies each arc's weight by the value it finds at each of the arc's two ends. -/
theorem r5_norm : after (r5 (F := Ideal)) W (Proc.devRef .tc main_v130)
    = normOf (W (Proc.devRef .tc main_v114)) (W (Proc.devRef .tc main_v102)) (W (Proc.devRef .tc main_v103)) (W (Proc.devRef .tc main_v105)) := by
  simp only [after_cons, after_nil]
  rfl

/-- The sixth piece gathers the feature rows it finds at the arcs' sources and scales them by the coefficients, -/
theorem r6_scale : after (r6 (F := Ideal)) W (Proc.devRef .tc main_v140)
    = scaleOf (W (Proc.devRef .tc main_v130)) (W (Proc.devRef .tc main_v100)) (W (Proc.devRef .tc main_v102)) := by
  simp only [after_cons, after_nil]
  rfl

/-- and lays out the zeros. -/
theorem r6_zero : after (r6 (F := Ideal)) W (Proc.devRef .tc main_v141) = zeros64 := by
  simp only [after_cons, after_nil]
  rfl

/-- The first two operations of the fourth stretch add the rows they find into the zeros they find, at the arcs'
    destinations they find. -/
theorem t_sum : after (W3.q1 (F := Ideal)) W (Proc.devRef .tc main_v143)
    = sumOf (W (Proc.devRef .tc main_v141)) (W (Proc.devRef .tc main_v103)) (W (Proc.devRef .tc main_v140)) := by
  simp only [after_cons, after_nil]
  rfl

end W2

/-! ## The two stretches together -/

open W2

variable (W : Valuation τ sig (Elt Ideal))

-- as above: the closing comparison never looks inside these
attribute [local irreducible] Host.scatterAdd Host.gather Host.reduce Host.reduceAdd concatenate

/-- The second aggregation's buffer is written by the third stretch's first operation and by no later one of it. -/
theorem w2_agg_buf : after (ops2 (F := Ideal)) W (Proc.devRef .tc main_v95)
    = after (r1 (F := Ideal)) W (Proc.devRef .tc main_v95) := by
  rw [ops2_cut, W2.after_app, W2.after_app, W2.after_app, W2.after_app, W2.after_app, r6_keeps (r := main_v95) _ (by decide), r5_keeps (r := main_v95) _ (by decide), r4_keeps (r := main_v95) _ (by decide), r3_keeps (r := main_v95) _ (by decide), r2_keeps (r := main_v95) _ (by decide)]

/-- After the third and fourth stretches the third aggregation's buffer holds the graph's aggregation — over the rows
    of the edge list and the weights the third stretch finds — of the contraction of the rectified, biased feature
    array the third stretch leaves in the second aggregation's buffer. -/
theorem w2_agg : after (ops3 (F := Ideal)) (after (ops2 (F := Ideal)) W) (Proc.devRef .tc main_v143)
    = Cert.Chain.aggR (W (Proc.devRef .tc main_v1)) (W (Proc.devRef .tc main_v3)) (W (Proc.devRef .tc main_arg1))
        (dot64 (relu64 (bias64 (after (ops2 (F := Ideal)) W (Proc.devRef .tc main_v95)) (W (Proc.devRef .tc main_arg8)))) (W (Proc.devRef .tc main_arg9))) := by
  rw [w2_agg_buf, w3_agg_buf, t_sum, ops2_cut, W2.after_app, W2.after_app, W2.after_app, W2.after_app, W2.after_app,
    r6_zero, r6_scale, r6_keeps (r := main_v103) _ (by decide),
    r5_norm, r5_keeps (r := main_v100) _ (by decide), r5_keeps (r := main_v102) _ (by decide), r5_keeps (r := main_v103) _ (by decide),
    r4_dinv, r4_keeps (r := main_v100) _ (by decide), r4_keeps (r := main_v102) _ (by decide), r4_keeps (r := main_v103) _ (by decide), r4_keeps (r := main_v105) _ (by decide),
    r3_deg, r3_as, r3_ad, r3_w2, r3_keeps (r := main_v100) _ (by decide),
    r2_xw, r2_keeps (r := main_v1) _ (by decide), r2_keeps (r := main_v3) _ (by decide), r2_keeps (r := main_arg1) _ (by decide),
    r1_keeps (r := main_v1) _ (by decide), r1_keeps (r := main_v3) _ (by decide), r1_keeps (r := main_arg1) _ (by decide), r1_keeps (r := main_arg8) _ (by decide), r1_keeps (r := main_arg9) _ (by decide)]
  rfl

end Cert.ReferenceIdeal.HostRead

end
-- ==== Proof.RefDense.lean ====
/-
  The reference's dense parts are the specification's.

  The reference program spells a layer's dense part with whole-array host operations.  Read entry by entry on the
  extended reals they are the two functions of the specification:

  * a contraction of a feature array with a weight matrix over their one shared axis is, at row `p` and column `q`,
    the sum over the shared coordinate `j` of `x(p, j) · w(j, q)`: the matrix product `mm` (`dot64_eq`, `dot128_eq`,
    `dot6_eq`);
  * a bias vector laid out as one row and repeated down the rows contributes, at `(p, q)`, its entry `q` — the same
    entry the vector has when it is recast as an array of one row, since both keep the position along the row; and
    keeping the entries that are at least 0 while scaling the others by the slope is the leaky rectifier: deciding
    with `0 ≤ y` or with `0 < y` differs only at `y = 0`, where both branches give `0`.  So bias-then-rectify is `act`
    with the bias as a one-row array (`lay64_eq`, `lay6_eq`, `lay3_eq`).

  Each fact is proved once for arbitrary extents (`plain_dot_eq`, `bias_rectify_eq`) and used at the three sizes that
  occur.
-/
import proofs.«103955_j78099685311022_1_alg».proof.Proof.RefDefs
import proofs.«103955_j78099685311022_1_alg».proof.Proof.Chain
import proofs.«103955_j78099685311022_1_alg».proof.Proof.Spec
import Idealize.ShloMosaic.Lib.ValueIdx
import Idealize.ShloMosaic.Lib.Pipeline.Value
import Idealize.ShloMosaic.Lib.KernelVsHost
import Idealize.ShloMosaic.Lib.StackMember
import Idealize.ShloMosaic.PureOps.Ideal.Laws

noncomputable section

namespace Cert.RefDense

open Idealize.ShloMosaic Idealize.ShloMosaic.ValueIdx Cert.ReferenceIdeal Cert.ReferenceIdeal.Gen

/-- A rows-by-columns contraction with no accumulator is the matrix product: at `(p, q)` the sum over the contracted
    coordinate `j` of `x(p, j) · w(j, q)`. -/
theorem plain_dot_eq {n k m : Nat} (x : FVec Ideal ⟨2, ![n, k]⟩ .f32) (w : FVec Ideal ⟨2, ![k, m]⟩ .f32) :
    Host.dotGeneral (DotDims.plain n k m) none x w = Cert.Spec.mm x w := by
  funext i
  obtain ⟨p, q, rfl⟩ : ∃ (p : Fin n) (q : Fin m), i = ix2 p q := ⟨i 0, i 1, eq_ix2 i⟩
  rw [StackMember.dotGeneral_plain_apply]
  rfl

/-- The node features times a 64 × 64 weight matrix (the program's dimension numbers are the plain ones). -/
theorem dot64_eq (x : F32 S100000x64) (w : F32 S64x64) : dot64 x w = Cert.Spec.mm (n := 100000) (k := 64) (m := 64) x w :=
  plain_dot_eq x w

/-- The head's first product, contracting the 128 paired features. -/
theorem dot128_eq (x : F32 S16384x128) (w : F32 S128x6) : dot128 x w = Cert.Spec.mm (n := 16384) (k := 128) (m := 6) x w :=
  plain_dot_eq x w

/-- The head's second product, contracting the 6 hidden features. -/
theorem dot6_eq (x : F32 S16384x6) (w : F32 S6x3) : dot6 x w = Cert.Spec.mm (n := 16384) (k := 6) (m := 3) x w :=
  plain_dot_eq x w

/-- Keeping `y` where the comparison `y ≥ 0` holds and `slope · y` elsewhere is the leaky rectifier: the comparison's
    bit is `1` exactly when `0 ≤ y`, the zero word is the real number zero, and deciding with `0 ≤ y` gives the same
    function as deciding with `0 < y`. -/
theorem rectifier_ge_word (y : EReal) :
    Scalar.select (FloatOps.cmpf (F := Ideal) (φ := .f32) .oge y (Scalar.ofBits .f32 0x00000000#32)) y
        ((Scalar.ofBits (F := Ideal) .f32 0x3C23D70A#32 : Ideal .f32) * y) = Cert.Spec.leaky y := by
  show Scalar.select (Ideal.cmp .oge y (Ideal.ofBits .f32 0x00000000#32)) y (Cert.Spec.slope * y) = _
  rw [Ideal.ofBits_zero_f32, ← Cert.Spec.leaky_of_le]
  unfold Ideal.cmp Scalar.select
  by_cases h : 0 ≤ y
  · simp [h]
  · simp [h]

/-- Bias-then-rectify, for any extents: the vector `b` laid out as one row and repeated down the rows adds `b(q)` at
    `(p, q)`, which is also entry `(0, q)` of `b` recast as a one-row array (both keep the position along the row);
    the two constants repeated over the array are read as themselves at every entry; the selection is the rectifier. -/
theorem bias_rectify_eq {n m : Nat} (a : FVec Ideal ⟨2, ![n, m]⟩ .f32) (b : FVec Ideal ⟨1, ![m]⟩ .f32)
    (h0 : S_.BroadcastsInDim ⟨2, ![n, m]⟩ (![] : Fin 0 → Fin 2))
    (h1 : (⟨1, ![m]⟩ : Shape).BroadcastsInDim ⟨2, ![1, m]⟩ (![1] : Fin 1 → Fin 2))
    (h2 : (⟨2, ![1, m]⟩ : Shape).BroadcastsInDim ⟨2, ![n, m]⟩ (![0, 1] : Fin 2 → Fin 2))
    (hc : (⟨1, ![m]⟩ : Shape).ShapeCasts ⟨2, ![1, m]⟩) :
    select (cmpf .oge (addf a (broadcastInDim ⟨2, ![n, m]⟩ ![0, 1] h2 (broadcastInDim ⟨2, ![1, m]⟩ ![1] h1 b)))
        (broadcastInDim ⟨2, ![n, m]⟩ ![] h0 (constant S_ .f32 0x00000000#32)))
      (addf a (broadcastInDim ⟨2, ![n, m]⟩ ![0, 1] h2 (broadcastInDim ⟨2, ![1, m]⟩ ![1] h1 b)))
      (mulf (broadcastInDim ⟨2, ![n, m]⟩ ![] h0 (id (constant (F := Ideal) S_ .f32 0x3C23D70A#32)))
        (addf a (broadcastInDim ⟨2, ![n, m]⟩ ![0, 1] h2 (broadcastInDim ⟨2, ![1, m]⟩ ![1] h1 b))))
      = Cert.Spec.act a (fun i => shapeCast ⟨2, ![1, m]⟩ b hc i) := by
  funext i
  obtain ⟨p, q, rfl⟩ : ∃ (p : Fin n) (q : Fin m), i = ix2 p q := ⟨i 0, i 1, eq_ix2 i⟩
  -- the vector laid out as one row, read at (0, q), is its entry q
  have e1 := broadcastInDim_apply ![1] h1 b (ix2 (0 : Fin 1) q) (ix1 q) (by
    intro ax
    match ax with
    | ⟨0, _⟩ =>
      show q.val = if m = 1 then 0 else q.val
      split
      · have := q.isLt; omega
      · rfl)
  -- and so is the vector recast as a one-row array: position 0 · m + q along the rows is position q
  have e2 := shapeCast_apply b hc (ix2 (0 : Fin 1) q) (ix1 q) (by
    rw [Shape.rowMajor_val_two, Shape.rowMajor_val_one]; show q.val = 0 * m + q.val; omega)
  rw [select_apply, cmpf_apply, mulf_apply, addf_apply, id, broadcastInDim_constant, broadcastInDim_constant, broadcast_apply,
    broadcast_apply, broadcastInDim_oneRow_apply, e1]
  show _ = Cert.Spec.leaky (a (ix2 p q) + shapeCast ⟨2, ![1, m]⟩ b hc (ix2 (0 : Fin 1) q))
  rw [e2]
  exact rectifier_ge_word _

/-- A graph-convolution layer's bias and rectifier, on the 100000 × 64 node features. -/
theorem lay64_eq (a : F32 S100000x64) (b : F32 S64) : relu64 (bias64 a b) = Cert.Spec.act (n := 100000) (m := 64) a (Cert.Chain.row64 b) :=
  bias_rectify_eq a b _ _ _ _

/-- The head's first bias and rectifier, on 16384 × 6. -/
theorem lay6_eq (a : F32 S16384x6) (b : F32 S6) : relu6 (bias6 a b) = Cert.Spec.act (n := 16384) (m := 6) a (Cert.Chain.row6 b) :=
  bias_rectify_eq a b _ _ _ _

/-- The head's second bias and rectifier, on 16384 × 3. -/
theorem lay3_eq (a : F32 S16384x3) (b : F32 S3) : relu3 (bias3 a b) = Cert.Spec.act (n := 16384) (m := 3) a (Cert.Chain.row3 b) :=
  bias_rectify_eq a b _ _ _ _

end Cert.RefDense

end
-- ==== Proof.RefValue.lean ====
/-
  The reference's result as the network of its arguments.

  The reference runs four stretches of array operations in order.  Reading its result buffer backwards through
  them gives the network layer by layer:

  * the last stretch leaves in the result buffer the head — pairing, two dense layers, log-softmax — applied to
    the rectified, biased aggregate that the same stretch leaves in its third-layer buffer;
  * that aggregate is the graph's aggregation of the third matrix product, whose input is the rectified, biased
    aggregate of the second layer (left by the first operation of the third stretch);
  * which in turn aggregates the second matrix product of the rectified, biased first aggregate, left by the
    first stretch together with the two rows of the edge list.

  Between the places where they are written and the places where they are read, the edge rows, the aggregates
  and all fifteen arguments sit in buffers that the stretches in between do not write, so they are carried
  unchanged.  Each dense part in the reference's own spelling — contraction, repeated bias row, select between
  an entry and its multiple by the slope — is the plain matrix product and the bias-and-rectifier of the
  specification.  After these substitutions the result is, symbol for symbol, the network function applied to
  the arguments' contents: the network's definition is only the same expression with names given to its parts.

  The gathers, scatter-adds, contractions and reductions stay closed throughout: only equal inputs to equal
  functions are compared.
-/
import proofs.«103955_j78099685311022_1_alg».proof.Proof.RefRun
import proofs.«103955_j78099685311022_1_alg».proof.Proof.RefHost0
import proofs.«103955_j78099685311022_1_alg».proof.Proof.RefHost1
import proofs.«103955_j78099685311022_1_alg».proof.Proof.RefHost2
import proofs.«103955_j78099685311022_1_alg».proof.Proof.RefHost3
import proofs.«103955_j78099685311022_1_alg».proof.Proof.RefDense
import proofs.«103955_j78099685311022_1_alg».proof.Proof.Network

noncomputable section

namespace Cert.ReferenceIdeal.RefValue

open Idealize.ShloMosaic Idealize.ShloMosaic.StableHlo Idealize.SL.Sem Cert.ReferenceIdeal Cert.ReferenceIdeal.RefRun
  Cert.ReferenceIdeal.HostRead Cert.RefDense

/-- A tensor-core reference as a buffer of the device. -/
local notation "♯" r:max => Proc.devRef (τ := τ) (sig := sig) Proc.tc r

variable (L : Valuation τ sig (Elt Ideal))

/-- A buffer the first two stretches do not write. -/
theorem keep01 {r : Ref sig .tc} (h0 : r ∉ written0) (h1 : r ∉ written1) :
    after ops1 (after ops0 L) (♯r) = L (♯r) := by
  rw [ops1_keeps _ h1, ops0_keeps _ h0]

/-- A buffer the first three stretches do not write. -/
theorem keep012 {r : Ref sig .tc} (h0 : r ∉ written0) (h1 : r ∉ written1) (h2 : r ∉ written2) :
    after ops2 (after ops1 (after ops0 L)) (♯r) = L (♯r) := by
  rw [ops2_keeps _ h2, keep01 L h0 h1]

/-- The aggregated features of the first layer, left by the first stretch. -/
theorem feat1 : after ops0 L (♯main_v47) = Cert.Chain.aggR (Cert.Chain.srcRow (L (♯main_arg0))) (Cert.Chain.dstRow (L (♯main_arg0))) (L (♯main_arg1)) (Cert.Spec.mm (n := 100000) (k := 64) (m := 64) (L (♯main_arg4)) (L (♯main_arg5))) := by
  rw [w0_agg, dot64_eq]

/-- The aggregated features of the second layer, left by the first operation of the third stretch. -/
theorem feat2 : after ops2 (after ops1 (after ops0 L)) (♯main_v95) = Cert.Chain.aggR (Cert.Chain.srcRow (L (♯main_arg0))) (Cert.Chain.dstRow (L (♯main_arg0))) (L (♯main_arg1)) (Cert.Spec.mm (n := 100000) (k := 64) (m := 64) (Cert.Spec.act (n := 100000) (m := 64) (Cert.Chain.aggR (Cert.Chain.srcRow (L (♯main_arg0))) (Cert.Chain.dstRow (L (♯main_arg0))) (L (♯main_arg1)) (Cert.Spec.mm (n := 100000) (k := 64) (m := 64) (L (♯main_arg4)) (L (♯main_arg5)))) (Cert.Chain.row64 (L (♯main_arg6)))) (L (♯main_arg7))) := by
  rw [w1_agg, w0_src, w0_dst, feat1, ops0_keeps L (r := main_arg1) (by decide), ops0_keeps L (r := main_arg6) (by decide),
    ops0_keeps L (r := main_arg7) (by decide), lay64_eq, dot64_eq]

/-- The aggregated features of the third layer, left by the second operation of the last stretch. -/
theorem feat3 : after ops3 (after ops2 (after ops1 (after ops0 L))) (♯main_v143) = Cert.Chain.aggR (Cert.Chain.srcRow (L (♯main_arg0))) (Cert.Chain.dstRow (L (♯main_arg0))) (L (♯main_arg1)) (Cert.Spec.mm (n := 100000) (k := 64) (m := 64) (Cert.Spec.act (n := 100000) (m := 64) (Cert.Chain.aggR (Cert.Chain.srcRow (L (♯main_arg0))) (Cert.Chain.dstRow (L (♯main_arg0))) (L (♯main_arg1)) (Cert.Spec.mm (n := 100000) (k := 64) (m := 64) (Cert.Spec.act (n := 100000) (m := 64) (Cert.Chain.aggR (Cert.Chain.srcRow (L (♯main_arg0))) (Cert.Chain.dstRow (L (♯main_arg0))) (L (♯main_arg1)) (Cert.Spec.mm (n := 100000) (k := 64) (m := 64) (L (♯main_arg4)) (L (♯main_arg5)))) (Cert.Chain.row64 (L (♯main_arg6)))) (L (♯main_arg7)))) (Cert.Chain.row64 (L (♯main_arg8)))) (L (♯main_arg9))) := by
  rw [w2_agg, feat2, ops1_keeps _ (r := main_v1) (by decide), w0_src, ops1_keeps _ (r := main_v3) (by decide), w0_dst,
    keep01 L (r := main_arg1) (by decide) (by decide), keep01 L (r := main_arg8) (by decide) (by decide),
    keep01 L (r := main_arg9) (by decide) (by decide), lay64_eq, dot64_eq]

/-- The result buffer after the four stretches, from any starting contents: the network of the arguments' contents. -/
theorem value : after ops3 (after ops2 (after ops1 (after ops0 L))) (♯main_v173)
    = Cert.Network.out (L (♯main_arg0)) (L (♯main_arg1)) (L (♯main_arg2)) (L (♯main_arg3)) (L (♯main_arg4)) (L (♯main_arg5)) (L (♯main_arg6)) (L (♯main_arg7)) (L (♯main_arg8)) (L (♯main_arg9)) (L (♯main_arg10)) (L (♯main_arg11)) (L (♯main_arg12)) (L (♯main_arg13)) (L (♯main_arg14)) := by
  rw [w3_out, feat3, keep012 L (r := main_arg10) (by decide) (by decide) (by decide),
    keep012 L (r := main_arg2) (by decide) (by decide) (by decide),
    keep012 L (r := main_arg3) (by decide) (by decide) (by decide),
    keep012 L (r := main_arg11) (by decide) (by decide) (by decide),
    keep012 L (r := main_arg12) (by decide) (by decide) (by decide),
    keep012 L (r := main_arg13) (by decide) (by decide) (by decide),
    keep012 L (r := main_arg14) (by decide) (by decide) (by decide),
    lay64_eq, dot128_eq, lay6_eq, dot6_eq, lay3_eq]
  rfl

/-- At the launch contents of a device: the arguments' contents are the launch memory's. -/
theorem result (m : (ℓ : Loc nD τ sig) → Buf (Elt Ideal) ℓ) (d : Dev nD) :
    after ops3 (after ops2 (after ops1 (after ops0 (launchContents m d)))) (Proc.devRef .tc main_v173)
      = Cert.Network.out (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) (m ((d.tc : Thread nD τ).loc main_arg11)) (m ((d.tc : Thread nD τ).loc main_arg12)) (m ((d.tc : Thread nD τ).loc main_arg13)) (m ((d.tc : Thread nD τ).loc main_arg14)) :=
  value (launchContents m d)

/-- On every device, from any memory with zero counters: every weakly fair execution of the reference terminates,
    its result buffer holds the network of the launch contents of the arguments, and the arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v173) = Cert.Network.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c main_v173).trans (result m c),
      (h c main_arg0).trans (kept_arg0 _),
      (h c main_arg1).trans (kept_arg1 _),
      (h c main_arg2).trans (kept_arg2 _),
      (h c main_arg3).trans (kept_arg3 _),
      (h c main_arg4).trans (kept_arg4 _),
      (h c main_arg5).trans (kept_arg5 _),
      (h c main_arg6).trans (kept_arg6 _),
      (h c main_arg7).trans (kept_arg7 _),
      (h c main_arg8).trans (kept_arg8 _),
      (h c main_arg9).trans (kept_arg9 _),
      (h c main_arg10).trans (kept_arg10 _),
      (h c main_arg11).trans (kept_arg11 _),
      (h c main_arg12).trans (kept_arg12 _),
      (h c main_arg13).trans (kept_arg13 _),
      (h c main_arg14).trans (kept_arg14 _)⟩)
    (RefRun.run m ρ)

end Cert.ReferenceIdeal.RefValue

end
-- ==== Proof.lean ====
/-
  The certificate: a three-layer graph-convolution network with a two-layer head, computed by a program
  whose dense parts are five kernel regions, equals its reference of plain array operations, over the
  extended reals.

  Both programs compute ONE function of the fifteen argument arrays (Proof/Network.lean).  The graph part —
  the arcs with their self-loops, the degrees, the coefficients, the gather-scale-scatter aggregation, the
  pairing of rows for the head, the final log-softmax — is the same chain of host operations in both programs
  and is never opened (Proof/Chain.lean).  The dense part differs in form only: the kernel regions tile the
  rows into blocks, take each matrix product of a block as one sum per entry, and apply the bias and the leaky
  rectifier of a layer beside the NEXT layer's product; the reference contracts whole arrays and applies the
  rectifier layer by layer.  Block by block and entry by entry these are the same sums (Proof/Region0 … 4 for
  the regions, Proof/RefDense for the reference), and the two rectifiers — one decided by 0 < a, the other by
  0 ≤ a — agree because at a = 0 both give 0.  No step uses that the inputs are finite: sums are only regrouped,
  never distributed over.

  The kernel program's result is read through its thirteen segments (Proof/KernelRun, KernelFold); the
  reference's through its four windows of operations (Proof/RefRun, RefValue).  The word-level program is
  only framed; the idealization rewrote nothing, so it is preserved trivially.
-/
import proofs.«103955_j78099685311022_1_alg».proof.Defs
import proofs.«103955_j78099685311022_1_alg».proof.Proof.Gen.Kernel
import proofs.«103955_j78099685311022_1_alg».proof.Proof.Gen.Kernel.Skeleton
import proofs.«103955_j78099685311022_1_alg».proof.Proof.Gen.Kernel.Launch
import proofs.«103955_j78099685311022_1_alg».proof.Proof.Gen.Kernel.Points
import proofs.«103955_j78099685311022_1_alg».proof.Proof.Gen.Kernel.Frame
import proofs.«103955_j78099685311022_1_alg».proof.Proof.Gen.KernelIdeal
import proofs.«103955_j78099685311022_1_alg».proof.Proof.Gen.KernelIdeal.Skeleton
import proofs.«103955_j78099685311022_1_alg».proof.Proof.Gen.KernelIdeal.Launch
import proofs.«103955_j78099685311022_1_alg».proof.Proof.Gen.KernelIdeal.Points
import proofs.«103955_j78099685311022_1_alg».proof.Proof.Gen.KernelIdeal.Frame
import proofs.«103955_j78099685311022_1_alg».proof.Proof.Gen.ReferenceIdeal
import proofs.«103955_j78099685311022_1_alg».proof.Proof.Gen.Pre_finite_inputs
import proofs.«103955_j78099685311022_1_alg».proof.Proof.KernelRun
import proofs.«103955_j78099685311022_1_alg».proof.Proof.KernelFold
import proofs.«103955_j78099685311022_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- From memories that agree on the arguments both programs end with the network of those arguments in their
    result arrays. -/
theorem algebraic : Cert.algebraic_KernelIdeal_ReferenceIdeal := by
  intro m ρ m' ρ' _ hagree
  refine ⟨fun c => Cert.Network.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun _ h c => ⟨(h c).1.trans (Cert.KernelIdeal.Fold.result m ρ c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
